-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x4096x1024 : Shape := ⟨3, ![4, 4096, 1024]⟩
abbrev S1024x1024 : Shape := ⟨2, ![1024, 1024]⟩
abbrev S4x16x4096x64 : Shape := ⟨4, ![4, 16, 4096, 64]⟩
abbrev S1x256x1024 : Shape := ⟨3, ![1, 256, 1024]⟩
abbrev S1x16x256x64 : Shape := ⟨4, ![1, 16, 256, 64]⟩
abbrev S256x1024 : Shape := ⟨2, ![256, 1024]⟩
abbrev S256x16x64 : Shape := ⟨3, ![256, 16, 64]⟩
abbrev S16x256x64 : Shape := ⟨3, ![16, 256, 64]⟩
abbrev S4x16x64x64 : Shape := ⟨4, ![4, 16, 64, 64]⟩
abbrev S1x16x1024x64 : Shape := ⟨4, ![1, 16, 1024, 64]⟩
abbrev S1x16x64x64 : Shape := ⟨4, ![1, 16, 64, 64]⟩
abbrev S16x64x64 : Shape := ⟨3, ![16, 64, 64]⟩
abbrev S16x1024x64 : Shape := ⟨3, ![16, 1024, 64]⟩
abbrev S1x16x512x64 : Shape := ⟨4, ![1, 16, 512, 64]⟩
abbrev S1x512x1024 : Shape := ⟨3, ![1, 512, 1024]⟩
abbrev S16x512x64 : Shape := ⟨3, ![16, 512, 64]⟩
abbrev S16x512 : Shape := ⟨2, ![16, 512]⟩
abbrev S16x512x1 : Shape := ⟨3, ![16, 512, 1]⟩
abbrev S512x16x64 : Shape := ⟨3, ![512, 16, 64]⟩
abbrev S512x1024 : Shape := ⟨2, ![512, 1024]⟩

abbrev nBuf : Space → Nat
  | .hbm => 22
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S4x16x4096x64, .f32⟩
  | .hbm, ⟨17, _⟩ => ⟨S4x16x4096x64, .f32⟩
  | .hbm, ⟨18, _⟩ => ⟨S4x16x4096x64, .f32⟩
  | .hbm, ⟨19, _⟩ => ⟨S4x16x4096x64, .f32⟩
  | .hbm, ⟨20, _⟩ => ⟨S4x16x64x64, .f32⟩
  | .hbm, ⟨21, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x16x256x64, .f32⟩
  | .local _ .vmem, ⟨7, _⟩ => ⟨S1x16x256x64, .f32⟩
  | .local _ .vmem, ⟨8, _⟩ => ⟨S1x16x256x64, .f32⟩
  | .local _ .vmem, ⟨9, _⟩ => ⟨S1x16x256x64, .f32⟩
  | .local _ .vmem, ⟨10, _⟩ => ⟨S1x16x256x64, .f32⟩
  | .local _ .vmem, ⟨11, _⟩ => ⟨S1x16x256x64, .f32⟩
  | .local _ .vmem, ⟨12, _⟩ => ⟨S1x16x256x64, .f32⟩
  | .local _ .vmem, ⟨13, _⟩ => ⟨S1x16x256x64, .f32⟩
  | .local _ .vmem, ⟨14, _⟩ => ⟨S1x16x1024x64, .f32⟩
  | .local _ .vmem, ⟨15, _⟩ => ⟨S1x16x1024x64, .f32⟩
  | .local _ .vmem, ⟨16, _⟩ => ⟨S1x16x1024x64, .f32⟩
  | .local _ .vmem, ⟨17, _⟩ => ⟨S1x16x1024x64, .f32⟩
  | .local _ .vmem, ⟨18, _⟩ => ⟨S1x16x64x64, .f32⟩
  | .local _ .vmem, ⟨19, _⟩ => ⟨S1x16x64x64, .f32⟩
  | .local _ .vmem, ⟨20, _⟩ => ⟨S16x64x64, .f32⟩
  | .local _ .vmem, ⟨21, _⟩ => ⟨S1x16x512x64, .f32⟩
  | .local _ .vmem, ⟨22, _⟩ => ⟨S1x16x512x64, .f32⟩
  | .local _ .vmem, ⟨23, _⟩ => ⟨S1x16x512x64, .f32⟩
  | .local _ .vmem, ⟨24, _⟩ => ⟨S1x16x512x64, .f32⟩
  | .local _ .vmem, ⟨25, _⟩ => ⟨S1x16x64x64, .f32⟩
  | .local _ .vmem, ⟨26, _⟩ => ⟨S1x16x64x64, .f32⟩
  | .local _ .vmem, ⟨27, _⟩ => ⟨S1024x1024, .bf16⟩
  | .local _ .vmem, ⟨28, _⟩ => ⟨S1x512x1024, .f32⟩
  | .local _ .vmem, ⟨29, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_14 : BitVec 32 := 0#32
  let v17 : BitVec 1 := Scalar.cmpi .ne v16 c0_i32_14
  v17

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x16x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S1024x1024_S1024x1024_1_0 : S1024x1024.Transposes [1, 0] S1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x16x64 : S256x1024.ShapeCasts S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  inb_S1x16x1024x64_S1x16x1024x64_0_0_0_0 : ∀ a, (![0, 0, 0, 0] : Fin 4 → Nat) a + S1x16x1024x64.size a ≤ S1x16x1024x64.size a
  h_S1x16x1024x64 : 0 < S1x16x1024x64.numel
  shapeCasts_S1x16x1024x64_S16x1024x64 : S1x16x1024x64.ShapeCasts S16x1024x64
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  shapeCasts_S16x64x64_S1x16x64x64 : S16x64x64.ShapeCasts S1x16x64x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  reduces_S16x512x64_S16x512 : S16x512x64.Reduces [2] S16x512
  shapeCasts_S16x512_S16x512x1 : S16x512.ShapeCasts S16x512x1
  broadcasts_S16x512x1_S16x512x64 : S16x512x1.Broadcasts S16x512x64
  transposes_S16x512x64_p1_0_2_S512x16x64 : S16x512x64.Transposes [1, 0, 2] S512x16x64
  shapeCasts_S512x16x64_S512x1024 : S512x16x64.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S256x1024_S1024x1024_S256x1024_1_0_0_1_n_n_wf : DotDims.WF S256x1024 S1024x1024 S256x1024 [1] [0] [0] [1] [] []
  dot_S16x1024x64_S16x1024x64_S16x64x64_1_1_2_2_0_0_wf : DotDims.WF S16x1024x64 S16x1024x64 S16x64x64 [1] [1] [2] [2] [0] [0]
  dot_S16x512x64_S16x64x64_S16x512x64_2_1_1_2_0_0_wf : DotDims.WF S16x512x64 S16x64x64 S16x512x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x64.size a ≤ S4x16x4096x64.size a
  hwx0_5 : ∀ i : grid0.Coords, EltTy.bits .f32 = 32 ∨ (Rect.block (s := S4x16x4096x64) S1x16x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x256x64.size a ≤ S4x16x4096x64.size a
  hwx0_6 : ∀ i : grid0.Coords, EltTy.bits .f32 = 32 ∨ (Rect.block (s := S4x16x4096x64) S1x16x256x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x256x64.size a ≤ S4x16x4096x64.size a
  hwx0_7 : ∀ i : grid0.Coords, EltTy.bits .f32 = 32 ∨ (Rect.block (s := S4x16x4096x64) S1x16x256x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x256x64.size a ≤ S4x16x4096x64.size a
  hwx0_8 : ∀ i : grid0.Coords, EltTy.bits .f32 = 32 ∨ (Rect.block (s := S4x16x4096x64) S1x16x256x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x1024x64.size a ≤ S4x16x4096x64.size a
  hwx1_0 : ∀ i : grid1.Coords, EltTy.bits .f32 = 32 ∨ (Rect.block (s := S4x16x4096x64) S1x16x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1024x64.size a ≤ S4x16x4096x64.size a
  hwx1_1 : ∀ i : grid1.Coords, EltTy.bits .f32 = 32 ∨ (Rect.block (s := S4x16x4096x64) S1x16x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x64x64.size a ≤ S4x16x64x64.size a
  hwx1_2 : ∀ i : grid1.Coords, EltTy.bits .f32 = 32 ∨ (Rect.block (s := S4x16x64x64) S1x16x64x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S4x16x4096x64.size a
  hwx2_0 : ∀ i : grid2.Coords, EltTy.bits .f32 = 32 ∨ (Rect.block (s := S4x16x4096x64) S1x16x512x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x512x64.size a ≤ S4x16x4096x64.size a
  hwx2_1 : ∀ i : grid2.Coords, EltTy.bits .f32 = 32 ∨ (Rect.block (s := S4x16x4096x64) S1x16x512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x64x64.size a ≤ S4x16x64x64.size a
  hwx2_2 : ∀ i : grid2.Coords, EltTy.bits .f32 = 32 ∨ (Rect.block (s := S4x16x64x64) S1x16x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1024.size a ≤ S4x4096x1024.size a
  hwx2_4 : ∀ i : grid2.Coords, EltTy.bits .f32 = 32 ∨ (Rect.block (s := S4x4096x1024) S1x512x1024.size (cc2_transform_4 i) (hinb2_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S16x1024x64_S16x1024x64_S16x64x64_1_1_2_2_0_0 : DotDims S16x1024x64 S16x1024x64 S16x64x64 where
  lhsContracting := [1]
  rhsContracting := [1]
  lhsNonContracting := [2]
  rhsNonContracting := [2]
  lhsBatch := [0]
  rhsBatch := [0]
  wf := dot_S16x1024x64_S16x1024x64_S16x64x64_1_1_2_2_0_0_wf
def dot_S16x512x64_S16x64x64_S16x512x64_2_1_1_2_0_0 : DotDims S16x512x64 S16x64x64 S16x512x64 where
  lhsContracting := [2]
  rhsContracting := [1]
  lhsNonContracting := [1]
  rhsNonContracting := [2]
  lhsBatch := [0]
  rhsBatch := [0]
  wf := dot_S16x512x64_S16x64x64_S16x512x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x16x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x16x256x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_2) S1x16x256x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_3) S1x16x256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10_1) S1x16x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_2) S1x16x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x16x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v10_0) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_3) S1x16x512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x16x64x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x64x64 : Shape := ⟨4, ![4, 16, 64, 64]⟩
abbrev S4x16x4096 : Shape := ⟨3, ![4, 16, 4096]⟩
abbrev S4x16x4096x1 : Shape := ⟨4, ![4, 16, 4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x4096x1024, .f32⟩
  | .hbm, ⟨7, _⟩ => ⟨S4x4096x16x64, .f32⟩
  | .hbm, ⟨8, _⟩ => ⟨S4x16x4096x64, .f32⟩
  | .hbm, ⟨9, _⟩ => ⟨S_, .f32⟩
  | .hbm, ⟨10, _⟩ => ⟨S4x16x4096x64, .f32⟩
  | .hbm, ⟨11, _⟩ => ⟨S4x16x4096x64, .f32⟩
  | .hbm, ⟨12, _⟩ => ⟨S_, .f32⟩
  | .hbm, ⟨13, _⟩ => ⟨S4x16x4096x64, .f32⟩
  | .hbm, ⟨14, _⟩ => ⟨S4x16x4096x64, .f32⟩
  | .hbm, ⟨15, _⟩ => ⟨S4x4096x1024, .f32⟩
  | .hbm, ⟨16, _⟩ => ⟨S4x4096x16x64, .f32⟩
  | .hbm, ⟨17, _⟩ => ⟨S4x16x4096x64, .f32⟩
  | .hbm, ⟨18, _⟩ => ⟨S_, .f32⟩
  | .hbm, ⟨19, _⟩ => ⟨S4x16x4096x64, .f32⟩
  | .hbm, ⟨20, _⟩ => ⟨S4x16x4096x64, .f32⟩
  | .hbm, ⟨21, _⟩ => ⟨S_, .f32⟩
  | .hbm, ⟨22, _⟩ => ⟨S4x16x4096x64, .f32⟩
  | .hbm, ⟨23, _⟩ => ⟨S4x16x4096x64, .f32⟩
  | .hbm, ⟨24, _⟩ => ⟨S4x4096x1024, .f32⟩
  | .hbm, ⟨25, _⟩ => ⟨S4x4096x16x64, .f32⟩
  | .hbm, ⟨26, _⟩ => ⟨S4x16x4096x64, .f32⟩
  | .hbm, ⟨27, _⟩ => ⟨S4x4096x1024, .f32⟩
  | .hbm, ⟨28, _⟩ => ⟨S4x4096x16x64, .f32⟩
  | .hbm, ⟨29, _⟩ => ⟨S4x16x4096x64, .f32⟩
  | .hbm, ⟨30, _⟩ => ⟨S4x16x4096x64, .f32⟩
  | .hbm, ⟨31, _⟩ => ⟨S4x16x4096x64, .f32⟩
  | .hbm, ⟨32, _⟩ => ⟨S_, .f32⟩
  | .hbm, ⟨33, _⟩ => ⟨S4x16x4096x64, .f32⟩
  | .hbm, ⟨34, _⟩ => ⟨S4x16x4096x64, .f32⟩
  | .hbm, ⟨35, _⟩ => ⟨S_, .f32⟩
  | .hbm, ⟨36, _⟩ => ⟨S4x16x4096x64, .f32⟩
  | .hbm, ⟨37, _⟩ => ⟨S4x16x4096x64, .f32⟩
  | .hbm, ⟨38, _⟩ => ⟨S4x16x4096x64, .f32⟩
  | .hbm, ⟨39, _⟩ => ⟨S4x16x64x64, .f32⟩
  | .hbm, ⟨40, _⟩ => ⟨S4x16x4096x64, .f32⟩
  | .hbm, ⟨41, _⟩ => ⟨S_, .f32⟩
  | .hbm, ⟨42, _⟩ => ⟨S4x16x4096x64, .f32⟩
  | .hbm, ⟨43, _⟩ => ⟨S4x16x4096x64, .f32⟩
  | .hbm, ⟨44, _⟩ => ⟨S4x16x4096x64, .f32⟩
  | .hbm, ⟨45, _⟩ => ⟨S_, .f32⟩
  | .hbm, ⟨46, _⟩ => ⟨S4x16x4096, .f32⟩
  | .hbm, ⟨47, _⟩ => ⟨S4x16x4096x1, .f32⟩
  | .hbm, ⟨48, _⟩ => ⟨S4x16x4096x1, .f32⟩
  | .hbm, ⟨49, _⟩ => ⟨S_, .f32⟩
  | .hbm, ⟨50, _⟩ => ⟨S4x16x4096x1, .f32⟩
  | .hbm, ⟨51, _⟩ => ⟨S4x16x4096x1, .f32⟩
  | .hbm, ⟨52, _⟩ => ⟨S4x16x4096x64, .f32⟩
  | .hbm, ⟨53, _⟩ => ⟨S4x16x4096x64, .f32⟩
  | .hbm, ⟨54, _⟩ => ⟨S4x16x4096x64, .f32⟩
  | .hbm, ⟨55, _⟩ => ⟨S4x4096x16x64, .f32⟩
  | .hbm, ⟨56, _⟩ => ⟨S4x4096x1024, .f32⟩
  | .hbm, ⟨57, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_call3_cst : Ref sig .tc := ⟨.hbm, 45, rfl⟩
abbrev main_call3_v1 : Ref sig .tc := ⟨.hbm, 46, rfl⟩
abbrev main_call3_v2 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩

abbrev nD : Nat := 1
abbrev τ : Topo := Topo.v7x

variable {F : FTy → Type} [FloatOps F]

class Facts₀ : Prop where
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  bcast_S_S4x16x4096x64 : S_.BroadcastsInDim S4x16x4096x64 (![] : Fin 0 → Fin S4x16x4096x64.rank)
  reducesTo_S4x16x4096x64_S4x16x4096_d3 : S4x16x4096x64.ReducesTo [3] S4x16x4096
  h_S_ : 0 < S_.numel
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S4x16x4096x1_S4x16x4096x64_0_1_2_3 : S4x16x4096x1.BroadcastsInDim S4x16x4096x64 (![0, 1, 2, 3] : Fin 4 → Fin S4x16x4096x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  dot_S4x4096x1024_S1024x1024_S4x4096x1024_2_1_01_0_n_n_wf : DotDims.WF S4x4096x1024 S1024x1024 S4x4096x1024 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf

class Facts : Prop extends Facts₀ where

variable [Facts]
-- ==== Proof.K.Reg0.lean ====
import proofs.«160171_j67336497267250_2_alg».proof.Proof.Gen.Kernel.Launch
import proofs.«160171_j67336497267250_2_alg».proof.Proof.Gen.Kernel.Skeleton
import proofs.«160171_j67336497267250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # Region 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index has
    not moved, so the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index has
    not moved, so the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index has
    not moved, so the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index has
    not moved, so the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index has
    not moved, so the buffer still holds the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0x : Rect S1x256x1024 := Rect.unit (s := S1x256x1024) ![0, 0, 0] S1x256x1024.size inb_S1x256x1024_S1x256x1024_0_0_0
abbrev r0w : Rect S1024x1024 := Rect.unit (s := S1024x1024) ![0, 0] S1024x1024.size inb_S1024x1024_S1024x1024_0_0
abbrev r0o : Rect S1x16x256x64 := Rect.unit (s := S1x16x256x64) ![0, 0, 0, 0] S1x16x256x64.size inb_S1x16x256x64_S1x16x256x64_0_0_0_0

/-! ## What the body leaves in each output window's buffer -/

/-- Window 5's staging buffer after the body, from the input windows' blocks: its one store as a piece (the
    payloads are the skeleton's). The body's load of each output buffer just before its store is dead: its value
    reaches no payload. -/
def out0_5 (x0 : Vec F S1x256x1024 .f32) (x1 : Vec F S1024x1024 .bf16) : Vec F S1x16x256x64 .f32 :=
  View.canon [⟨r0o, k0_pay7 (View.ld x0 r0x) (View.ld x1 r0w)⟩]
/-- Window 6's staging buffer after the body. -/
def out0_6 (x0 : Vec F S1x256x1024 .f32) (x2 : Vec F S1024x1024 .bf16) : Vec F S1x16x256x64 .f32 :=
  View.canon [⟨r0o, k0_pay1 (k0_pay8 (View.ld x0 r0x) (View.ld x2 r0w))⟩]
/-- Window 7's staging buffer after the body. -/
def out0_7 (x0 : Vec F S1x256x1024 .f32) (x3 : Vec F S1024x1024 .bf16) : Vec F S1x16x256x64 .f32 :=
  View.canon [⟨r0o, k0_pay2 (k0_pay5 (View.ld x0 r0x) (View.ld x3 r0w))⟩]
/-- Window 8's staging buffer after the body. -/
def out0_8 (x0 : Vec F S1x256x1024 .f32) (x4 : Vec F S1024x1024 .bf16) : Vec F S1x16x256x64 .f32 :=
  View.canon [⟨r0o, k0_pay3 (k0_pay6 (View.ld x0 r0x) (View.ld x4 r0w))⟩]

/-- An output window's one store tiles its buffer (checked by evaluation), so it covers it: the four outputs have
    one shape and one rectangle. -/
theorem cover0_o (p0 : Vec F S1x16x256x64 .f32) (y : S1x16x256x64.Idx) :
    ∃ pc ∈ ([⟨r0o, p0⟩] : List (View.Piece (Elt F) S1x16x256x64 .f32)), y ∈ pc.1.set :=
  View.cover_of_tiled [⟨r0o, p0⟩] S1x16x256x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons, whose memory operations are run one by one, through the part; the load of each output
    buffer before its store reads contents no payload uses. -/
theorem sound_kernel0 (c : Dev nD) (E : Set ℕ) (i : grid0.Coords)
    (arg0 : Memref sig .tc .vmem S1x256x1024 .f32) (harg0 : arg0.IsWhole) (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x16x256x64 .f32) (harg5 : arg5.IsWhole) (arg6 : Memref sig .tc .vmem S1x16x256x64 .f32) (harg6 : arg6.IsWhole)
    (arg7 : Memref sig .tc .vmem S1x16x256x64 .f32) (harg7 : arg7.IsWhole) (arg8 : Memref sig .tc .vmem S1x16x256x64 .f32) (harg8 : arg8.IsWhole)
    (x0 : Vec F S1x256x1024 .f32) (x1 x2 x3 x4 : Vec F S1024x1024 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1) ∗ owns (c : Thread nD τ) arg6 fullShare (out0_6 x0 x2)
            ∗ owns (c : Thread nD τ) arg7 fullShare (out0_7 x0 x3) ∗ owns (c : Thread nD τ) arg8 fullShare (out0_8 x0 x4)) -∗ K ⟨⟩))
      ⊢ wp frame (wpE (defs₀ (F := F)) Variants.none c none) E
          (cc0__proj_kernel i arg0 harg0 arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  isplitl [H6]
  · iexists _; isplitr
    swap; · iexact H6
    ipureintro
    exact View.read_writes_eq_canon _ _ _ (cover0_o _)
  isplitl [H7]
  · iexists _; isplitr
    swap; · iexact H7
    ipureintro
    exact View.read_writes_eq_canon _ _ _ (cover0_o _)
  iexists _; isplitr
  swap; · iexact H8
  ipureintro
  exact View.read_writes_eq_canon _ _ _ (cover0_o _)

/-! ## The pipeline's proof data -/

/-- The proof data of pipeline 0 on core `c`: the arrays as the region finds them (`V`); after the body at
    point `t` each input's buffer at its block and each output's at `out0_W` of the input blocks; the invariant:
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t)
    | ⟨6, _⟩ => out0_6 (iblk0 V c 0 t) (iblk0 V c 2 t)
    | ⟨7, _⟩ => out0_7 (iblk0 V c 0 t) (iblk0 V c 3 t)
    | ⟨8, _⟩ => out0_8 (iblk0 V c 0 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 3 t) := by dsimp only [dat0]
theorem after0_8 (c : Dev nD) (t : Fin cfg0.N) : (dat0 V c).after 8 t = out0_8 (iblk0 V c 0 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.K.Reg1.Runs.lean ====
import proofs.«160171_j67336497267250_2_alg».proof.Proof.Gen.Kernel.Launch
import proofs.«160171_j67336497267250_2_alg».proof.Proof.Gen.Kernel.Skeleton
import proofs.«160171_j67336497267250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 1 (the state kernel): what its three case runs share

The body has two conditionals on the second grid coordinate: the first (taken where that coordinate is 0)
zero-fills the accumulator scratch, the second (taken where it is 3) copies the scratch to the output block.
Every point adds the product of its two input blocks to the scratch. -/

/-! ## The body's branch conditions -/

/-- The condition of the first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second conditional, from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0 and 1 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional is not taken the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it is taken the output window is live: the body stores into it. -/
theorem liveAt1_2_C : ∀ t : Fin cfg1.N, ¬cond1_0 (grid1.coords t) → cond1_1 (grid1.coords t) → cfg1.idle 2 (grid1.coords t) = false := by decide +kernel

/-! ## The staging and scratch memrefs -/

/-- One staging buffer of the output window, through which its contents are stated. -/
abbrev VO1_2 : View sig .tc .vmem S1x16x64x64 .f32 := (Memref.whole cc1_stg2_0 : Memref sig .tc .vmem S1x16x64x64 .f32).view
/-- Each window's current staging memref at point `t`, and its wholeness. -/
abbrev ms1_0 (t : Fin cfg1.N) : Memref sig .tc .vmem S1x16x1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x64x64 .f32 := win1_2.stage (cfg1.slots t 2)
abbrev hs1_2 (t : Fin cfg1.N) : (ms1_2 t).IsWhole := hstage1_2 ((cfg1.slots t 2).cast nbuf1_2)
/-- The accumulator scratch: a whole scoped buffer of the kernel's own. -/
abbrev scM1_0 : Memref sig .tc .vmem S16x64x64 .f32 := Memref.whole cc1_scratch0
/-- The same as a view: what the scratch holds is stated through it. -/
abbrev VS1_0 : View sig .tc .vmem S16x64x64 .f32 := scM1_0.view

/-- The region invariant with the accumulator scratch as a memref owned at some contents, the core's other scoped
    buffers left unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [Idealize.SL.BI.bigSepL_singleton, scM1_0, owns_whole]; try rfl

section Blocks
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.Reg1.RunA.lean ====
import proofs.«160171_j67336497267250_2_alg».proof.Proof.K.Reg1.Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- What the body's stores leave in the output's staging memref and in the scratch, as pieces (last first), at a
    point where the first conditional is taken and the second is not, with the proof that on whole memrefs — the
    inputs' at their contents, the output's at contents handed back untouched, the scratch at anything — the body
    runs to the continuation holding the inputs' and the output's as they were and the scratch with its pieces
    written. The pieces are the witness the run finds. -/
noncomputable def kernelRun1_A (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) :
    Σ' (L2 : List (View.Piece (Elt F) S1x16x64x64 .f32)), { LS0 : List (View.Piece (Elt F) S16x64x64 .f32) //
      ∀ (xi2 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__state_kernel i arg2 harg2 arg3 harg3 arg4 harg4 arg5 harg5) K } := by
  refine ⟨[], ?_, fun xi2 E K => ?run⟩
  case run =>
    simp only [cc1__state_kernel_eq_skeleton]; unfold cc1__state_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg1.RunB.lean ====
import proofs.«160171_j67336497267250_2_alg».proof.Proof.K.Reg1.RunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The same at a point where neither conditional is taken: the scratch comes in at the contents the point
    before left. -/
noncomputable def kernelRun1_B (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) :
    Σ' (L2 : List (View.Piece (Elt F) S1x16x64x64 .f32)), { LS0 : List (View.Piece (Elt F) S16x64x64 .f32) //
      ∀ (xi2 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__state_kernel i arg2 harg2 arg3 harg3 arg4 harg4 arg5 harg5) K } := by
  refine ⟨[], ?_, fun xi2 E K => ?run⟩
  case run =>
    simp only [cc1__state_kernel_eq_skeleton]; unfold cc1__state_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg1.RunC.lean ====
import proofs.«160171_j67336497267250_2_alg».proof.Proof.K.Reg1.RunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The same at a point where the first conditional is not taken and the second is: the output's memref comes in
    at anything and leaves with its pieces written. -/
noncomputable def kernelRun1_C (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) :
    Σ' (L2 : List (View.Piece (Elt F) S1x16x64x64 .f32)), { LS0 : List (View.Piece (Elt F) S16x64x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__state_kernel i arg2 harg2 arg3 harg3 arg4 harg4 arg5 harg5) K } := by
  refine ⟨?_, ?_, fun E K => ?run⟩
  case run =>
    simp only [cc1__state_kernel_eq_skeleton]; unfold cc1__state_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Reg1.lean ====
import proofs.«160171_j67336497267250_2_alg».proof.Proof.K.Reg1.RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 1 (the state kernel): the frame half, at the entry contents `V`

What the output window's staging buffer and the accumulator scratch hold after every point, the proof data, the
body obligation. -/

/-- Case A stores nothing into the output window (idle there and not written back): no pieces — a placeholder
    nothing consults. -/
def out1_A_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) : Vec F S1x16x64x64 .f32 :=
  VO1_2.read (Elt F) (VO1_2.writes (Elt F) VO1_2.junk (kernelRun1_A c i arg2 harg2 arg3 harg3 arg4 harg4 arg5 harg5 hc0 hc1 x0 x1).1)

/-- Case A's pieces for the scratch tile it, so they cover it. -/
theorem scover1_A_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) (y : S16x64x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S16x64x64.size (by sl_kernel_rfl) y

/-- What case A leaves in the scratch: its pieces read back over junk. -/
def sout1_A_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) : Vec F S16x64x64 .f32 :=
  VS1_0.read (Elt F) (VS1_0.writes (Elt F) VS1_0.junk (kernelRun1_A c i arg2 harg2 arg3 harg3 arg4 harg4 arg5 harg5 hc0 hc1 x0 x1).2.1)

/-- Case B stores nothing into the output window (idle there and not written back): no pieces — a placeholder
    nothing consults. -/
def out1_B_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) : Vec F S1x16x64x64 .f32 :=
  VO1_2.read (Elt F) (VO1_2.writes (Elt F) VO1_2.junk (kernelRun1_B c i arg2 harg2 arg3 harg3 arg4 harg4 arg5 harg5 hc0 hc1 x0 x1 xs0).1)

/-- Case B's pieces for the scratch tile it, so they cover it. -/
theorem scover1_B_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) (y : S16x64x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S16x64x64.size (by sl_kernel_rfl) y

/-- What case B leaves in the scratch: its pieces read back over junk. -/
def sout1_B_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) : Vec F S16x64x64 .f32 :=
  VS1_0.read (Elt F) (VS1_0.writes (Elt F) VS1_0.junk (kernelRun1_B c i arg2 harg2 arg3 harg3 arg4 harg4 arg5 harg5 hc0 hc1 x0 x1 xs0).2.1)

/-- The output's pieces in case C tile its block, so they cover it. -/
theorem cover1_C_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) (y : S1x16x64x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x16x64x64.size (by sl_kernel_rfl) y

/-- What case C leaves in the output's staging buffer: its pieces read back over junk. -/
def out1_C_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) : Vec F S1x16x64x64 .f32 :=
  VO1_2.read (Elt F) (VO1_2.writes (Elt F) VO1_2.junk (kernelRun1_C c i arg2 harg2 arg3 harg3 arg4 harg4 arg5 harg5 hc0 hc1 x0 x1 xs0).1)

/-- Case C's pieces for the scratch tile it, so they cover it. -/
theorem scover1_C_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) (y : S16x64x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S16x64x64.size (by sl_kernel_rfl) y

/-- What case C leaves in the scratch: its pieces read back over junk. -/
def sout1_C_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) : Vec F S16x64x64 .f32 :=
  VS1_0.read (Elt F) (VS1_0.writes (Elt F) VS1_0.junk (kernelRun1_C c i arg2 harg2 arg3 harg3 arg4 harg4 arg5 harg5 hc0 hc1 x0 x1 xs0).2.1)

-- the TensorCore's buffer contents when the region is entered: a PARAMETER
variable (V : (c : Dev nD) → (b : Ref sig .tc) → Buf (Elt F) ((c : Thread nD τ).loc b))

/-! ## What the output's buffer and the scratch hold after each point -/

/-- THE ACCUMULATION: what the output window's staging buffer and the scratch hold after the body at position `n`:
    the case the closed forms select at `n`, run at the point's memrefs and input blocks, the scratch coming in at
    what position `n - 1` left. -/
def outsAt1 (c : Dev nD) : (n : ℕ) → n < cfg1.N → Vec F S1x16x64x64 .f32 × Vec F S16x64x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by have hN : n + 1 < 16 := lt_of_lt_of_eq hn (show cfg1.N = 16 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the scratch at what the point before left in it, the other scoped buffers unopened, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of region 1 on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    so that case's run applies; the invariant hands the body the scratch at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K.Reg2.lean ====
import proofs.«160171_j67336497267250_2_alg».proof.Proof.Gen.Kernel.Launch
import proofs.«160171_j67336497267250_2_alg».proof.Proof.Gen.Kernel.Skeleton
import proofs.«160171_j67336497267250_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # Region 2 of @main: custom_call 2, `cc2__out_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index has
    not moved, so the buffer still holds the previous point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index has
    not moved, so the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index has
    not moved, so the buffer still holds the previous point's block, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index has
    not moved, so the buffer still holds the previous point's block, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2q : Rect S1x16x512x64 := Rect.unit (s := S1x16x512x64) ![0, 0, 0, 0] S1x16x512x64.size inb_S1x16x512x64_S1x16x512x64_0_0_0_0
abbrev r2s : Rect S1x16x64x64 := Rect.unit (s := S1x16x64x64) ![0, 0, 0, 0] S1x16x64x64.size inb_S1x16x64x64_S1x16x64x64_0_0_0_0
abbrev r2w : Rect S1024x1024 := Rect.unit (s := S1024x1024) ![0, 0] S1024x1024.size inb_S1024x1024_S1024x1024_0_0
abbrev r2o : Rect S1x512x1024 := Rect.unit (s := S1x512x1024) ![0, 0, 0] S1x512x1024.size inb_S1x512x1024_S1x512x1024_0_0_0

/-! ## What the body leaves in the output window's buffer -/

/-- Window 4's staging buffer after the body, from the input windows' blocks: its one store as a piece
    (the payload is the skeleton's). The body's load of the buffer just before the store is dead: its value
    reaches no payload. -/
def out2_4 (x0 x1 : Vec F S1x16x512x64 .f32) (x2 : Vec F S1x16x64x64 .f32) (x3 : Vec F S1024x1024 .bf16) : Vec F S1x512x1024 .f32 :=
  View.canon [⟨r2o, k2_pay1 (View.ld x0 r2q) (View.ld x1 r2q) (View.ld x2 r2s) (View.ld x3 r2w)⟩]

/-- Its store tiles the buffer (checked by evaluation), so it covers it. -/
theorem cover2_4 (p0 : Vec F S1x512x1024 .f32) (y : S1x512x1024.Idx) :
    ∃ pc ∈ ([⟨r2o, p0⟩] : List (View.Piece (Elt F) S1x512x1024 .f32)), y ∈ pc.1.set :=
  View.cover_of_tiled [⟨r2o, p0⟩] S1x512x1024.size (by rfl) y

/-! ## The body's triple -/

set_option maxHeartbeats 1000000 in
/-- The kernel body on whole staging memrefs, the inputs' at read contents `xW` and the output's at anything, runs to
    the continuation holding the inputs' as they were and the output's at `out2_4` of the inputs': the printed function
    is its skeleton, whose memory operations are run one by one; the load of the output buffer before its store
    reads contents no payload uses. -/
theorem sound_kernel2 (c : Dev nD) (E : Set ℕ) (i : grid2.Coords)
    (arg0 : Memref sig .tc .vmem S1x16x512x64 .f32) (harg0 : arg0.IsWhole) (arg1 : Memref sig .tc .vmem S1x16x512x64 .f32) (harg1 : arg1.IsWhole)
    (arg2 : Memref sig .tc .vmem S1x16x64x64 .f32) (harg2 : arg2.IsWhole) (arg3 : Memref sig .tc .vmem S1024x1024 .bf16) (harg3 : arg3.IsWhole)
    (arg4 : Memref sig .tc .vmem S1x512x1024 .f32) (harg4 : arg4.IsWhole)
    (x0 x1 : Vec F S1x16x512x64 .f32) (x2 : Vec F S1x16x64x64 .f32) (x3 : Vec F S1024x1024 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__out_kernel i arg0 harg0 arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the invariant:
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
end
-- ==== Proof.K.Run.lean ====
/-
  The run of the whole program: ten host operations (the five weight matrices transposed and rounded), then three
  kernel regions — the four projections q, k, v, u of x; the per-head state, the sum over the sequence of k ⊗ v,
  accumulated tile by tile in a scratch buffer; the read-out q · state, normalised, gated by u and projected by Wo.
  The contents of every unscoped buffer at each boundary are folded from the launch memory: a host stretch applies its
  operations, a region replaces its windows' arrays by what the write-backs leave and keeps every other buffer. Each
  region is entered from the boundary before it and left at the one after it, its proof data taken at the contents it is
  entered with. From this one run follow the frame (no argument array is ever written) and the result array as
  region 2's output array after its write-backs.
-/
import proofs.«160171_j67336497267250_2_alg».proof.Proof.K.Reg0
import proofs.«160171_j67336497267250_2_alg».proof.Proof.K.Reg1
import proofs.«160171_j67336497267250_2_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: ten host operations, then the three kernel regions in order

## The buffers' contents at each boundary, folded from the launch memory -/

/-- Core `c`'s buffers at launch. -/
abbrev W0 : Dev nD → Valuation τ sig (Elt F) := fun c b => (s₀ m ρ).mem ((c : Dev nD), b)
/-- After the host operations (the five transposed weights, rounded): what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The buffers' contents when region 0 is left: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers' contents when region 1 is left: its windows' arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers' contents when region 2 is left: its windows' arrays at what the write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- Argument 0 ends as launched: no host operation writes it and no region's write-back reaches it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 ends as launched: no host operation writes it and no region's write-back reaches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 ends as launched: no host operation writes it and no region's write-back reaches it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 ends as launched: no host operation writes it and no region's write-back reaches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 ends as launched: no host operation writes it and no region's write-back reaches it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 ends as launched: no host operation writes it and no region's write-back reaches it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state between segments -/

/-- No pipeline has a prefetched table. -/
abbrev adm : (p : Fin 3) → (pcfgs (F := F) p).Adm := fun p => (cfgs p).toPCfg_adm
/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the core's `owes`. -/
abbrev Tₙ (c : Dev nD) : sProp 𝕄 := iprop(StableHlo.held (c : Thread nD τ) (Pipeline.ucRefs τ sig) (W4 m ρ c) ∗ ∃ r, prngReg c r)

/-- Reordering around a region's invariant: the generator register and the scoped rest trade places, a table-free
    pipeline's (empty) table resource is dropped. -/
theorem in_shuffle (X P S : sProp 𝕄) : iprop(X ∗ P ∗ S) ⊢ iprop(S ∗ X) := by
  iintro ⟨Hp, -, Hr⟩
  isplitl [Hr]; · iexact Hr
  iexact Hp
theorem out_shuffle (S X : sProp 𝕄) : iprop(S ∗ X) ⊢ iprop(X ∗ BI.emp ∗ S) := by
  iintro ⟨Hr, Hp⟩
  isplitl [Hp]; · iexact Hp
  isplitr; · iempintro
  iexact Hr

/-! ## The regions as segments -/

set_option backward.isDefEq.respectTransparency.types false in
/-- Region 0 as a segment: entered with every unscoped buffer at the contents before it, left with them at the
    contents after it; its windows' arrays are split out of the unscoped buffers at entry and put back, at what the
    write-backs leave, at exit; the generator register passes through the region's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its windows' arrays are split out of the unscoped buffers at entry and put back, at what the
    write-backs leave, at exit; the generator register passes through the region's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (in_shuffle _ _ _).trans (hin1 (V2 m ρ) c)
  hout c := by
    rw [Pipeline.ownSems0_none]
    exact (hout1 (V2 m ρ) c).trans (out_shuffle _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its windows' arrays are split out of the unscoped buffers at entry and put back, at what the
    write-backs leave, at exit; the generator register passes through the region's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates without a fault, and in every
    final memory each unscoped buffer of each core holds the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_main m ρ)

/-- The result array after the run is what region 2's write-backs leave in its output window's array. -/
theorem result_eq (c : Dev nD) : W4 m ρ c (Proc.devRef .tc main_v12) = (dat2 (V3 m ρ) c).arrAt 4 cfg2.N :=
  W4_arr m ρ c 4

/-! ## What each region is entered with, in terms of the launch memory and the earlier regions' final arrays -/

section Chain
variable (m : (ℓ : Loc nD τ sig) → Buf (Elt F) ℓ) (ρ : Dev nD → PrngReg)

/-- Region 0's first window's array is the argument `x` as launched. -/
theorem V1_main_arg0 (c : Dev nD) : V1 m ρ c main_arg0 = m ((c : Thread nD τ).loc main_arg0) :=
  ((W2_arr m ρ c 0).trans (((dat0 (V1 m ρ) c).arrAt_in 0 rfl _).trans (A_eq0 (V1 m ρ) c 0))).symm.trans
    (((W3_of_ne m ρ c main_arg0 (by decide)).symm.trans ((W4_of_ne m ρ c main_arg0 (by decide)).symm)).trans (W4_main_arg0 m ρ c))

/-- The rounded transposes the host computes before region 0. -/
theorem V1_main_v1 (c : Dev nD) : V1 m ρ c main_v1 = truncf .bf16 (transpose S1024x1024 [1, 0] (m ((c : Thread nD τ).loc main_arg1)) transposes_S1024x1024_S1024x1024_1_0) bitsLt_bf16_f32 := by
  show StableHlo.after hostOps0 (fun b => m (c, b)) (Proc.devRef .tc main_v1) = _
  after_results
theorem V1_main_v3 (c : Dev nD) : V1 m ρ c main_v3 = truncf .bf16 (transpose S1024x1024 [1, 0] (m ((c : Thread nD τ).loc main_arg2)) transposes_S1024x1024_S1024x1024_1_0) bitsLt_bf16_f32 := by
  show StableHlo.after hostOps0 (fun b => m (c, b)) (Proc.devRef .tc main_v3) = _
  after_results
theorem V1_main_v5 (c : Dev nD) : V1 m ρ c main_v5 = truncf .bf16 (transpose S1024x1024 [1, 0] (m ((c : Thread nD τ).loc main_arg3)) transposes_S1024x1024_S1024x1024_1_0) bitsLt_bf16_f32 := by
  show StableHlo.after hostOps0 (fun b => m (c, b)) (Proc.devRef .tc main_v5) = _
  after_results
theorem V1_main_v7 (c : Dev nD) : V1 m ρ c main_v7 = truncf .bf16 (transpose S1024x1024 [1, 0] (m ((c : Thread nD τ).loc main_arg4)) transposes_S1024x1024_S1024x1024_1_0) bitsLt_bf16_f32 := by
  show StableHlo.after hostOps0 (fun b => m (c, b)) (Proc.devRef .tc main_v7) = _
  after_results
theorem V1_main_v9 (c : Dev nD) : V1 m ρ c main_v9 = truncf .bf16 (transpose S1024x1024 [1, 0] (m ((c : Thread nD τ).loc main_arg5)) transposes_S1024x1024_S1024x1024_1_0) bitsLt_bf16_f32 := by
  show StableHlo.after hostOps0 (fun b => m (c, b)) (Proc.devRef .tc main_v9) = _
  after_results

/-- Region 1 reads the `k` and `v` arrays region 0 left. -/
theorem V2_main_v10_1 (c : Dev nD) : V2 m ρ c main_v10_1 = (dat0 (V1 m ρ) c).arrAt 6 cfg0.N := W2_arr m ρ c 6
theorem V2_main_v10_2 (c : Dev nD) : V2 m ρ c main_v10_2 = (dat0 (V1 m ρ) c).arrAt 7 cfg0.N := W2_arr m ρ c 7
/-- Region 2 reads the `q` and `u` arrays region 0 left, the state array region 1 left, and the host's rounded transpose of `Wo`. -/
theorem V3_main_v10_0 (c : Dev nD) : V3 m ρ c main_v10_0 = (dat0 (V1 m ρ) c).arrAt 5 cfg0.N :=
  (W3_of_ne m ρ c main_v10_0 (by decide)).trans (W2_arr m ρ c 5)
theorem V3_main_v10_3 (c : Dev nD) : V3 m ρ c main_v10_3 = (dat0 (V1 m ρ) c).arrAt 8 cfg0.N :=
  (W3_of_ne m ρ c main_v10_3 (by decide)).trans (W2_arr m ρ c 8)
theorem V3_main_v11 (c : Dev nD) : V3 m ρ c main_v11 = (dat1 (V2 m ρ) c).arrAt 2 cfg1.N := W3_arr m ρ c 2
theorem V3_main_v9 (c : Dev nD) : V3 m ρ c main_v9 = V1 m ρ c main_v9 :=
  (W3_of_ne m ρ c main_v9 (by decide)).trans (W2_of_ne m ρ c main_v9 (by decide))
end Chain

end Cert.Kernel.Hand

end
-- ==== Proof.KI.Reg0.lean ====
import proofs.«160171_j67336497267250_2_alg».proof.Proof.Gen.KernelIdeal.Launch
import proofs.«160171_j67336497267250_2_alg».proof.Proof.Gen.KernelIdeal.Skeleton
import proofs.«160171_j67336497267250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # Region 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index has
    not moved, so the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index has
    not moved, so the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index has
    not moved, so the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index has
    not moved, so the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index has
    not moved, so the buffer still holds the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0x : Rect S1x256x1024 := Rect.unit (s := S1x256x1024) ![0, 0, 0] S1x256x1024.size inb_S1x256x1024_S1x256x1024_0_0_0
abbrev r0w : Rect S1024x1024 := Rect.unit (s := S1024x1024) ![0, 0] S1024x1024.size inb_S1024x1024_S1024x1024_0_0
abbrev r0o : Rect S1x16x256x64 := Rect.unit (s := S1x16x256x64) ![0, 0, 0, 0] S1x16x256x64.size inb_S1x16x256x64_S1x16x256x64_0_0_0_0

/-! ## What the body leaves in each output window's buffer -/

/-- Window 5's staging buffer after the body, from the input windows' blocks: its one store as a piece (the
    payloads are the skeleton's). The body's load of each output buffer just before its store is dead: its value
    reaches no payload. -/
def out0_5 (x0 : Vec F S1x256x1024 .f32) (x1 : Vec F S1024x1024 .bf16) : Vec F S1x16x256x64 .f32 :=
  View.canon [⟨r0o, k0_pay7 (View.ld x0 r0x) (View.ld x1 r0w)⟩]
/-- Window 6's staging buffer after the body. -/
def out0_6 (x0 : Vec F S1x256x1024 .f32) (x2 : Vec F S1024x1024 .bf16) : Vec F S1x16x256x64 .f32 :=
  View.canon [⟨r0o, k0_pay1 (k0_pay8 (View.ld x0 r0x) (View.ld x2 r0w))⟩]
/-- Window 7's staging buffer after the body. -/
def out0_7 (x0 : Vec F S1x256x1024 .f32) (x3 : Vec F S1024x1024 .bf16) : Vec F S1x16x256x64 .f32 :=
  View.canon [⟨r0o, k0_pay2 (k0_pay5 (View.ld x0 r0x) (View.ld x3 r0w))⟩]
/-- Window 8's staging buffer after the body. -/
def out0_8 (x0 : Vec F S1x256x1024 .f32) (x4 : Vec F S1024x1024 .bf16) : Vec F S1x16x256x64 .f32 :=
  View.canon [⟨r0o, k0_pay3 (k0_pay6 (View.ld x0 r0x) (View.ld x4 r0w))⟩]

/-- An output window's one store tiles its buffer (checked by evaluation), so it covers it: the four outputs have
    one shape and one rectangle. -/
theorem cover0_o (p0 : Vec F S1x16x256x64 .f32) (y : S1x16x256x64.Idx) :
    ∃ pc ∈ ([⟨r0o, p0⟩] : List (View.Piece (Elt F) S1x16x256x64 .f32)), y ∈ pc.1.set :=
  View.cover_of_tiled [⟨r0o, p0⟩] S1x16x256x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons, whose memory operations are run one by one, through the part; the load of each output
    buffer before its store reads contents no payload uses. -/
theorem sound_kernel0 (c : Dev nD) (E : Set ℕ) (i : grid0.Coords)
    (arg0 : Memref sig .tc .vmem S1x256x1024 .f32) (harg0 : arg0.IsWhole) (arg1 : Memref sig .tc .vmem S1024x1024 .bf16) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1x16x256x64 .f32) (harg5 : arg5.IsWhole) (arg6 : Memref sig .tc .vmem S1x16x256x64 .f32) (harg6 : arg6.IsWhole)
    (arg7 : Memref sig .tc .vmem S1x16x256x64 .f32) (harg7 : arg7.IsWhole) (arg8 : Memref sig .tc .vmem S1x16x256x64 .f32) (harg8 : arg8.IsWhole)
    (x0 : Vec F S1x256x1024 .f32) (x1 x2 x3 x4 : Vec F S1024x1024 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1) ∗ owns (c : Thread nD τ) arg6 fullShare (out0_6 x0 x2)
            ∗ owns (c : Thread nD τ) arg7 fullShare (out0_7 x0 x3) ∗ owns (c : Thread nD τ) arg8 fullShare (out0_8 x0 x4)) -∗ K ⟨⟩))
      ⊢ wp frame (wpE (defs₀ (F := F)) Variants.none c none) E
          (cc0__proj_kernel i arg0 harg0 arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_o _)
  isplitl [H6]
  · iexists _; isplitr
    swap; · iexact H6
    ipureintro
    exact View.read_writes_eq_canon _ _ _ (cover0_o _)
  isplitl [H7]
  · iexists _; isplitr
    swap; · iexact H7
    ipureintro
    exact View.read_writes_eq_canon _ _ _ (cover0_o _)
  iexists _; isplitr
  swap; · iexact H8
  ipureintro
  exact View.read_writes_eq_canon _ _ _ (cover0_o _)

/-! ## The pipeline's proof data -/

/-- The proof data of pipeline 0 on core `c`: the arrays as the region finds them (`V`); after the body at
    point `t` each input's buffer at its block and each output's at `out0_W` of the input blocks; the invariant:
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t)
    | ⟨6, _⟩ => out0_6 (iblk0 V c 0 t) (iblk0 V c 2 t)
    | ⟨7, _⟩ => out0_7 (iblk0 V c 0 t) (iblk0 V c 3 t)
    | ⟨8, _⟩ => out0_8 (iblk0 V c 0 t) (iblk0 V c 4 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 3 t) := by dsimp only [dat0]
theorem after0_8 (c : Dev nD) (t : Fin cfg0.N) : (dat0 V c).after 8 t = out0_8 (iblk0 V c 0 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KI.Reg1.Runs.lean ====
import proofs.«160171_j67336497267250_2_alg».proof.Proof.Gen.KernelIdeal.Launch
import proofs.«160171_j67336497267250_2_alg».proof.Proof.Gen.KernelIdeal.Skeleton
import proofs.«160171_j67336497267250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 1 (the state kernel): what its three case runs share

The body has two conditionals on the second grid coordinate: the first (taken where that coordinate is 0)
zero-fills the accumulator scratch, the second (taken where it is 3) copies the scratch to the output block.
Every point adds the product of its two input blocks to the scratch. -/

/-! ## The body's branch conditions -/

/-- The condition of the first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second conditional, from the grid coordinates. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Windows 0 and 1 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional is not taken the output window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- Where it is taken the output window is live: the body stores into it. -/
theorem liveAt1_2_C : ∀ t : Fin cfg1.N, ¬cond1_0 (grid1.coords t) → cond1_1 (grid1.coords t) → cfg1.idle 2 (grid1.coords t) = false := by decide +kernel

/-! ## The staging and scratch memrefs -/

/-- One staging buffer of the output window, through which its contents are stated. -/
abbrev VO1_2 : View sig .tc .vmem S1x16x64x64 .f32 := (Memref.whole cc1_stg2_0 : Memref sig .tc .vmem S1x16x64x64 .f32).view
/-- Each window's current staging memref at point `t`, and its wholeness. -/
abbrev ms1_0 (t : Fin cfg1.N) : Memref sig .tc .vmem S1x16x1024x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x16x1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16x64x64 .f32 := win1_2.stage (cfg1.slots t 2)
abbrev hs1_2 (t : Fin cfg1.N) : (ms1_2 t).IsWhole := hstage1_2 ((cfg1.slots t 2).cast nbuf1_2)
/-- The accumulator scratch: a whole scoped buffer of the kernel's own. -/
abbrev scM1_0 : Memref sig .tc .vmem S16x64x64 .f32 := Memref.whole cc1_scratch0
/-- The same as a view: what the scratch holds is stated through it. -/
abbrev VS1_0 : View sig .tc .vmem S16x64x64 .f32 := scM1_0.view

/-- The region invariant with the accumulator scratch as a memref owned at some contents, the core's other scoped
    buffers left unopened. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [Idealize.SL.BI.bigSepL_singleton, scM1_0, owns_whole]; try rfl

section Blocks
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.Reg1.RunA.lean ====
import proofs.«160171_j67336497267250_2_alg».proof.Proof.KI.Reg1.Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- What the body's stores leave in the output's staging memref and in the scratch, as pieces (last first), at a
    point where the first conditional is taken and the second is not, with the proof that on whole memrefs — the
    inputs' at their contents, the output's at contents handed back untouched, the scratch at anything — the body
    runs to the continuation holding the inputs' and the output's as they were and the scratch with its pieces
    written. The pieces are the witness the run finds. -/
noncomputable def kernelRun1_A (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) :
    Σ' (L2 : List (View.Piece (Elt F) S1x16x64x64 .f32)), { LS0 : List (View.Piece (Elt F) S16x64x64 .f32) //
      ∀ (xi2 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__state_kernel i arg2 harg2 arg3 harg3 arg4 harg4 arg5 harg5) K } := by
  refine ⟨[], ?_, fun xi2 E K => ?run⟩
  case run =>
    simp only [cc1__state_kernel_eq_skeleton]; unfold cc1__state_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg1.RunB.lean ====
import proofs.«160171_j67336497267250_2_alg».proof.Proof.KI.Reg1.RunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The same at a point where neither conditional is taken: the scratch comes in at the contents the point
    before left. -/
noncomputable def kernelRun1_B (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) :
    Σ' (L2 : List (View.Piece (Elt F) S1x16x64x64 .f32)), { LS0 : List (View.Piece (Elt F) S16x64x64 .f32) //
      ∀ (xi2 : Vec F S1x16x64x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__state_kernel i arg2 harg2 arg3 harg3 arg4 harg4 arg5 harg5) K } := by
  refine ⟨[], ?_, fun xi2 E K => ?run⟩
  case run =>
    simp only [cc1__state_kernel_eq_skeleton]; unfold cc1__state_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg1.RunC.lean ====
import proofs.«160171_j67336497267250_2_alg».proof.Proof.KI.Reg1.RunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- The same at a point where the first conditional is not taken and the second is: the output's memref comes in
    at anything and leaves with its pieces written. -/
noncomputable def kernelRun1_C (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) :
    Σ' (L2 : List (View.Piece (Elt F) S1x16x64x64 .f32)), { LS0 : List (View.Piece (Elt F) S16x64x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__state_kernel i arg2 harg2 arg3 harg3 arg4 harg4 arg5 harg5) K } := by
  refine ⟨?_, ?_, fun E K => ?run⟩
  case run =>
    simp only [cc1__state_kernel_eq_skeleton]; unfold cc1__state_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Reg1.lean ====
import proofs.«160171_j67336497267250_2_alg».proof.Proof.KI.Reg1.RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 1 (the state kernel): the frame half, at the entry contents `V`

What the output window's staging buffer and the accumulator scratch hold after every point, the proof data, the
body obligation. -/

/-- Case A stores nothing into the output window (idle there and not written back): no pieces — a placeholder
    nothing consults. -/
def out1_A_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) : Vec F S1x16x64x64 .f32 :=
  VO1_2.read (Elt F) (VO1_2.writes (Elt F) VO1_2.junk (kernelRun1_A c i arg2 harg2 arg3 harg3 arg4 harg4 arg5 harg5 hc0 hc1 x0 x1).1)

/-- Case A's pieces for the scratch tile it, so they cover it. -/
theorem scover1_A_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) (y : S16x64x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S16x64x64.size (by sl_kernel_rfl) y

/-- What case A leaves in the scratch: its pieces read back over junk. -/
def sout1_A_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) : Vec F S16x64x64 .f32 :=
  VS1_0.read (Elt F) (VS1_0.writes (Elt F) VS1_0.junk (kernelRun1_A c i arg2 harg2 arg3 harg3 arg4 harg4 arg5 harg5 hc0 hc1 x0 x1).2.1)

/-- Case B stores nothing into the output window (idle there and not written back): no pieces — a placeholder
    nothing consults. -/
def out1_B_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) : Vec F S1x16x64x64 .f32 :=
  VO1_2.read (Elt F) (VO1_2.writes (Elt F) VO1_2.junk (kernelRun1_B c i arg2 harg2 arg3 harg3 arg4 harg4 arg5 harg5 hc0 hc1 x0 x1 xs0).1)

/-- Case B's pieces for the scratch tile it, so they cover it. -/
theorem scover1_B_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) (y : S16x64x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S16x64x64.size (by sl_kernel_rfl) y

/-- What case B leaves in the scratch: its pieces read back over junk. -/
def sout1_B_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) : Vec F S16x64x64 .f32 :=
  VS1_0.read (Elt F) (VS1_0.writes (Elt F) VS1_0.junk (kernelRun1_B c i arg2 harg2 arg3 harg3 arg4 harg4 arg5 harg5 hc0 hc1 x0 x1 xs0).2.1)

/-- The output's pieces in case C tile its block, so they cover it. -/
theorem cover1_C_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) (y : S1x16x64x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x16x64x64.size (by sl_kernel_rfl) y

/-- What case C leaves in the output's staging buffer: its pieces read back over junk. -/
def out1_C_2 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) : Vec F S1x16x64x64 .f32 :=
  VO1_2.read (Elt F) (VO1_2.writes (Elt F) VO1_2.junk (kernelRun1_C c i arg2 harg2 arg3 harg3 arg4 harg4 arg5 harg5 hc0 hc1 x0 x1 xs0).1)

/-- Case C's pieces for the scratch tile it, so they cover it. -/
theorem scover1_C_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) (y : S16x64x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S16x64x64.size (by sl_kernel_rfl) y

/-- What case C leaves in the scratch: its pieces read back over junk. -/
def sout1_C_0 (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) : Vec F S16x64x64 .f32 :=
  VS1_0.read (Elt F) (VS1_0.writes (Elt F) VS1_0.junk (kernelRun1_C c i arg2 harg2 arg3 harg3 arg4 harg4 arg5 harg5 hc0 hc1 x0 x1 xs0).2.1)

-- the TensorCore's buffer contents when the region is entered: a PARAMETER
variable (V : (c : Dev nD) → (b : Ref sig .tc) → Buf (Elt F) ((c : Thread nD τ).loc b))

/-! ## What the output's buffer and the scratch hold after each point -/

/-- THE ACCUMULATION: what the output window's staging buffer and the scratch hold after the body at position `n`:
    the case the closed forms select at `n`, run at the point's memrefs and input blocks, the scratch coming in at
    what position `n - 1` left. -/
def outsAt1 (c : Dev nD) : (n : ℕ) → n < cfg1.N → Vec F S1x16x64x64 .f32 × Vec F S16x64x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by have hN : n + 1 < 16 := lt_of_lt_of_eq hn (show cfg1.N = 16 from N_1); omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything);
    afterwards the scratch at what the point before left in it, the other scoped buffers unopened, and the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of region 1 on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    so that case's run applies; the invariant hands the body the scratch at what the point before left (at anything at
    the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Reg2.lean ====
import proofs.«160171_j67336497267250_2_alg».proof.Proof.Gen.KernelIdeal.Launch
import proofs.«160171_j67336497267250_2_alg».proof.Proof.Gen.KernelIdeal.Skeleton
import proofs.«160171_j67336497267250_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
-- the TensorCore's buffer contents when the region is entered: a PARAMETER
variable (V : (c : Dev nD) → (b : Ref sig .tc) → Buf (Elt F) ((c : Thread nD τ).loc b))

/-! # Region 2 of @main: custom_call 2, `cc2__out_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index has
    not moved, so the buffer still holds the previous point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index has
    not moved, so the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index has
    not moved, so the buffer still holds the previous point's block, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index has
    not moved, so the buffer still holds the previous point's block, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2q : Rect S1x16x512x64 := Rect.unit (s := S1x16x512x64) ![0, 0, 0, 0] S1x16x512x64.size inb_S1x16x512x64_S1x16x512x64_0_0_0_0
abbrev r2s : Rect S1x16x64x64 := Rect.unit (s := S1x16x64x64) ![0, 0, 0, 0] S1x16x64x64.size inb_S1x16x64x64_S1x16x64x64_0_0_0_0
abbrev r2w : Rect S1024x1024 := Rect.unit (s := S1024x1024) ![0, 0] S1024x1024.size inb_S1024x1024_S1024x1024_0_0
abbrev r2o : Rect S1x512x1024 := Rect.unit (s := S1x512x1024) ![0, 0, 0] S1x512x1024.size inb_S1x512x1024_S1x512x1024_0_0_0

/-! ## What the body leaves in the output window's buffer -/

/-- Window 4's staging buffer after the body, from the input windows' blocks: its one store as a piece
    (the payload is the skeleton's). The body's load of the buffer just before the store is dead: its value
    reaches no payload. -/
def out2_4 (x0 x1 : Vec F S1x16x512x64 .f32) (x2 : Vec F S1x16x64x64 .f32) (x3 : Vec F S1024x1024 .bf16) : Vec F S1x512x1024 .f32 :=
  View.canon [⟨r2o, k2_pay1 (View.ld x0 r2q) (View.ld x1 r2q) (View.ld x2 r2s) (View.ld x3 r2w)⟩]

/-- Its store tiles the buffer (checked by evaluation), so it covers it. -/
theorem cover2_4 (p0 : Vec F S1x512x1024 .f32) (y : S1x512x1024.Idx) :
    ∃ pc ∈ ([⟨r2o, p0⟩] : List (View.Piece (Elt F) S1x512x1024 .f32)), y ∈ pc.1.set :=
  View.cover_of_tiled [⟨r2o, p0⟩] S1x512x1024.size (by rfl) y

/-! ## The body's triple -/

set_option maxHeartbeats 1000000 in
/-- The kernel body on whole staging memrefs, the inputs' at read contents `xW` and the output's at anything, runs to
    the continuation holding the inputs' as they were and the output's at `out2_4` of the inputs': the printed function
    is its skeleton, whose memory operations are run one by one; the load of the output buffer before its store
    reads contents no payload uses. -/
theorem sound_kernel2 (c : Dev nD) (E : Set ℕ) (i : grid2.Coords)
    (arg0 : Memref sig .tc .vmem S1x16x512x64 .f32) (harg0 : arg0.IsWhole) (arg1 : Memref sig .tc .vmem S1x16x512x64 .f32) (harg1 : arg1.IsWhole)
    (arg2 : Memref sig .tc .vmem S1x16x64x64 .f32) (harg2 : arg2.IsWhole) (arg3 : Memref sig .tc .vmem S1024x1024 .bf16) (harg3 : arg3.IsWhole)
    (arg4 : Memref sig .tc .vmem S1x512x1024 .f32) (harg4 : arg4.IsWhole)
    (x0 x1 : Vec F S1x16x512x64 .f32) (x2 : Vec F S1x16x64x64 .f32) (x3 : Vec F S1024x1024 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__out_kernel i arg0 harg0 arg1 harg1 arg2 harg2 arg3 harg3 arg4 harg4) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and the output's at `out2_4` of the input blocks; the invariant:
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
end
-- ==== Proof.KI.Run.lean ====
/-
  The run of the whole program: ten host operations (the five weight matrices transposed and rounded), then three
  kernel regions — the four projections q, k, v, u of x; the per-head state, the sum over the sequence of k ⊗ v,
  accumulated tile by tile in a scratch buffer; the read-out q · state, normalised, gated by u and projected by Wo.
  The contents of every unscoped buffer at each boundary are folded from the launch memory: a host stretch applies its
  operations, a region replaces its windows' arrays by what the write-backs leave and keeps every other buffer. Each
  region is entered from the boundary before it and left at the one after it, its proof data taken at the contents it is
  entered with. From this one run follow the frame (no argument array is ever written) and the result array as
  region 2's output array after its write-backs.
-/
import proofs.«160171_j67336497267250_2_alg».proof.Proof.KI.Reg0
import proofs.«160171_j67336497267250_2_alg».proof.Proof.KI.Reg1
import proofs.«160171_j67336497267250_2_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: ten host operations, then the three kernel regions in order

## The buffers' contents at each boundary, folded from the launch memory -/

/-- Core `c`'s buffers at launch. -/
abbrev W0 : Dev nD → Valuation τ sig (Elt F) := fun c b => (s₀ m ρ).mem ((c : Dev nD), b)
/-- After the host operations (the five transposed weights, rounded): what region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The buffers' contents when region 0 is left: its windows' arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers' contents when region 1 is left: its windows' arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers' contents when region 2 is left: its windows' arrays at what the write-backs leave, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- Argument 0 ends as launched: no host operation writes it and no region's write-back reaches it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Argument 1 ends as launched: no host operation writes it and no region's write-back reaches it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Argument 2 ends as launched: no host operation writes it and no region's write-back reaches it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- Argument 3 ends as launched: no host operation writes it and no region's write-back reaches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- Argument 4 ends as launched: no host operation writes it and no region's write-back reaches it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- Argument 5 ends as launched: no host operation writes it and no region's write-back reaches it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state between segments -/

/-- No pipeline has a prefetched table. -/
abbrev adm : (p : Fin 3) → (pcfgs (F := F) p).Adm := fun p => (cfgs p).toPCfg_adm
/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the core's `owes`. -/
abbrev Tₙ (c : Dev nD) : sProp 𝕄 := iprop(StableHlo.held (c : Thread nD τ) (Pipeline.ucRefs τ sig) (W4 m ρ c) ∗ ∃ r, prngReg c r)

/-- Reordering around a region's invariant: the generator register and the scoped rest trade places, a table-free
    pipeline's (empty) table resource is dropped. -/
theorem in_shuffle (X P S : sProp 𝕄) : iprop(X ∗ P ∗ S) ⊢ iprop(S ∗ X) := by
  iintro ⟨Hp, -, Hr⟩
  isplitl [Hr]; · iexact Hr
  iexact Hp
theorem out_shuffle (S X : sProp 𝕄) : iprop(S ∗ X) ⊢ iprop(X ∗ BI.emp ∗ S) := by
  iintro ⟨Hr, Hp⟩
  isplitl [Hp]; · iexact Hp
  isplitr; · iempintro
  iexact Hr

/-! ## The regions as segments -/

set_option backward.isDefEq.respectTransparency.types false in
/-- Region 0 as a segment: entered with every unscoped buffer at the contents before it, left with them at the
    contents after it; its windows' arrays are split out of the unscoped buffers at entry and put back, at what the
    write-backs leave, at exit; the generator register passes through the region's invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its windows' arrays are split out of the unscoped buffers at entry and put back, at what the
    write-backs leave, at exit; the generator register passes through the region's invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (in_shuffle _ _ _).trans (hin1 (V2 m ρ) c)
  hout c := by
    rw [Pipeline.ownSems0_none]
    exact (hout1 (V2 m ρ) c).trans (out_shuffle _ _)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with them at the
    contents after it; its windows' arrays are split out of the unscoped buffers at entry and put back, at what the
    write-backs leave, at exit; the generator register passes through the region's invariant; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates without a fault, and in every
    final memory each unscoped buffer of each core holds the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_main m ρ)

/-- The result array after the run is what region 2's write-backs leave in its output window's array. -/
theorem result_eq (c : Dev nD) : W4 m ρ c (Proc.devRef .tc main_v12) = (dat2 (V3 m ρ) c).arrAt 4 cfg2.N :=
  W4_arr m ρ c 4

/-! ## What each region is entered with, in terms of the launch memory and the earlier regions' final arrays -/

section Chain
variable (m : (ℓ : Loc nD τ sig) → Buf (Elt F) ℓ) (ρ : Dev nD → PrngReg)

/-- Region 0's first window's array is the argument `x` as launched. -/
theorem V1_main_arg0 (c : Dev nD) : V1 m ρ c main_arg0 = m ((c : Thread nD τ).loc main_arg0) :=
  ((W2_arr m ρ c 0).trans (((dat0 (V1 m ρ) c).arrAt_in 0 rfl _).trans (A_eq0 (V1 m ρ) c 0))).symm.trans
    (((W3_of_ne m ρ c main_arg0 (by decide)).symm.trans ((W4_of_ne m ρ c main_arg0 (by decide)).symm)).trans (W4_main_arg0 m ρ c))

/-- The rounded transposes the host computes before region 0. -/
theorem V1_main_v1 (c : Dev nD) : V1 m ρ c main_v1 = truncf .bf16 (transpose S1024x1024 [1, 0] (m ((c : Thread nD τ).loc main_arg1)) transposes_S1024x1024_S1024x1024_1_0) bitsLt_bf16_f32 := by
  show StableHlo.after hostOps0 (fun b => m (c, b)) (Proc.devRef .tc main_v1) = _
  after_results
theorem V1_main_v3 (c : Dev nD) : V1 m ρ c main_v3 = truncf .bf16 (transpose S1024x1024 [1, 0] (m ((c : Thread nD τ).loc main_arg2)) transposes_S1024x1024_S1024x1024_1_0) bitsLt_bf16_f32 := by
  show StableHlo.after hostOps0 (fun b => m (c, b)) (Proc.devRef .tc main_v3) = _
  after_results
theorem V1_main_v5 (c : Dev nD) : V1 m ρ c main_v5 = truncf .bf16 (transpose S1024x1024 [1, 0] (m ((c : Thread nD τ).loc main_arg3)) transposes_S1024x1024_S1024x1024_1_0) bitsLt_bf16_f32 := by
  show StableHlo.after hostOps0 (fun b => m (c, b)) (Proc.devRef .tc main_v5) = _
  after_results
theorem V1_main_v7 (c : Dev nD) : V1 m ρ c main_v7 = truncf .bf16 (transpose S1024x1024 [1, 0] (m ((c : Thread nD τ).loc main_arg4)) transposes_S1024x1024_S1024x1024_1_0) bitsLt_bf16_f32 := by
  show StableHlo.after hostOps0 (fun b => m (c, b)) (Proc.devRef .tc main_v7) = _
  after_results
theorem V1_main_v9 (c : Dev nD) : V1 m ρ c main_v9 = truncf .bf16 (transpose S1024x1024 [1, 0] (m ((c : Thread nD τ).loc main_arg5)) transposes_S1024x1024_S1024x1024_1_0) bitsLt_bf16_f32 := by
  show StableHlo.after hostOps0 (fun b => m (c, b)) (Proc.devRef .tc main_v9) = _
  after_results

/-- Region 1 reads the `k` and `v` arrays region 0 left. -/
theorem V2_main_v10_1 (c : Dev nD) : V2 m ρ c main_v10_1 = (dat0 (V1 m ρ) c).arrAt 6 cfg0.N := W2_arr m ρ c 6
theorem V2_main_v10_2 (c : Dev nD) : V2 m ρ c main_v10_2 = (dat0 (V1 m ρ) c).arrAt 7 cfg0.N := W2_arr m ρ c 7
/-- Region 2 reads the `q` and `u` arrays region 0 left, the state array region 1 left, and the host's rounded transpose of `Wo`. -/
theorem V3_main_v10_0 (c : Dev nD) : V3 m ρ c main_v10_0 = (dat0 (V1 m ρ) c).arrAt 5 cfg0.N :=
  (W3_of_ne m ρ c main_v10_0 (by decide)).trans (W2_arr m ρ c 5)
theorem V3_main_v10_3 (c : Dev nD) : V3 m ρ c main_v10_3 = (dat0 (V1 m ρ) c).arrAt 8 cfg0.N :=
  (W3_of_ne m ρ c main_v10_3 (by decide)).trans (W2_arr m ρ c 8)
theorem V3_main_v11 (c : Dev nD) : V3 m ρ c main_v11 = (dat1 (V2 m ρ) c).arrAt 2 cfg1.N := W3_arr m ρ c 2
theorem V3_main_v9 (c : Dev nD) : V3 m ρ c main_v9 = V1 m ρ c main_v9 :=
  (W3_of_ne m ρ c main_v9 (by decide)).trans (W2_of_ne m ρ c main_v9 (by decide))
end Chain

end Cert.KernelIdeal.Hand

end
-- ==== Proof.Val.Pay0.lean ====
/-
  Region 0's payloads read at an index, at the ideal values (extended reals). Each of the four outputs is a projection
  `x · w` of a `[256, 1024]` row block by a `[1024, 1024]` weight (rounding the operands to bf16 is the identity on
  extended reals), followed by a pointwise map, and laid out by heads: the `[256, 1024]` result viewed `[256, 16, 64]`,
  its first two axes swapped, and a leading unit axis added, so that entry `(0, h, l, j)` of the block is entry
  `(l, 64 h + j)` of the projection. The pointwise maps: `max(·, 0)` times a constant word (two outputs), the
  identity, and `p ↦ p · logistic p`.
-/
import proofs.«160171_j67336497267250_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Idealize.SL.Sem

/-- The plain dot of the projections: `[256, 1024] × [1024, 1024]`, contraction over the shared 1024 axis. -/
abbrev dotXW := dot_S256x1024_S1024x1024_S256x1024_1_0_0_1_n_n

theorem dotXW_lhs_0 (o : S256x1024.Idx) (q : dotXW.contr.Idx) : (dotXW.lhsIdx o q 0).val = (o 0).val := by
  unfold DotDims.lhsIdx
  rw [dif_neg (show ¬(0 : Fin S256x1024.rank) ∈ dotXW.lhsBatch by decide),
    dif_pos (show (0 : Fin S256x1024.rank) ∈ dotXW.lhsNonContracting by decide)]
  rfl
theorem dotXW_lhs_1 (o : S256x1024.Idx) (q : dotXW.contr.Idx) : (dotXW.lhsIdx o q 1).val = (q ⟨0, by decide⟩).val :=
  dotXW.lhsIdx_val_of_single rfl o q
theorem dotXW_rhs_0 (o : S256x1024.Idx) (q : dotXW.contr.Idx) : (dotXW.rhsIdx o q 0).val = (q ⟨0, by decide⟩).val :=
  dotXW.rhsIdx_val_of_single rfl o q
theorem dotXW_rhs_1 (o : S256x1024.Idx) (q : dotXW.contr.Idx) : (dotXW.rhsIdx o q 1).val = (o 1).val := by
  unfold DotDims.rhsIdx
  rw [dif_neg (show ¬(1 : Fin S1024x1024.rank) ∈ dotXW.rhsBatch by decide),
    dif_pos (show (1 : Fin S1024x1024.rank) ∈ dotXW.rhsNonContracting by decide)]
  rfl

/-- The product into the zero accumulator at `(l, n)`: the sum over the shared axis. -/
theorem dotXW_apply (a : FVec Ideal S256x1024 .bf16) (b : FVec Ideal S1024x1024 .bf16) (l : Fin 256) (n : Fin 1024) :
    matmul dotXW none a b (constant (F := Ideal) S256x1024 .f32 0x00000000#32) (ix2 l n)
      = ∑ e : Fin 1024, a (ix2 l e) * b (ix2 e n) := by
  refine (Ideal.matmul_constant_zero_apply dotXW none a b (ix2 l n)).trans ?_
  rw [← Equiv.sum_comp (contrEquiv1 dotXW 1024 rfl rfl).symm]
  refine Finset.sum_congr rfl fun e _ => ?_
  have hk := contrEquiv1_symm_val dotXW 1024 rfl rfl e
  have el : dotXW.lhsIdx (ix2 l n) ((contrEquiv1 dotXW 1024 rfl rfl).symm e) = ix2 l e := funext fun a => Fin.ext (by
    match a with
    | ⟨0, _⟩ => exact dotXW_lhs_0 _ _
    | ⟨1, _⟩ => exact (dotXW_lhs_1 _ _).trans hk)
  have er : dotXW.rhsIdx (ix2 l n) ((contrEquiv1 dotXW 1024 rfl rfl).symm e) = ix2 e n := funext fun a => Fin.ext (by
    match a with
    | ⟨0, _⟩ => exact (dotXW_rhs_0 _ _).trans hk
    | ⟨1, _⟩ => exact dotXW_rhs_1 _ _)
  rw [el, er]

/-- The projection of row `l` of the block `x` on column `n` of `w`. -/
def proj0 (x : Vec Ideal S1x256x1024 .f32) (w : Vec Ideal S1024x1024 .bf16) (l : Fin 256) (n : Fin 1024) : EReal :=
  ∑ e : Fin 1024, x (ix3 (0 : Fin 1) l e) * w (ix2 e n)

theorem proj0_def (x : Vec Ideal S1x256x1024 .f32) (w : Vec Ideal S1024x1024 .bf16) (l : Fin 256) (n : Fin 1024) :
    proj0 x w l n = ∑ e : Fin 1024, x (ix3 (0 : Fin 1) l e) * w (ix2 e n) := rfl

/-- Column `64 h + j` of the 1024: entry `j` of head `h`. -/
abbrev headCol (h : Fin 16) (j : Fin 64) : Fin 1024 := ⟨64 * h.val + j.val, by omega⟩

/-- The kernel's product of the row block (its unit axis dropped, rounded to bf16) by the weight, at `(l, n)`. -/
theorem k0_mm_apply (x : Vec Ideal S1x256x1024 .f32) (w : Vec Ideal S1024x1024 .bf16) (l : Fin 256) (n : Fin 1024) :
    matmul dotXW none (k0_pay4 x) (shapeCast S1024x1024 w shapeCasts_S1024x1024_S1024x1024 : FVec Ideal S1024x1024 .bf16)
      (constant (F := Ideal) S256x1024 .f32 0x00000000#32) (ix2 l n) = proj0 x w l n := by
  refine (dotXW_apply _ _ l n).trans ?_
  unfold proj0
  refine Finset.sum_congr rfl fun e _ => ?_
  unfold k0_pay4
  rw [truncf_apply, shapeCast_1ab_ab_apply, shapeCast_self]

/-- The layout by heads: `[256, 1024]` viewed `[256, 16, 64]`, the first two axes swapped, a unit axis added, read at
    `(0, h, l, j)`, is the operand at `(l, 64 h + j)`. -/
theorem headLayout_apply {α : Type} (v : S256x1024.Idx → α) (h : Fin 16) (l : Fin 256) (j : Fin 64) :
    shapeCast S1x16x256x64 (transpose S16x256x64 [1, 0, 2] (shapeCast S256x16x64 v shapeCasts_S256x1024_S256x16x64)
      transposes_S256x16x64_p1_0_2_S16x256x64) shapeCasts_S16x256x64_S1x16x256x64 (ix4 (0 : Fin 1) h l j)
      = v (ix2 l (headCol h j)) := by
  refine (shapeCast_abc_1abc_apply _ _ (0 : Fin 1) h l j).trans ?_
  refine (transpose_apply [1, 0, 2] _ transposes_S256x16x64_p1_0_2_S16x256x64 (ix3 h l j) (ix3 l h j)
    (fun b => match b with | ⟨0, _⟩ => rfl | ⟨1, _⟩ => rfl | ⟨2, _⟩ => rfl)).trans ?_
  exact shapeCast_apply v shapeCasts_S256x1024_S256x16x64 (ix3 l h j) (ix2 l (headCol h j)) (by
    rw [Shape.rowMajor_val_two, Shape.rowMajor_val_three]
    show l.val * 1024 + (64 * h.val + j.val) = (l.val * 16 + h.val) * 64 + j.val
    omega)

/-- The first output: `max(x · w, 0)` times the constant word, by heads. -/
theorem k0_pay7_apply (x : Vec Ideal S1x256x1024 .f32) (w : Vec Ideal S1024x1024 .bf16) (h : Fin 16) (l : Fin 256) (j : Fin 64) :
    k0_pay7 x w (ix4 (0 : Fin 1) h l j)
      = max (proj0 x w l (headCol h j)) 0 * Ideal.ofBits .f32 0x3E000000#32 := by
  unfold k0_pay7
  refine (headLayout_apply _ h l j).trans ?_
  refine (mulf_apply _ _ _).trans ?_
  refine (congrArg (fun p : EReal => max p (Ideal.ofBits .f32 0x00000000#32) * Ideal.ofBits .f32 0x3E000000#32)
    (k0_mm_apply x w l (headCol h j))).trans ?_
  rw [Ideal.ofBits_zero_f32]

/-- The second output: the same map of its own weight (the final unit axis is added by the store's payload). -/
theorem k0_pay1_pay8_apply (x : Vec Ideal S1x256x1024 .f32) (w : Vec Ideal S1024x1024 .bf16) (h : Fin 16) (l : Fin 256) (j : Fin 64) :
    k0_pay1 (k0_pay8 x w) (ix4 (0 : Fin 1) h l j)
      = max (proj0 x w l (headCol h j)) 0 * Ideal.ofBits .f32 0x3E000000#32 := by
  unfold k0_pay1 k0_pay8
  refine (headLayout_apply _ h l j).trans ?_
  refine (mulf_apply _ _ _).trans ?_
  refine (congrArg (fun p : EReal => max p (Ideal.ofBits .f32 0x00000000#32) * Ideal.ofBits .f32 0x3E000000#32)
    (k0_mm_apply x w l (headCol h j))).trans ?_
  rw [Ideal.ofBits_zero_f32]

/-- The third output: the projection itself, by heads. -/
theorem k0_pay2_pay5_apply (x : Vec Ideal S1x256x1024 .f32) (w : Vec Ideal S1024x1024 .bf16) (h : Fin 16) (l : Fin 256) (j : Fin 64) :
    k0_pay2 (k0_pay5 x w) (ix4 (0 : Fin 1) h l j) = proj0 x w l (headCol h j) := by
  unfold k0_pay2 k0_pay5
  refine (headLayout_apply _ h l j).trans ?_
  exact k0_mm_apply x w l (headCol h j)

/-- The fourth output: `p · logistic p` of the projection `p`, by heads. -/
theorem k0_pay3_pay6_apply (x : Vec Ideal S1x256x1024 .f32) (w : Vec Ideal S1024x1024 .bf16) (h : Fin 16) (l : Fin 256) (j : Fin 64) :
    k0_pay3 (k0_pay6 x w) (ix4 (0 : Fin 1) h l j)
      = proj0 x w l (headCol h j) * Ideal.logistic (proj0 x w l (headCol h j)) := by
  unfold k0_pay3 k0_pay6
  refine (headLayout_apply _ h l j).trans ?_
  refine (mulf_apply _ _ _).trans ?_
  exact congrArg (fun p : EReal => p * Ideal.logistic p) (k0_mm_apply x w l (headCol h j))

end Cert.KernelIdeal.Val

end
-- ==== Proof.Val.Spec.lean ====
import proofs.«160171_j67336497267250_2_alg».proof.KernelIdeal
import Idealize.ShloMosaic.Lib.ValueIdx
import Idealize.ShloMosaic.PureOps.Ideal

/-! The whole-array functions the three kernels compute, over the extended reals.

  Stage 0 (projections): with wT a TRANSPOSED weight (rows = input feature e, columns = output feature n),
  P0 x wT [b,h,l,j] = sum over e of x[b,l,e] * wT[e, 64*h + j]; then q and k are max(P0, 0) * 1/8, v is P0 and
  u is P0 * logistic(P0).
  Stage 1 (state): kv[b,h,i,j] is the sum over the 4096 positions l of k[b,h,l,i] * v[b,h,l,j], accumulated from zero
  in four tiles of 1024 positions.
  Stage 2 (output): o[b,h,l,j] = sum over i of q[b,h,l,i] * kv[b,h,i,j]; the gated, normalised
  g = o / max(sqrt(0 + sum over j' of (o * 1/8)^2), eps) * u; and the result at [b,l,n] is the sum over the 1024 merged
  columns d (head d / 64, lane d % 64) of g * woT[d, n], woT the transposed output weight. -/

noncomputable section

namespace Cert.KernelIdeal.Val

open Cert.KernelIdeal Idealize.ShloMosaic Idealize.ShloMosaic.ValueIdx

/-- The column of the merged 1024-wide axis that lane j of head h occupies: 64*h + j. -/
abbrev hcol (h : Fin 16) (j : Fin 64) : Fin 1024 :=
  ⟨64 * h.val + j.val, by have h1 := h.isLt; have h2 := j.isLt; omega⟩

/-- The head that column d of the merged 1024-wide axis belongs to: d / 64. -/
abbrev hd (d : Fin 1024) : Fin 16 := ⟨d.val / 64, by have h1 := d.isLt; omega⟩

/-- The lane of column d of the merged 1024-wide axis inside its head: d % 64. -/
abbrev ln (d : Fin 1024) : Fin 64 := ⟨d.val % 64, by omega⟩

/-- Position l of tile r, of the four tiles of 1024 positions that make up the 4096: 1024*r + l. -/
abbrev tile (r : Fin 4) (l : Fin 1024) : Fin 4096 :=
  ⟨1024 * r.val + l.val, by have h1 := r.isLt; have h2 := l.isLt; omega⟩

/-! ## Stage 0: the projections -/

/-- A projection at head-major coordinates; wT is the transposed weight. -/
def P0 (x : S4x4096x1024.Idx → EReal) (wT : S1024x1024.Idx → EReal) (b : Fin 4) (h : Fin 16) (l : Fin 4096) (j : Fin 64) : EReal :=
  ∑ e : Fin 1024, x (ix3 b l e) * wT (ix2 e (hcol h j))

/-- q and k: relu of the projection, times 1/8. -/
def G0r (x : S4x4096x1024.Idx → EReal) (wT : S1024x1024.Idx → EReal) : S4x16x4096x64.Idx → EReal :=
  fun i => max (P0 x wT (i 0) (i 1) (i 2) (i 3)) 0 * Ideal.ofBits .f32 0x3E000000#32
theorem G0r_apply (x : S4x4096x1024.Idx → EReal) (wT : S1024x1024.Idx → EReal) (b : Fin 4) (h : Fin 16) (l : Fin 4096) (j : Fin 64) :
    G0r x wT (ix4 b h l j) = max (P0 x wT b h l j) 0 * Ideal.ofBits .f32 0x3E000000#32 := rfl

/-- v: the projection itself. -/
def G0v (x : S4x4096x1024.Idx → EReal) (wT : S1024x1024.Idx → EReal) : S4x16x4096x64.Idx → EReal :=
  fun i => P0 x wT (i 0) (i 1) (i 2) (i 3)
theorem G0v_apply (x : S4x4096x1024.Idx → EReal) (wT : S1024x1024.Idx → EReal) (b : Fin 4) (h : Fin 16) (l : Fin 4096) (j : Fin 64) :
    G0v x wT (ix4 b h l j) = P0 x wT b h l j := rfl

/-- u: the projection times its logistic. -/
def G0u (x : S4x4096x1024.Idx → EReal) (wT : S1024x1024.Idx → EReal) : S4x16x4096x64.Idx → EReal :=
  fun i => P0 x wT (i 0) (i 1) (i 2) (i 3) * Ideal.logistic (P0 x wT (i 0) (i 1) (i 2) (i 3))
theorem G0u_apply (x : S4x4096x1024.Idx → EReal) (wT : S1024x1024.Idx → EReal) (b : Fin 4) (h : Fin 16) (l : Fin 4096) (j : Fin 64) :
    G0u x wT (ix4 b h l j) = P0 x wT b h l j * Ideal.logistic (P0 x wT b h l j) := rfl

/-! ## Stage 1: the state kv, accumulated tile by tile -/

/-- The contribution of tile r (1024 positions) to kv[b,h,i,j]. -/
def T1 (k v : S4x16x4096x64.Idx → EReal) (b : Fin 4) (h : Fin 16) (i j : Fin 64) (r : Fin 4) : EReal :=
  ∑ l : Fin 1024, k (ix4 b h (tile r l) i) * v (ix4 b h (tile r l) j)

/-- kv: the four tiles added in order to a zero accumulator. -/
def G1 (k v : S4x16x4096x64.Idx → EReal) : S4x16x64x64.Idx → EReal :=
  fun y => (((0 + T1 k v (y 0) (y 1) (y 2) (y 3) 0) + T1 k v (y 0) (y 1) (y 2) (y 3) 1)
    + T1 k v (y 0) (y 1) (y 2) (y 3) 2) + T1 k v (y 0) (y 1) (y 2) (y 3) 3
theorem G1_apply (k v : S4x16x4096x64.Idx → EReal) (b : Fin 4) (h : Fin 16) (i j : Fin 64) :
    G1 k v (ix4 b h i j) = (((0 + T1 k v b h i j 0) + T1 k v b h i j 1) + T1 k v b h i j 2) + T1 k v b h i j 3 := rfl

/-! ## Stage 2: the output -/

/-- o[b,h,l,j] = sum over i of q[b,h,l,i] * kv[b,h,i,j]. -/
def O2 (q : S4x16x4096x64.Idx → EReal) (kv : S4x16x64x64.Idx → EReal) (b : Fin 4) (h : Fin 16) (l : Fin 4096) (j : Fin 64) : EReal :=
  ∑ i : Fin 64, q (ix4 b h l i) * kv (ix4 b h i j)

/-- g = o / max(sqrt(0 + sum over j' of (o * 1/8)^2), eps) * u. -/
def Gt2 (q u : S4x16x4096x64.Idx → EReal) (kv : S4x16x64x64.Idx → EReal) (b : Fin 4) (h : Fin 16) (l : Fin 4096) (j : Fin 64) : EReal :=
  Ideal.div (O2 q kv b h l j)
      (max (Ideal.sqrt (0 + ∑ j' : Fin 64,
          (O2 q kv b h l j' * Ideal.ofBits .f32 0x3E000000#32) * (O2 q kv b h l j' * Ideal.ofBits .f32 0x3E000000#32)))
        (Ideal.ofBits .f32 0x2B8CBCCC#32))
    * u (ix4 b h l j)

/-- The result: g with the heads merged back into 1024 columns, times the transposed output weight. -/
def G2 (q u : S4x16x4096x64.Idx → EReal) (kv : S4x16x64x64.Idx → EReal) (woT : S1024x1024.Idx → EReal) : S4x4096x1024.Idx → EReal :=
  fun i => ∑ d : Fin 1024, Gt2 q u kv (i 0) (hd d) (i 1) (ln d) * woT (ix2 d (i 2))
theorem G2_apply (q u : S4x16x4096x64.Idx → EReal) (kv : S4x16x64x64.Idx → EReal) (woT : S1024x1024.Idx → EReal)
    (b : Fin 4) (l : Fin 4096) (n : Fin 1024) :
    G2 q u kv woT (ix3 b l n) = ∑ d : Fin 1024, Gt2 q u kv b (hd d) l (ln d) * woT (ix2 d n) := rfl

end Cert.KernelIdeal.Val

end
-- ==== Proof.Val.Arr0.lean ====
/-
  Region 0's four output arrays after the region, as functions of the arrays it reads: each block a grid point writes
  back is the block of ONE whole-array function (a projection of the rows by a weight, then a pointwise map, laid out by
  heads), and the blocks tile the arrays, so each array ends holding that function.
-/
import proofs.«160171_j67336497267250_2_alg».proof.Proof.KI.Reg0
import proofs.«160171_j67336497267250_2_alg».proof.Proof.Val.Pay0
import proofs.«160171_j67336497267250_2_alg».proof.Proof.Val.Spec
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

-- the TensorCore's buffer contents when the region is entered: a PARAMETER
variable (V : (c : Dev nD) → (b : Ref sig .tc) → Buf (Elt Ideal) ((c : Thread nD τ).loc b))

theorem arr0_zero2 : (![0, 0] : Fin 2 → Nat) = fun _ => 0 := funext fun a => by fin_cases a <;> rfl
theorem arr0_zero3 : (![0, 0, 0] : Fin 3 → Nat) = fun _ => 0 := funext fun a => by fin_cases a <;> rfl
theorem arr0_zero4 : (![0, 0, 0, 0] : Fin 4 → Nat) = fun _ => 0 := funext fun a => by fin_cases a <;> rfl

/-! ## The index maps, decided over the grid -/

/-- Point `t = 16 b + r` reads row block `r` of batch `b` of `x` and each weight whole, -/
theorem idx_facts0 : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- and writes row block `r` of batch `b` of each output, all heads. -/
theorem idx_facts0_5 : ∀ t : Fin cfg0.N,
    win0_5.index t (0 : Fin 4) = t.val / 16 ∧ win0_5.index t (1 : Fin 4) = 0 ∧ win0_5.index t (2 : Fin 4) = t.val % 16 ∧ win0_5.index t (3 : Fin 4) = 0 :=
  (by decide +kernel : ∀ t : Fin grid0.N, _)
theorem idx_facts0_6 : ∀ t : Fin cfg0.N,
    win0_6.index t (0 : Fin 4) = t.val / 16 ∧ win0_6.index t (1 : Fin 4) = 0 ∧ win0_6.index t (2 : Fin 4) = t.val % 16 ∧ win0_6.index t (3 : Fin 4) = 0 :=
  (by decide +kernel : ∀ t : Fin grid0.N, _)
theorem idx_facts0_7 : ∀ t : Fin cfg0.N,
    win0_7.index t (0 : Fin 4) = t.val / 16 ∧ win0_7.index t (1 : Fin 4) = 0 ∧ win0_7.index t (2 : Fin 4) = t.val % 16 ∧ win0_7.index t (3 : Fin 4) = 0 :=
  (by decide +kernel : ∀ t : Fin grid0.N, _)
theorem idx_facts0_8 : ∀ t : Fin cfg0.N,
    win0_8.index t (0 : Fin 4) = t.val / 16 ∧ win0_8.index t (1 : Fin 4) = 0 ∧ win0_8.index t (2 : Fin 4) = t.val % 16 ∧ win0_8.index t (3 : Fin 4) = 0 :=
  (by decide +kernel : ∀ t : Fin grid0.N, _)

/-! ## The input blocks, read off the arrays -/

/-- Row block `r` of batch `b` of a `[4, 4096, 1024]` array. -/
def xblk0 (x : S4x4096x1024.Idx → EReal) (b : Fin 4) (r : Fin 16) : Vec Ideal S1x256x1024 .f32 :=
  fun y => x (ix3 b ⟨256 * r.val + (y 1).val, by have h : (y 1).val < 256 := (y 1).isLt; have := r.isLt; show _ < 4096; omega⟩ (y 2))

/-- Window 0's block at point `16 b + r` is that row block of the array the region finds. -/
theorem iblk0_0_eq (c : Dev nD) (t : Fin cfg0.N) (b : Fin 4) (r : Fin 16) (hb : b.val = t.val / 16) (hr : r.val = t.val % 16) :
    iblk0 V c 0 t = xblk0 (V c main_arg0) b r := by
  obtain ⟨e0, e1, e2, -⟩ := idx_facts0 t
  funext y
  unfold iblk0 xblk0
  rw [View.read_apply]
  show V c main_arg0 _ = V c main_arg0 _
  congr 1
  funext a
  apply Fin.ext
  match a with
  | ⟨0, _⟩ => show win0_0.index t (0 : Fin 3) * 1 + 1 * (y 0).val = b.val; have h : (y 0).val < 1 := (y 0).isLt; rw [e0, hb]; omega
  | ⟨1, _⟩ => show win0_0.index t (1 : Fin 3) * 256 + 1 * (y 1).val = 256 * r.val + (y 1).val; rw [e1, hr]; omega
  | ⟨2, _⟩ => show win0_0.index t (2 : Fin 3) * 1024 + 1 * (y 2).val = (y 2).val; rw [e2]; omega

/-- A weight window's block at any point is the whole weight array. -/
theorem iblk0_1_eq (c : Dev nD) (t : Fin cfg0.N) : iblk0 V c 1 t = (V c main_v1 : S1024x1024.Idx → EReal) := by
  have e := idx_facts0 t
  funext y
  unfold iblk0
  rw [View.read_apply]
  show V c main_v1 _ = V c main_v1 _
  congr 1
  funext a
  apply Fin.ext
  match a with
  | ⟨0, _⟩ => show win0_1.index t (0 : Fin 2) * 1024 + 1 * (y 0).val = (y 0).val; rw [e.2.2.2.1]; omega
  | ⟨1, _⟩ => show win0_1.index t (1 : Fin 2) * 1024 + 1 * (y 1).val = (y 1).val; rw [e.2.2.2.2.1]; omega
theorem iblk0_2_eq (c : Dev nD) (t : Fin cfg0.N) : iblk0 V c 2 t = (V c main_v3 : S1024x1024.Idx → EReal) := by
  have e := idx_facts0 t
  funext y
  unfold iblk0
  rw [View.read_apply]
  show V c main_v3 _ = V c main_v3 _
  congr 1
  funext a
  apply Fin.ext
  match a with
  | ⟨0, _⟩ => show win0_2.index t (0 : Fin 2) * 1024 + 1 * (y 0).val = (y 0).val; rw [e.2.2.2.2.2.1]; omega
  | ⟨1, _⟩ => show win0_2.index t (1 : Fin 2) * 1024 + 1 * (y 1).val = (y 1).val; rw [e.2.2.2.2.2.2.1]; omega
theorem iblk0_3_eq (c : Dev nD) (t : Fin cfg0.N) : iblk0 V c 3 t = (V c main_v5 : S1024x1024.Idx → EReal) := by
  have e := idx_facts0 t
  funext y
  unfold iblk0
  rw [View.read_apply]
  show V c main_v5 _ = V c main_v5 _
  congr 1
  funext a
  apply Fin.ext
  match a with
  | ⟨0, _⟩ => show win0_3.index t (0 : Fin 2) * 1024 + 1 * (y 0).val = (y 0).val; rw [e.2.2.2.2.2.2.2.1]; omega
  | ⟨1, _⟩ => show win0_3.index t (1 : Fin 2) * 1024 + 1 * (y 1).val = (y 1).val; rw [e.2.2.2.2.2.2.2.2.1]; omega
theorem iblk0_4_eq (c : Dev nD) (t : Fin cfg0.N) : iblk0 V c 4 t = (V c main_v7 : S1024x1024.Idx → EReal) := by
  have e := idx_facts0 t
  funext y
  unfold iblk0
  rw [View.read_apply]
  show V c main_v7 _ = V c main_v7 _
  congr 1
  funext a
  apply Fin.ext
  match a with
  | ⟨0, _⟩ => show win0_4.index t (0 : Fin 2) * 1024 + 1 * (y 0).val = (y 0).val; rw [e.2.2.2.2.2.2.2.2.2.1]; omega
  | ⟨1, _⟩ => show win0_4.index t (1 : Fin 2) * 1024 + 1 * (y 1).val = (y 1).val; rw [e.2.2.2.2.2.2.2.2.2.2]; omega

/-! ## The payloads of a row block, as the whole-array functions at the block's place -/

/-- Row `l` of row block `r`, as a row of the array. -/
abbrev rowOf0 (r : Fin 16) (l : Fin 256) : Fin 4096 := ⟨256 * r.val + l.val, by have h1 := r.isLt; have h2 := l.isLt; omega⟩

/-- The projection of row `l` of row block `r` is the projection of row `256 r + l` of the array. -/
theorem proj0_xblk0 (X : S4x4096x1024.Idx → EReal) (W : S1024x1024.Idx → EReal) (b : Fin 4) (r : Fin 16) (h : Fin 16) (l : Fin 256) (j : Fin 64) :
    proj0 (xblk0 X b r) W l (headCol h j) = P0 X W b h (rowOf0 r l) j := rfl

/-- Output window 5's payload over a row block, at an index of the block, is `G0r` at the index's place in the array. -/
theorem pay0_5_blk (X : S4x4096x1024.Idx → EReal) (W : S1024x1024.Idx → EReal) (b : Fin 4) (r : Fin 16) (h : Fin 16) (l : Fin 256) (j : Fin 64) :
    k0_pay7 (xblk0 X b r) W (ix4 (0 : Fin 1) h l j) = G0r X W (ix4 b h (rowOf0 r l) j) := by
  rw [k0_pay7_apply, G0r_apply, proj0_xblk0]

/-- Output window 6's payload over a row block, at an index of the block, is `G0r` at the index's place in the array. -/
theorem pay0_6_blk (X : S4x4096x1024.Idx → EReal) (W : S1024x1024.Idx → EReal) (b : Fin 4) (r : Fin 16) (h : Fin 16) (l : Fin 256) (j : Fin 64) :
    k0_pay1 (k0_pay8 (xblk0 X b r) W) (ix4 (0 : Fin 1) h l j) = G0r X W (ix4 b h (rowOf0 r l) j) := by
  rw [k0_pay1_pay8_apply, G0r_apply, proj0_xblk0]

/-- Output window 7's payload over a row block, at an index of the block, is `G0v` at the index's place in the array. -/
theorem pay0_7_blk (X : S4x4096x1024.Idx → EReal) (W : S1024x1024.Idx → EReal) (b : Fin 4) (r : Fin 16) (h : Fin 16) (l : Fin 256) (j : Fin 64) :
    k0_pay2 (k0_pay5 (xblk0 X b r) W) (ix4 (0 : Fin 1) h l j) = G0v X W (ix4 b h (rowOf0 r l) j) := by
  rw [k0_pay2_pay5_apply, G0v_apply, proj0_xblk0]

/-- Output window 8's payload over a row block, at an index of the block, is `G0u` at the index's place in the array. -/
theorem pay0_8_blk (X : S4x4096x1024.Idx → EReal) (W : S1024x1024.Idx → EReal) (b : Fin 4) (r : Fin 16) (h : Fin 16) (l : Fin 256) (j : Fin 64) :
    k0_pay3 (k0_pay6 (xblk0 X b r) W) (ix4 (0 : Fin 1) h l j) = G0u X W (ix4 b h (rowOf0 r l) j) := by
  rw [k0_pay3_pay6_apply, G0u_apply, proj0_xblk0]

/-! ## What each point writes back -/

/-- An index of an output block, by its coordinates. -/
theorem blkIdx0_eq (j : S1x16x256x64.Idx) :
    j = ix4 (0 : Fin 1) (⟨(j 1).val, (j 1).isLt⟩ : Fin 16) (⟨(j 2).val, (j 2).isLt⟩ : Fin 256) (⟨(j 3).val, (j 3).isLt⟩ : Fin 64) := by
  funext a
  match a with
  | ⟨0, _⟩ => exact Fin.ext (by have h : (j 0).val < 1 := (j 0).isLt; show (j 0).val = 0; omega)
  | ⟨1, _⟩ => rfl
  | ⟨2, _⟩ => rfl
  | ⟨3, _⟩ => rfl

/-- Where an index of point `t`'s block of output window 5 sits in the array. -/
theorem emb0_5 (t : Fin cfg0.N) (b : Fin 4) (r : Fin 16) (hb : b.val = t.val / 16) (hr : r.val = t.val % 16) (j : S1x16x256x64.Idx) :
    (((cfg0.win 5).blk t).view.emb j : S4x16x4096x64.Idx)
      = ix4 b (⟨(j 1).val, (j 1).isLt⟩ : Fin 16) (rowOf0 r ⟨(j 2).val, (j 2).isLt⟩) (⟨(j 3).val, (j 3).isLt⟩ : Fin 64) := by
  obtain ⟨e0, e1, e2, e3⟩ := idx_facts0_5 t
  funext a
  apply Fin.ext
  match a with
  | ⟨0, _⟩ => show win0_5.index t (0 : Fin 4) * 1 + 1 * (j 0).val = b.val; have h : (j 0).val < 1 := (j 0).isLt; omega
  | ⟨1, _⟩ => show win0_5.index t (1 : Fin 4) * 16 + 1 * (j 1).val = (j 1).val; omega
  | ⟨2, _⟩ => show win0_5.index t (2 : Fin 4) * 256 + 1 * (j 2).val = 256 * r.val + (j 2).val; omega
  | ⟨3, _⟩ => show win0_5.index t (3 : Fin 4) * 64 + 1 * (j 3).val = (j 3).val; omega

/-- What point `t` writes back to output window 5's array is block `t` of `G0r` of the arrays the region finds. -/
theorem flushed0_5_eq (c : Dev nD) (t : Fin cfg0.N) :
    (dat0 V c).flushed 5 t = ((cfg0.win 5).blk t).view.read (Elt Ideal) (G0r (V c main_arg0) (V c main_v1)) := by
  have ht : t.val < 64 := lt_of_lt_of_eq t.isLt N_0
  show (cfg0.win 5).cut (grid0.coords t) ((dat0 V c).after 5 t) = _
  rw [after0_5]
  unfold out0_5
  rw [View.canon_unit_zero arr0_zero4]
  simp only [View.ld_unit_zero (S := S1x256x1024) arr0_zero3, View.ld_unit_zero (S := S1024x1024) arr0_zero2]
  rw [iblk0_0_eq V c t ⟨t.val / 16, by omega⟩ ⟨t.val % 16, by omega⟩ rfl rfl, iblk0_1_eq]
  funext j
  show k0_pay7 (xblk0 (V c main_arg0) ⟨t.val / 16, _⟩ ⟨t.val % 16, _⟩) (V c main_v1) j
    = G0r (V c main_arg0) (V c main_v1) (((cfg0.win 5).blk t).view.emb j)
  rw [emb0_5 t ⟨t.val / 16, by omega⟩ ⟨t.val % 16, by omega⟩ rfl rfl j]
  exact (congrArg _ (blkIdx0_eq j)).trans (pay0_5_blk _ _ _ _ _ _ _)

/-- Where an index of point `t`'s block of output window 6 sits in the array. -/
theorem emb0_6 (t : Fin cfg0.N) (b : Fin 4) (r : Fin 16) (hb : b.val = t.val / 16) (hr : r.val = t.val % 16) (j : S1x16x256x64.Idx) :
    (((cfg0.win 6).blk t).view.emb j : S4x16x4096x64.Idx)
      = ix4 b (⟨(j 1).val, (j 1).isLt⟩ : Fin 16) (rowOf0 r ⟨(j 2).val, (j 2).isLt⟩) (⟨(j 3).val, (j 3).isLt⟩ : Fin 64) := by
  obtain ⟨e0, e1, e2, e3⟩ := idx_facts0_6 t
  funext a
  apply Fin.ext
  match a with
  | ⟨0, _⟩ => show win0_6.index t (0 : Fin 4) * 1 + 1 * (j 0).val = b.val; have h : (j 0).val < 1 := (j 0).isLt; omega
  | ⟨1, _⟩ => show win0_6.index t (1 : Fin 4) * 16 + 1 * (j 1).val = (j 1).val; omega
  | ⟨2, _⟩ => show win0_6.index t (2 : Fin 4) * 256 + 1 * (j 2).val = 256 * r.val + (j 2).val; omega
  | ⟨3, _⟩ => show win0_6.index t (3 : Fin 4) * 64 + 1 * (j 3).val = (j 3).val; omega

/-- What point `t` writes back to output window 6's array is block `t` of `G0r` of the arrays the region finds. -/
theorem flushed0_6_eq (c : Dev nD) (t : Fin cfg0.N) :
    (dat0 V c).flushed 6 t = ((cfg0.win 6).blk t).view.read (Elt Ideal) (G0r (V c main_arg0) (V c main_v3)) := by
  have ht : t.val < 64 := lt_of_lt_of_eq t.isLt N_0
  show (cfg0.win 6).cut (grid0.coords t) ((dat0 V c).after 6 t) = _
  rw [after0_6]
  unfold out0_6
  rw [View.canon_unit_zero arr0_zero4]
  simp only [View.ld_unit_zero (S := S1x256x1024) arr0_zero3, View.ld_unit_zero (S := S1024x1024) arr0_zero2]
  rw [iblk0_0_eq V c t ⟨t.val / 16, by omega⟩ ⟨t.val % 16, by omega⟩ rfl rfl, iblk0_2_eq]
  funext j
  show k0_pay1 (k0_pay8 (xblk0 (V c main_arg0) ⟨t.val / 16, _⟩ ⟨t.val % 16, _⟩) (V c main_v3)) j
    = G0r (V c main_arg0) (V c main_v3) (((cfg0.win 6).blk t).view.emb j)
  rw [emb0_6 t ⟨t.val / 16, by omega⟩ ⟨t.val % 16, by omega⟩ rfl rfl j]
  exact (congrArg _ (blkIdx0_eq j)).trans (pay0_6_blk _ _ _ _ _ _ _)

/-- Where an index of point `t`'s block of output window 7 sits in the array. -/
theorem emb0_7 (t : Fin cfg0.N) (b : Fin 4) (r : Fin 16) (hb : b.val = t.val / 16) (hr : r.val = t.val % 16) (j : S1x16x256x64.Idx) :
    (((cfg0.win 7).blk t).view.emb j : S4x16x4096x64.Idx)
      = ix4 b (⟨(j 1).val, (j 1).isLt⟩ : Fin 16) (rowOf0 r ⟨(j 2).val, (j 2).isLt⟩) (⟨(j 3).val, (j 3).isLt⟩ : Fin 64) := by
  obtain ⟨e0, e1, e2, e3⟩ := idx_facts0_7 t
  funext a
  apply Fin.ext
  match a with
  | ⟨0, _⟩ => show win0_7.index t (0 : Fin 4) * 1 + 1 * (j 0).val = b.val; have h : (j 0).val < 1 := (j 0).isLt; omega
  | ⟨1, _⟩ => show win0_7.index t (1 : Fin 4) * 16 + 1 * (j 1).val = (j 1).val; omega
  | ⟨2, _⟩ => show win0_7.index t (2 : Fin 4) * 256 + 1 * (j 2).val = 256 * r.val + (j 2).val; omega
  | ⟨3, _⟩ => show win0_7.index t (3 : Fin 4) * 64 + 1 * (j 3).val = (j 3).val; omega

/-- What point `t` writes back to output window 7's array is block `t` of `G0v` of the arrays the region finds. -/
theorem flushed0_7_eq (c : Dev nD) (t : Fin cfg0.N) :
    (dat0 V c).flushed 7 t = ((cfg0.win 7).blk t).view.read (Elt Ideal) (G0v (V c main_arg0) (V c main_v5)) := by
  have ht : t.val < 64 := lt_of_lt_of_eq t.isLt N_0
  show (cfg0.win 7).cut (grid0.coords t) ((dat0 V c).after 7 t) = _
  rw [after0_7]
  unfold out0_7
  rw [View.canon_unit_zero arr0_zero4]
  simp only [View.ld_unit_zero (S := S1x256x1024) arr0_zero3, View.ld_unit_zero (S := S1024x1024) arr0_zero2]
  rw [iblk0_0_eq V c t ⟨t.val / 16, by omega⟩ ⟨t.val % 16, by omega⟩ rfl rfl, iblk0_3_eq]
  funext j
  show k0_pay2 (k0_pay5 (xblk0 (V c main_arg0) ⟨t.val / 16, _⟩ ⟨t.val % 16, _⟩) (V c main_v5)) j
    = G0v (V c main_arg0) (V c main_v5) (((cfg0.win 7).blk t).view.emb j)
  rw [emb0_7 t ⟨t.val / 16, by omega⟩ ⟨t.val % 16, by omega⟩ rfl rfl j]
  exact (congrArg _ (blkIdx0_eq j)).trans (pay0_7_blk _ _ _ _ _ _ _)

/-- Where an index of point `t`'s block of output window 8 sits in the array. -/
theorem emb0_8 (t : Fin cfg0.N) (b : Fin 4) (r : Fin 16) (hb : b.val = t.val / 16) (hr : r.val = t.val % 16) (j : S1x16x256x64.Idx) :
    (((cfg0.win 8).blk t).view.emb j : S4x16x4096x64.Idx)
      = ix4 b (⟨(j 1).val, (j 1).isLt⟩ : Fin 16) (rowOf0 r ⟨(j 2).val, (j 2).isLt⟩) (⟨(j 3).val, (j 3).isLt⟩ : Fin 64) := by
  obtain ⟨e0, e1, e2, e3⟩ := idx_facts0_8 t
  funext a
  apply Fin.ext
  match a with
  | ⟨0, _⟩ => show win0_8.index t (0 : Fin 4) * 1 + 1 * (j 0).val = b.val; have h : (j 0).val < 1 := (j 0).isLt; omega
  | ⟨1, _⟩ => show win0_8.index t (1 : Fin 4) * 16 + 1 * (j 1).val = (j 1).val; omega
  | ⟨2, _⟩ => show win0_8.index t (2 : Fin 4) * 256 + 1 * (j 2).val = 256 * r.val + (j 2).val; omega
  | ⟨3, _⟩ => show win0_8.index t (3 : Fin 4) * 64 + 1 * (j 3).val = (j 3).val; omega

/-- What point `t` writes back to output window 8's array is block `t` of `G0u` of the arrays the region finds. -/
theorem flushed0_8_eq (c : Dev nD) (t : Fin cfg0.N) :
    (dat0 V c).flushed 8 t = ((cfg0.win 8).blk t).view.read (Elt Ideal) (G0u (V c main_arg0) (V c main_v7)) := by
  have ht : t.val < 64 := lt_of_lt_of_eq t.isLt N_0
  show (cfg0.win 8).cut (grid0.coords t) ((dat0 V c).after 8 t) = _
  rw [after0_8]
  unfold out0_8
  rw [View.canon_unit_zero arr0_zero4]
  simp only [View.ld_unit_zero (S := S1x256x1024) arr0_zero3, View.ld_unit_zero (S := S1024x1024) arr0_zero2]
  rw [iblk0_0_eq V c t ⟨t.val / 16, by omega⟩ ⟨t.val % 16, by omega⟩ rfl rfl, iblk0_4_eq]
  funext j
  show k0_pay3 (k0_pay6 (xblk0 (V c main_arg0) ⟨t.val / 16, _⟩ ⟨t.val % 16, _⟩) (V c main_v7)) j
    = G0u (V c main_arg0) (V c main_v7) (((cfg0.win 8).blk t).view.emb j)
  rw [emb0_8 t ⟨t.val / 16, by omega⟩ ⟨t.val % 16, by omega⟩ rfl rfl j]
  exact (congrArg _ (blkIdx0_eq j)).trans (pay0_8_blk _ _ _ _ _ _ _)

/-! ## The blocks tile the arrays -/

/-- An index of output window 5's array is in point `t`'s block iff each coordinate is in the block's range on its axis. -/
theorem mem_blk0_5 (t : Fin cfg0.N) (i : S4x16x4096x64.Idx) :
    i ∈ ((cfg0.win 5).blk t).view.set ↔ ∀ a : Fin 4, win0_5.index t a * S1x16x256x64.size a ≤ (i a).val ∧ (i a).val < win0_5.index t a * S1x16x256x64.size a + S1x16x256x64.size a := by
  show i ∈ ((View.whole main_v10_0).slice (win0_5.rect t)).set ↔ _
  rw [View.set_slice_whole, Rect.mem_set_unit]
  exact Iff.rfl

/-- Every index of output window 5's array is in the block of the point of its batch and row block, which writes back. -/
theorem cover0_5 (i : S4x16x4096x64.Idx) : ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, tv⟩ : ∃ t : Fin cfg0.N, t.val = 16 * (i 0).val + (i 2).val / 256 :=
    ⟨⟨16 * (i 0).val + (i 2).val / 256, by rw [show cfg0.N = 64 from N_0]; omega⟩, rfl⟩
  obtain ⟨e0, e1, e2, e3⟩ := idx_facts0_5 t
  refine ⟨t, flush0_5 t, ?_⟩
  rw [mem_blk0_5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 256 ≤ (i 2).val ∧ (i 2).val < win0_5.index t (2 : Fin 4) * 256 + 256; omega
  | ⟨3, _⟩ => show win0_5.index t (3 : Fin 4) * 64 ≤ (i 3).val ∧ (i 3).val < win0_5.index t (3 : Fin 4) * 64 + 64; omega

/-- An index of output window 6's array is in point `t`'s block iff each coordinate is in the block's range on its axis. -/
theorem mem_blk0_6 (t : Fin cfg0.N) (i : S4x16x4096x64.Idx) :
    i ∈ ((cfg0.win 6).blk t).view.set ↔ ∀ a : Fin 4, win0_6.index t a * S1x16x256x64.size a ≤ (i a).val ∧ (i a).val < win0_6.index t a * S1x16x256x64.size a + S1x16x256x64.size a := by
  show i ∈ ((View.whole main_v10_1).slice (win0_6.rect t)).set ↔ _
  rw [View.set_slice_whole, Rect.mem_set_unit]
  exact Iff.rfl

/-- Every index of output window 6's array is in the block of the point of its batch and row block, which writes back. -/
theorem cover0_6 (i : S4x16x4096x64.Idx) : ∃ t : Fin cfg0.N, (cfg0.win 6).flush t = true ∧ i ∈ ((cfg0.win 6).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, tv⟩ : ∃ t : Fin cfg0.N, t.val = 16 * (i 0).val + (i 2).val / 256 :=
    ⟨⟨16 * (i 0).val + (i 2).val / 256, by rw [show cfg0.N = 64 from N_0]; omega⟩, rfl⟩
  obtain ⟨e0, e1, e2, e3⟩ := idx_facts0_6 t
  refine ⟨t, flush0_6 t, ?_⟩
  rw [mem_blk0_6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 256 ≤ (i 2).val ∧ (i 2).val < win0_6.index t (2 : Fin 4) * 256 + 256; omega
  | ⟨3, _⟩ => show win0_6.index t (3 : Fin 4) * 64 ≤ (i 3).val ∧ (i 3).val < win0_6.index t (3 : Fin 4) * 64 + 64; omega

/-- An index of output window 7's array is in point `t`'s block iff each coordinate is in the block's range on its axis. -/
theorem mem_blk0_7 (t : Fin cfg0.N) (i : S4x16x4096x64.Idx) :
    i ∈ ((cfg0.win 7).blk t).view.set ↔ ∀ a : Fin 4, win0_7.index t a * S1x16x256x64.size a ≤ (i a).val ∧ (i a).val < win0_7.index t a * S1x16x256x64.size a + S1x16x256x64.size a := by
  show i ∈ ((View.whole main_v10_2).slice (win0_7.rect t)).set ↔ _
  rw [View.set_slice_whole, Rect.mem_set_unit]
  exact Iff.rfl

/-- Every index of output window 7's array is in the block of the point of its batch and row block, which writes back. -/
theorem cover0_7 (i : S4x16x4096x64.Idx) : ∃ t : Fin cfg0.N, (cfg0.win 7).flush t = true ∧ i ∈ ((cfg0.win 7).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, tv⟩ : ∃ t : Fin cfg0.N, t.val = 16 * (i 0).val + (i 2).val / 256 :=
    ⟨⟨16 * (i 0).val + (i 2).val / 256, by rw [show cfg0.N = 64 from N_0]; omega⟩, rfl⟩
  obtain ⟨e0, e1, e2, e3⟩ := idx_facts0_7 t
  refine ⟨t, flush0_7 t, ?_⟩
  rw [mem_blk0_7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 256 ≤ (i 2).val ∧ (i 2).val < win0_7.index t (2 : Fin 4) * 256 + 256; omega
  | ⟨3, _⟩ => show win0_7.index t (3 : Fin 4) * 64 ≤ (i 3).val ∧ (i 3).val < win0_7.index t (3 : Fin 4) * 64 + 64; omega

/-- An index of output window 8's array is in point `t`'s block iff each coordinate is in the block's range on its axis. -/
theorem mem_blk0_8 (t : Fin cfg0.N) (i : S4x16x4096x64.Idx) :
    i ∈ ((cfg0.win 8).blk t).view.set ↔ ∀ a : Fin 4, win0_8.index t a * S1x16x256x64.size a ≤ (i a).val ∧ (i a).val < win0_8.index t a * S1x16x256x64.size a + S1x16x256x64.size a := by
  show i ∈ ((View.whole main_v10_3).slice (win0_8.rect t)).set ↔ _
  rw [View.set_slice_whole, Rect.mem_set_unit]
  exact Iff.rfl

/-- Every index of output window 8's array is in the block of the point of its batch and row block, which writes back. -/
theorem cover0_8 (i : S4x16x4096x64.Idx) : ∃ t : Fin cfg0.N, (cfg0.win 8).flush t = true ∧ i ∈ ((cfg0.win 8).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, tv⟩ : ∃ t : Fin cfg0.N, t.val = 16 * (i 0).val + (i 2).val / 256 :=
    ⟨⟨16 * (i 0).val + (i 2).val / 256, by rw [show cfg0.N = 64 from N_0]; omega⟩, rfl⟩
  obtain ⟨e0, e1, e2, e3⟩ := idx_facts0_8 t
  refine ⟨t, flush0_8 t, ?_⟩
  rw [mem_blk0_8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 256 ≤ (i 2).val ∧ (i 2).val < win0_8.index t (2 : Fin 4) * 256 + 256; omega
  | ⟨3, _⟩ => show win0_8.index t (3 : Fin 4) * 64 ≤ (i 3).val ∧ (i 3).val < win0_8.index t (3 : Fin 4) * 64 + 64; omega

/-! ## The arrays after the region -/

/-- Output window 5's array after the region is `G0r` of the row array and its weight as the region finds them. -/
theorem final0_5 (c : Dev nD) : (dat0 V c).arrAt 5 cfg0.N = G0r (V c main_arg0) (V c main_v1) :=
  (dat0 V c).arrAt_eq_of_cover 5 (G0r (V c main_arg0) (V c main_v1)) (fun t _ => flushed0_5_eq V c t) cover0_5

/-- Output window 6's array after the region is `G0r` of the row array and its weight as the region finds them. -/
theorem final0_6 (c : Dev nD) : (dat0 V c).arrAt 6 cfg0.N = G0r (V c main_arg0) (V c main_v3) :=
  (dat0 V c).arrAt_eq_of_cover 6 (G0r (V c main_arg0) (V c main_v3)) (fun t _ => flushed0_6_eq V c t) cover0_6

/-- Output window 7's array after the region is `G0v` of the row array and its weight as the region finds them. -/
theorem final0_7 (c : Dev nD) : (dat0 V c).arrAt 7 cfg0.N = G0v (V c main_arg0) (V c main_v5) :=
  (dat0 V c).arrAt_eq_of_cover 7 (G0v (V c main_arg0) (V c main_v5)) (fun t _ => flushed0_7_eq V c t) cover0_7

/-- Output window 8's array after the region is `G0u` of the row array and its weight as the region finds them. -/
theorem final0_8 (c : Dev nD) : (dat0 V c).arrAt 8 cfg0.N = G0u (V c main_arg0) (V c main_v7) :=
  (dat0 V c).arrAt_eq_of_cover 8 (G0u (V c main_arg0) (V c main_v7)) (fun t _ => flushed0_8_eq V c t) cover0_8

end Cert.KernelIdeal.Val

end
-- ==== Proof.KI.Reg1Val.lean ====
import proofs.«160171_j67336497267250_2_alg».proof.Proof.KI.Reg1
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

/-! # Region 1: what the case runs leave, in terms of the payloads only

Every access of the body is the whole buffer (a unit rectangle at offset zero), so each found piece list reads
back as its last payload, and each load reads the buffer's contents. -/

theorem hz3_1 : (![0, 0, 0] : Fin 3 → Nat) = fun _ => 0 := funext fun a => by fin_cases a <;> rfl
theorem hz4_1 : (![0, 0, 0, 0] : Fin 4 → Nat) = fun _ => 0 := funext fun a => by fin_cases a <;> rfl

/-- Case B (neither conditional taken): the scratch holding `xs0` is left at the product of the input blocks added
    to it. -/
theorem sout1_B_0_eq (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : ¬cond1_1 i)
    (x0 : Vec F S1x16x1024x64 .f32) (x1 : Vec F S1x16x1024x64 .f32) (xs0 : Vec F S16x64x64 .f32) :
    sout1_B_0 c i arg2 harg2 arg3 harg3 arg4 harg4 arg5 harg5 hc0 hc1 x0 x1 xs0 = k1_pay2 x0 x1 xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero (S := S16x64x64) hz3_1]
  simp only [View.readAt_eq_ld, harg2.read_unread, harg3.read_unread, harg5.read_unread, View.ld_unit_zero (S := S1x16x1024x64) hz4_1, View.ld_unit_zero (S := S16x64x64) hz3_1]

/-- Case A (the first point of a row): the scratch is zero-filled, then the product of the input blocks is added. -/
theorem sout1_A_0_eq (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : cond1_0 i) (hc1 : ¬cond1_1 i)
    (x0 : Vec F S1x16x1024x64 .f32) (x1 : Vec F S1x16x1024x64 .f32) :
    sout1_A_0 c i arg2 harg2 arg3 harg3 arg4 harg4 arg5 harg5 hc0 hc1 x0 x1 = k1_pay2 x0 x1 k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S16x64x64) hz3_1, View.readCov_unit_zero (S := S16x64x64) _ hz3_1]
  simp only [View.readAt_eq_ld, harg2.read_unread, harg3.read_unread, View.ld_unit_zero (S := S1x16x1024x64) hz4_1]

/-- Case C (the last point of a row): the scratch as in case B, -/
theorem sout1_C_0_eq (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) :
    sout1_C_0 c i arg2 harg2 arg3 harg3 arg4 harg4 arg5 harg5 hc0 hc1 x0 x1 xs0 = k1_pay2 x0 x1 xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero (S := S16x64x64) hz3_1]
  simp only [View.readAt_eq_ld, harg2.read_unread, harg3.read_unread, harg5.read_unread, View.ld_unit_zero (S := S1x16x1024x64) hz4_1, View.ld_unit_zero (S := S16x64x64) hz3_1]

/-- and the output's buffer at that scratch reshaped. -/
theorem out1_C_2_eq (c : Dev nD) (i : grid1.Coords) (arg2 : Memref sig .tc .vmem S1x16x1024x64 .f32) (harg2 : arg2.IsWhole) (arg3 : Memref sig .tc .vmem S1x16x1024x64 .f32) (harg3 : arg3.IsWhole) (arg4 : Memref sig .tc .vmem S1x16x64x64 .f32) (harg4 : arg4.IsWhole) (arg5 : Memref sig .tc .vmem S16x64x64 .f32) (harg5 : arg5.IsWhole) (hc0 : ¬cond1_0 i) (hc1 : cond1_1 i)
    (x0 : Vec F S1x16x1024x64 .f32) (x1 : Vec F S1x16x1024x64 .f32) (xs0 : Vec F S16x64x64 .f32) :
    out1_C_2 c i arg2 harg2 arg3 harg3 arg4 harg4 arg5 harg5 hc0 hc1 x0 x1 xs0 = k1_pay3 (k1_pay2 x0 x1 xs0) := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero (S := S1x16x64x64) hz4_1, View.readCov_unit_zero (S := S16x64x64) _ hz3_1]
  simp only [View.readAt_eq_ld, harg2.read_unread, harg3.read_unread, harg5.read_unread, View.ld_unit_zero (S := S1x16x1024x64) hz4_1, View.ld_unit_zero (S := S16x64x64) hz3_1]

section AtV
variable (V : (c : Dev nD) → (b : Ref sig .tc) → Buf (Elt F) ((c : Thread nD τ).loc b))

/-- The scratch after the first point of a row. -/
theorem scratch1_A (c : Dev nD) (t : Fin cfg1.N) (h0 : t.val % 4 = 0) :
    (outsAt1 V c t.val t.isLt).2 = k1_pay2 (iblk1 V c 0 t) (iblk1 V c 1 t) k1_pay1 := by
  have h1 : ¬t.val % 4 = 3 := by omega
  rw [outsAt1_A V c t h0 h1]
  exact sout1_A_0_eq c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)

/-- The scratch after any other point: the point's product added to what the point before left. -/
theorem scratch1_BC (c : Dev nD) (t : Fin cfg1.N) (h0 : ¬t.val % 4 = 0) :
    (outsAt1 V c t.val t.isLt).2 = k1_pay2 (iblk1 V c 0 t) (iblk1 V c 1 t) (outsAt1 V c (t.val - 1) (Nat.lt_of_le_of_lt (Nat.sub_le _ _) t.isLt)).2 := by
  by_cases h1 : t.val % 4 = 3
  · rw [outsAt1_C V c t h0 h1]
    exact sout1_C_0_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2
  · rw [outsAt1_B V c t h0 h1]
    exact sout1_B_0_eq c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2

/-- The output's buffer after the last point of a row: that point's scratch reshaped. -/
theorem output1_C (c : Dev nD) (t : Fin cfg1.N) (h1 : t.val % 4 = 3) :
    (outsAt1 V c t.val t.isLt).1 = k1_pay3 (outsAt1 V c t.val t.isLt).2 := by
  have h0 : ¬t.val % 4 = 0 := by omega
  rw [outsAt1_C V c t h0 h1]
  dsimp only
  rw [sout1_C_0_eq]
  exact out1_C_2_eq c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2

end AtV

end Cert.KernelIdeal.Hand

end
-- ==== Proof.Val.Pay1.lean ====
/-
  Region 1's payloads read at an index, at the ideal values (extended reals): the zero fill of the state, one
  accumulation step `state + kᵀ v` of the per-head 64 × 64 state over a block of 1024 rows (the batched matrix product
  contracts the row axis of both operands, the head axis is the batch axis, and rounding to bf16 is the identity on
  extended reals), and the copy of the state into the output block (a leading unit axis added).
-/
import proofs.«160171_j67336497267250_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Idealize.SL.Sem

/-- The batched dot of the state update: operands `[16, 1024, 64]`, batch axis 0, contraction over axis 1 of both. -/
abbrev dotKV := dot_S16x1024x64_S16x1024x64_S16x64x64_1_1_2_2_0_0

theorem dotKV_lhs_0 (o : S16x64x64.Idx) (q : dotKV.contr.Idx) : (dotKV.lhsIdx o q 0).val = (o 0).val := by
  unfold DotDims.lhsIdx
  rw [dif_pos (show (0 : Fin S16x1024x64.rank) ∈ dotKV.lhsBatch by decide)]
  rfl
theorem dotKV_lhs_1 (o : S16x64x64.Idx) (q : dotKV.contr.Idx) : (dotKV.lhsIdx o q 1).val = (q ⟨0, by decide⟩).val :=
  dotKV.lhsIdx_val_of_single rfl o q
theorem dotKV_lhs_2 (o : S16x64x64.Idx) (q : dotKV.contr.Idx) : (dotKV.lhsIdx o q 2).val = (o 1).val := by
  unfold DotDims.lhsIdx
  rw [dif_neg (show ¬(2 : Fin S16x1024x64.rank) ∈ dotKV.lhsBatch by decide),
    dif_pos (show (2 : Fin S16x1024x64.rank) ∈ dotKV.lhsNonContracting by decide)]
  rfl
theorem dotKV_rhs_0 (o : S16x64x64.Idx) (q : dotKV.contr.Idx) : (dotKV.rhsIdx o q 0).val = (o 0).val := by
  unfold DotDims.rhsIdx
  rw [dif_pos (show (0 : Fin S16x1024x64.rank) ∈ dotKV.rhsBatch by decide)]
  rfl
theorem dotKV_rhs_1 (o : S16x64x64.Idx) (q : dotKV.contr.Idx) : (dotKV.rhsIdx o q 1).val = (q ⟨0, by decide⟩).val :=
  dotKV.rhsIdx_val_of_single rfl o q
theorem dotKV_rhs_2 (o : S16x64x64.Idx) (q : dotKV.contr.Idx) : (dotKV.rhsIdx o q 2).val = (o 2).val := by
  unfold DotDims.rhsIdx
  rw [dif_neg (show ¬(2 : Fin S16x1024x64.rank) ∈ dotKV.rhsBatch by decide),
    dif_pos (show (2 : Fin S16x1024x64.rank) ∈ dotKV.rhsNonContracting by decide)]
  rfl

/-- The batched product `kᵀ v` into the zero accumulator, at head `h`, entry `(i, j)`: the sum over the 1024 rows. -/
theorem dotKV_apply (a b : FVec Ideal S16x1024x64 .bf16) (h : Fin 16) (i j : Fin 64) :
    matmul dotKV none a b (constant (F := Ideal) S16x64x64 .f32 0x00000000#32) (ix3 h i j)
      = ∑ l : Fin 1024, a (ix3 h l i) * b (ix3 h l j) := by
  refine (Ideal.matmul_constant_zero_apply dotKV none a b (ix3 h i j)).trans ?_
  rw [← Equiv.sum_comp (contrEquiv1 dotKV 1024 rfl rfl).symm]
  refine Finset.sum_congr rfl fun l _ => ?_
  have hk := contrEquiv1_symm_val dotKV 1024 rfl rfl l
  have el : dotKV.lhsIdx (ix3 h i j) ((contrEquiv1 dotKV 1024 rfl rfl).symm l) = ix3 h l i := funext fun a => Fin.ext (by
    match a with
    | ⟨0, _⟩ => exact dotKV_lhs_0 _ _
    | ⟨1, _⟩ => exact (dotKV_lhs_1 _ _).trans hk
    | ⟨2, _⟩ => exact dotKV_lhs_2 _ _)
  have er : dotKV.rhsIdx (ix3 h i j) ((contrEquiv1 dotKV 1024 rfl rfl).symm l) = ix3 h l j := funext fun a => Fin.ext (by
    match a with
    | ⟨0, _⟩ => exact dotKV_rhs_0 _ _
    | ⟨1, _⟩ => exact (dotKV_rhs_1 _ _).trans hk
    | ⟨2, _⟩ => exact dotKV_rhs_2 _ _)
  rw [el, er]

/-- The state's initial fill is zero everywhere. -/
theorem k1_pay1_apply (h : Fin 16) (i j : Fin 64) : k1_pay1 (F := Ideal) (ix3 h i j) = 0 := by
  unfold k1_pay1
  refine (congrFun (shapeCast_self _ _) _).trans ?_
  exact Ideal.ofBits_zero_f32

/-- One accumulation step: the state plus the sum over the block's 1024 rows of `k[l, i] · v[l, j]`, per head. -/
theorem k1_pay2_apply (kb vb : Vec Ideal S1x16x1024x64 .f32) (s : Vec Ideal S16x64x64 .f32) (h : Fin 16) (i j : Fin 64) :
    k1_pay2 kb vb s (ix3 h i j) = s (ix3 h i j) + ∑ l : Fin 1024, kb (ix4 (0 : Fin 1) h l i) * vb (ix4 (0 : Fin 1) h l j) := by
  unfold k1_pay2
  refine (congrFun (shapeCast_self _ _) _).trans ?_
  refine (addf_apply _ _ _).trans ?_
  refine congrArg (s (ix3 h i j) + ·) ?_
  refine (dotKV_apply _ _ h i j).trans ?_
  refine Finset.sum_congr rfl fun l _ => ?_
  rw [truncf_apply, truncf_apply, shapeCast_1abc_abc_apply, shapeCast_1abc_abc_apply]

/-- The output block is the state with a leading unit axis. -/
theorem k1_pay3_apply (s : Vec Ideal S16x64x64 .f32) (h : Fin 16) (i j : Fin 64) :
    k1_pay3 s (ix4 (0 : Fin 1) h i j) = s (ix3 h i j) := by
  unfold k1_pay3
  exact shapeCast_abc_1abc_apply s _ (0 : Fin 1) h i j

end Cert.KernelIdeal.Val

end
-- ==== Proof.Val.Arr1.lean ====
import proofs.«160171_j67336497267250_2_alg».proof.Proof.KI.Reg1Val
import proofs.«160171_j67336497267250_2_alg».proof.Proof.Val.Pay1
import proofs.«160171_j67336497267250_2_alg».proof.Proof.Val.Spec
import Idealize.ShloMosaic.Lib.Pipeline.Value
set_option maxRecDepth 16384
noncomputable section
namespace Cert.KernelIdeal.Val
open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-! # Region 1's output array after the run

Row `b` of the grid (points 4b, …, 4b+3) zero-fills the per-head 64 × 64 state, adds the product of the key and value
tiles of 1024 positions at each of its four points, and writes the state back at its last point: the array ends
holding, at `[b, h, i, j]`, the four tile sums added in order to zero. -/

-- the TensorCore's buffer contents when the region is entered: a PARAMETER
variable (V : (c : Dev nD) → (b : Ref sig .tc) → Buf (Elt Ideal) ((c : Thread nD τ).loc b))

/-- The printed index maps, decided over the grid: at point `t = 4b + r` the input windows sit at block `(b, 0, r, 0)`
    and the output window at block `(b, 0, 0, 0)`. -/
theorem idx_facts1 : ∀ t : Fin cfg1.N,
    win1_0.index t (0 : Fin 4) = t.val / 4 ∧ win1_0.index t (1 : Fin 4) = 0 ∧ win1_0.index t (2 : Fin 4) = t.val % 4 ∧ win1_0.index t (3 : Fin 4) = 0
    ∧ win1_1.index t (0 : Fin 4) = t.val / 4 ∧ win1_1.index t (1 : Fin 4) = 0 ∧ win1_1.index t (2 : Fin 4) = t.val % 4 ∧ win1_1.index t (3 : Fin 4) = 0
    ∧ win1_2.index t (0 : Fin 4) = t.val / 4 ∧ win1_2.index t (1 : Fin 4) = 0 ∧ win1_2.index t (2 : Fin 4) = 0 ∧ win1_2.index t (3 : Fin 4) = 0 :=
  (by decide +kernel : ∀ t : Fin grid1.N, _)

/-- The key block at point `s = 4b + r`, at an index: the key array at row `b`, position `1024 r + l`. -/
theorem iblk1_0_apply (c : Dev nD) (s : Fin cfg1.N) (b r : Fin 4) (hs : s.val = 4 * b.val + r.val) (h : Fin 16) (l : Fin 1024) (i : Fin 64) :
    (iblk1 V c 0 s : Vec Ideal S1x16x1024x64 .f32) (ix4 (0 : Fin 1) h l i) = V c main_v10_1 (ix4 b h (tile r l) i) := by
  obtain ⟨e0, e1, e2, e3, -⟩ := idx_facts1 s
  have hb := b.isLt; have hr := r.isLt
  show V c main_v10_1 (((cfg1.win 0).blk s).view.emb (ix4 (0 : Fin 1) h l i)) = V c main_v10_1 (ix4 b h (tile r l) i)
  refine congrArg (V c main_v10_1) (funext fun a => Fin.ext ?_)
  match a with
  | ⟨0, _⟩ => show win1_0.index s (0 : Fin 4) * 1 + 1 * 0 = b.val; omega
  | ⟨1, _⟩ => show win1_0.index s (1 : Fin 4) * 16 + 1 * h.val = h.val; omega
  | ⟨2, _⟩ => show win1_0.index s (2 : Fin 4) * 1024 + 1 * l.val = 1024 * r.val + l.val; omega
  | ⟨3, _⟩ => show win1_0.index s (3 : Fin 4) * 64 + 1 * i.val = i.val; omega

/-- The value block at point `s = 4b + r`, at an index. -/
theorem iblk1_1_apply (c : Dev nD) (s : Fin cfg1.N) (b r : Fin 4) (hs : s.val = 4 * b.val + r.val) (h : Fin 16) (l : Fin 1024) (j : Fin 64) :
    (iblk1 V c 1 s : Vec Ideal S1x16x1024x64 .f32) (ix4 (0 : Fin 1) h l j) = V c main_v10_2 (ix4 b h (tile r l) j) := by
  obtain ⟨-, -, -, -, e0, e1, e2, e3, -⟩ := idx_facts1 s
  have hb := b.isLt; have hr := r.isLt
  show V c main_v10_2 (((cfg1.win 1).blk s).view.emb (ix4 (0 : Fin 1) h l j)) = V c main_v10_2 (ix4 b h (tile r l) j)
  refine congrArg (V c main_v10_2) (funext fun a => Fin.ext ?_)
  match a with
  | ⟨0, _⟩ => show win1_1.index s (0 : Fin 4) * 1 + 1 * 0 = b.val; omega
  | ⟨1, _⟩ => show win1_1.index s (1 : Fin 4) * 16 + 1 * h.val = h.val; omega
  | ⟨2, _⟩ => show win1_1.index s (2 : Fin 4) * 1024 + 1 * l.val = 1024 * r.val + l.val; omega
  | ⟨3, _⟩ => show win1_1.index s (3 : Fin 4) * 64 + 1 * j.val = j.val; omega

/-- Four accumulation steps from the zero fill, copied out, at an index: the four sums added in order to zero. -/
theorem row_apply (kb0 vb0 kb1 vb1 kb2 vb2 kb3 vb3 : Vec Ideal S1x16x1024x64 .f32) (h : Fin 16) (i j : Fin 64) :
    k1_pay3 (k1_pay2 kb3 vb3 (k1_pay2 kb2 vb2 (k1_pay2 kb1 vb1 (k1_pay2 kb0 vb0 (k1_pay1 (F := Ideal)))))) (ix4 (0 : Fin 1) h i j)
      = (((0 + ∑ l : Fin 1024, kb0 (ix4 (0 : Fin 1) h l i) * vb0 (ix4 (0 : Fin 1) h l j))
          + ∑ l : Fin 1024, kb1 (ix4 (0 : Fin 1) h l i) * vb1 (ix4 (0 : Fin 1) h l j))
          + ∑ l : Fin 1024, kb2 (ix4 (0 : Fin 1) h l i) * vb2 (ix4 (0 : Fin 1) h l j))
          + ∑ l : Fin 1024, kb3 (ix4 (0 : Fin 1) h l i) * vb3 (ix4 (0 : Fin 1) h l j) := by
  rw [k1_pay3_apply, k1_pay2_apply, k1_pay2_apply, k1_pay2_apply, k1_pay2_apply, k1_pay1_apply]

/-- The same with each block read identified with a tile of the whole key and value arrays: row `b` of `G1`. -/
theorem row_eq (kb0 vb0 kb1 vb1 kb2 vb2 kb3 vb3 : Vec Ideal S1x16x1024x64 .f32) (k v : S4x16x4096x64.Idx → EReal) (b : Fin 4)
    (k0 : ∀ (h : Fin 16) (l : Fin 1024) (i : Fin 64), kb0 (ix4 (0 : Fin 1) h l i) = k (ix4 b h (tile 0 l) i))
    (v0 : ∀ (h : Fin 16) (l : Fin 1024) (j : Fin 64), vb0 (ix4 (0 : Fin 1) h l j) = v (ix4 b h (tile 0 l) j))
    (k1 : ∀ (h : Fin 16) (l : Fin 1024) (i : Fin 64), kb1 (ix4 (0 : Fin 1) h l i) = k (ix4 b h (tile 1 l) i))
    (v1 : ∀ (h : Fin 16) (l : Fin 1024) (j : Fin 64), vb1 (ix4 (0 : Fin 1) h l j) = v (ix4 b h (tile 1 l) j))
    (k2 : ∀ (h : Fin 16) (l : Fin 1024) (i : Fin 64), kb2 (ix4 (0 : Fin 1) h l i) = k (ix4 b h (tile 2 l) i))
    (v2 : ∀ (h : Fin 16) (l : Fin 1024) (j : Fin 64), vb2 (ix4 (0 : Fin 1) h l j) = v (ix4 b h (tile 2 l) j))
    (k3 : ∀ (h : Fin 16) (l : Fin 1024) (i : Fin 64), kb3 (ix4 (0 : Fin 1) h l i) = k (ix4 b h (tile 3 l) i))
    (v3 : ∀ (h : Fin 16) (l : Fin 1024) (j : Fin 64), vb3 (ix4 (0 : Fin 1) h l j) = v (ix4 b h (tile 3 l) j))
    (h : Fin 16) (i j : Fin 64) :
    k1_pay3 (k1_pay2 kb3 vb3 (k1_pay2 kb2 vb2 (k1_pay2 kb1 vb1 (k1_pay2 kb0 vb0 (k1_pay1 (F := Ideal)))))) (ix4 (0 : Fin 1) h i j)
      = G1 k v (ix4 b h i j) := by
  rw [row_apply, G1_apply]
  unfold T1
  simp only [k0, v0, k1, v1, k2, v2, k3, v3]

/-- The state at the last point of a row, the row's four steps unrolled. -/
theorem scratch_row (c : Dev nD) (t : Fin cfg1.N) (h3 : t.val % 4 = 3)
    (p1 p2 p3 : Fin cfg1.N) (hp1 : p1.val = t.val - 1) (hp2 : p2.val = t.val - 1 - 1) (hp3 : p3.val = t.val - 1 - 1 - 1) :
    (outsAt1 V c t.val t.isLt).2
      = k1_pay2 (iblk1 V c 0 t) (iblk1 V c 1 t) (k1_pay2 (iblk1 V c 0 p1) (iblk1 V c 1 p1)
          (k1_pay2 (iblk1 V c 0 p2) (iblk1 V c 1 p2) (k1_pay2 (iblk1 V c 0 p3) (iblk1 V c 1 p3) (k1_pay1 (F := Ideal))))) := by
  obtain ⟨n1, hn1⟩ := p1; obtain ⟨n2, hn2⟩ := p2; obtain ⟨n3, hn3⟩ := p3
  dsimp only at hp1 hp2 hp3
  subst hp1 hp2 hp3
  have e3 := scratch1_BC V c t (by omega)
  have e2 := scratch1_BC V c ⟨t.val - 1, hn1⟩ (by show ¬(t.val - 1) % 4 = 0; omega)
  have e1 := scratch1_BC V c ⟨t.val - 1 - 1, hn2⟩ (by show ¬(t.val - 1 - 1) % 4 = 0; omega)
  have e0 := scratch1_A V c ⟨t.val - 1 - 1 - 1, hn3⟩ (by show (t.val - 1 - 1 - 1) % 4 = 0; omega)
  exact e3.trans (congrArg (k1_pay2 (iblk1 V c 0 t) (iblk1 V c 1 t))
    (e2.trans (congrArg (k1_pay2 (iblk1 V c 0 ⟨t.val - 1, hn1⟩) (iblk1 V c 1 ⟨t.val - 1, hn1⟩))
      (e1.trans (congrArg (k1_pay2 (iblk1 V c 0 ⟨t.val - 1 - 1, hn2⟩) (iblk1 V c 1 ⟨t.val - 1 - 1, hn2⟩)) e0)))))

/-- Where the output block's index sits in the output array at point `t` (row `t / 4`). -/
theorem emb1_2 (t : Fin cfg1.N) (b : Fin 4) (hb : b.val = t.val / 4) (h : Fin 16) (i j : Fin 64) :
    ((cfg1.win 2).blk t).view.emb (ix4 (0 : Fin 1) h i j) = ix4 b h i j := by
  obtain ⟨-, -, -, -, -, -, -, -, f0, f1, f2, f3⟩ := idx_facts1 t
  refine funext fun a => Fin.ext ?_
  match a with
  | ⟨0, _⟩ => show win1_2.index t (0 : Fin 4) * 1 + 1 * 0 = b.val; omega
  | ⟨1, _⟩ => show win1_2.index t (1 : Fin 4) * 16 + 1 * h.val = h.val; omega
  | ⟨2, _⟩ => show win1_2.index t (2 : Fin 4) * 64 + 1 * i.val = i.val; omega
  | ⟨3, _⟩ => show win1_2.index t (3 : Fin 4) * 64 + 1 * j.val = j.val; omega

/-- WHAT A FLUSHING POINT WRITES BACK is its block of `G1` of the key and value arrays as the region finds them. -/
theorem flushed1_eq (c : Dev nD) (t : Fin cfg1.N) (hf : (cfg1.win 2).flush t = true) :
    (dat1 V c).flushed 2 t = ((cfg1.win 2).blk t).view.read (Elt Ideal) (G1 (V c main_v10_1) (V c main_v10_2)) := by
  have h3 : t.val % 4 = 3 := (flush1_2 t).mp hf
  have hN : t.val < 16 := lt_of_lt_of_eq t.isLt (show cfg1.N = 16 from N_1)
  have hlt : ∀ n, n ≤ t.val → n < cfg1.N := fun n hn => lt_of_le_of_lt hn t.isLt
  let p1 : Fin cfg1.N := ⟨t.val - 1, hlt _ (by omega)⟩
  let p2 : Fin cfg1.N := ⟨t.val - 1 - 1, hlt _ (by omega)⟩
  let p3 : Fin cfg1.N := ⟨t.val - 1 - 1 - 1, hlt _ (by omega)⟩
  let b : Fin 4 := ⟨t.val / 4, by omega⟩
  show (cfg1.win 2).cut (grid1.coords t) ((dat1 V c).after 2 t) = _
  rw [after1_2, output1_C V c t h3, scratch_row V c t h3 p1 p2 p3 rfl rfl rfl]
  refine funext fun (y : S1x16x64x64.Idx) => ?_
  obtain ⟨h, i, j, rfl⟩ : ∃ (h : Fin 16) (i j : Fin 64), y = ix4 (0 : Fin 1) h i j :=
    ⟨y 1, y 2, y 3, funext fun a => by
      match a with
      | ⟨0, _⟩ => exact Fin.ext (Nat.lt_one_iff.mp (y ⟨0, _⟩).isLt)
      | ⟨1, _⟩ => rfl
      | ⟨2, _⟩ => rfl
      | ⟨3, _⟩ => rfl⟩
  show k1_pay3 (k1_pay2 (iblk1 V c 0 t) (iblk1 V c 1 t) (k1_pay2 (iblk1 V c 0 p1) (iblk1 V c 1 p1)
          (k1_pay2 (iblk1 V c 0 p2) (iblk1 V c 1 p2) (k1_pay2 (iblk1 V c 0 p3) (iblk1 V c 1 p3) (k1_pay1 (F := Ideal)))))) (ix4 (0 : Fin 1) h i j)
      = G1 (V c main_v10_1) (V c main_v10_2) (((cfg1.win 2).blk t).view.emb (ix4 (0 : Fin 1) h i j))
  rw [emb1_2 t b rfl h i j]
  exact row_eq (iblk1 V c 0 p3) (iblk1 V c 1 p3) (iblk1 V c 0 p2) (iblk1 V c 1 p2) (iblk1 V c 0 p1) (iblk1 V c 1 p1)
    (iblk1 V c 0 t) (iblk1 V c 1 t) (V c main_v10_1) (V c main_v10_2) b
    (fun h l i => iblk1_0_apply V c p3 b 0 (by show t.val - 1 - 1 - 1 = 4 * (t.val / 4) + 0; omega) h l i)
    (fun h l j => iblk1_1_apply V c p3 b 0 (by show t.val - 1 - 1 - 1 = 4 * (t.val / 4) + 0; omega) h l j)
    (fun h l i => iblk1_0_apply V c p2 b 1 (by show t.val - 1 - 1 = 4 * (t.val / 4) + 1; omega) h l i)
    (fun h l j => iblk1_1_apply V c p2 b 1 (by show t.val - 1 - 1 = 4 * (t.val / 4) + 1; omega) h l j)
    (fun h l i => iblk1_0_apply V c p1 b 2 (by show t.val - 1 = 4 * (t.val / 4) + 2; omega) h l i)
    (fun h l j => iblk1_1_apply V c p1 b 2 (by show t.val - 1 = 4 * (t.val / 4) + 2; omega) h l j)
    (fun h l i => iblk1_0_apply V c t b 3 (by show t.val = 4 * (t.val / 4) + 3; omega) h l i)
    (fun h l j => iblk1_1_apply V c t b 3 (by show t.val = 4 * (t.val / 4) + 3; omega) h l j)
    h i j

/-- An index of the output array is in point `t`'s block iff each coordinate is in the block's range on its axis. -/
theorem mem_blk1 (t : Fin cfg1.N) (i : S4x16x64x64.Idx) :
    i ∈ ((cfg1.win 2).blk t).view.set ↔ ∀ a : Fin 4, win1_2.index t a * S1x16x64x64.size a ≤ (i a).val ∧ (i a).val < win1_2.index t a * S1x16x64x64.size a + S1x16x64x64.size a := by
  show i ∈ ((View.whole main_v11).slice (win1_2.rect t)).set ↔ _
  rw [View.set_slice_whole, Rect.mem_set_unit]
  exact Iff.rfl

/-- Every index of the output array is in the block of the last point of its row, which writes back. -/
theorem cover1 (i : S4x16x64x64.Idx) :
    ∃ t : Fin cfg1.N, (cfg1.win 2).flush t = true ∧ i ∈ ((cfg1.win 2).blk t).view.set := by
  have hi0 : (i 0).val < 4 := (i 0).isLt
  have hi1 : (i 1).val < 16 := (i 1).isLt
  have hi2 : (i 2).val < 64 := (i 2).isLt
  have hi3 : (i 3).val < 64 := (i 3).isLt
  have hlt : 4 * (i 0).val + 3 < cfg1.N := lt_of_lt_of_eq (show 4 * (i 0).val + 3 < 16 by omega) (show (16 : ℕ) = cfg1.N from N_1.symm)
  refine ⟨⟨4 * (i 0).val + 3, hlt⟩, (flush1_2 _).mpr (by show (4 * (i 0).val + 3) % 4 = 3; omega), ?_⟩
  rw [mem_blk1]
  obtain ⟨-, -, -, -, -, -, -, -, f0, f1, f2, f3⟩ := idx_facts1 ⟨4 * (i 0).val + 3, hlt⟩
  have f0' : win1_2.index ⟨4 * (i 0).val + 3, hlt⟩ (0 : Fin 4) = (4 * (i 0).val + 3) / 4 := f0
  intro a
  match a with
  | ⟨0, _⟩ => show win1_2.index ⟨4 * (i 0).val + 3, hlt⟩ (0 : Fin 4) * 1 ≤ (i 0).val ∧ (i 0).val < win1_2.index ⟨4 * (i 0).val + 3, hlt⟩ (0 : Fin 4) * 1 + 1; omega
  | ⟨1, _⟩ => show win1_2.index ⟨4 * (i 0).val + 3, hlt⟩ (1 : Fin 4) * 16 ≤ (i 1).val ∧ (i 1).val < win1_2.index ⟨4 * (i 0).val + 3, hlt⟩ (1 : Fin 4) * 16 + 16; omega
  | ⟨2, _⟩ => show win1_2.index ⟨4 * (i 0).val + 3, hlt⟩ (2 : Fin 4) * 64 ≤ (i 2).val ∧ (i 2).val < win1_2.index ⟨4 * (i 0).val + 3, hlt⟩ (2 : Fin 4) * 64 + 64; omega
  | ⟨3, _⟩ => show win1_2.index ⟨4 * (i 0).val + 3, hlt⟩ (3 : Fin 4) * 64 ≤ (i 3).val ∧ (i 3).val < win1_2.index ⟨4 * (i 0).val + 3, hlt⟩ (3 : Fin 4) * 64 + 64; omega

/-- THE OUTPUT ARRAY after the region: `G1` of the key and value arrays as the region finds them. -/
theorem final1 (c : Dev nD) : (dat1 V c).arrAt 2 cfg1.N = G1 (V c main_v10_1) (V c main_v10_2) :=
  (dat1 V c).arrAt_eq_of_cover 2 (G1 (V c main_v10_1) (V c main_v10_2)) (fun t hf => flushed1_eq V c t hf) cover1

end Cert.KernelIdeal.Val

end
-- ==== Proof.Val.Pay2.lean ====
/-
  Region 2's payload read at an index, at the ideal values (extended reals). Per head `h` and row `l`:
  `o = q · S` (a 64-term sum against the head's 64 × 64 state; rounding to bf16 is the identity on extended reals),
  the row norm `sqrt (∑ⱼ (o · c)²)` of the scaled row, `g = o / max(norm, eps) · u`; then the heads are merged
  (entry `d` of the 1024 is lane `d % 64` of head `d / 64`) and the result is multiplied by the output weight:
  the sum over the 1024 merged entries of `g · wo`.
-/
import proofs.«160171_j67336497267250_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Idealize.SL.Sem

/-! ## The two dots -/

/-- The batched dot `q · S`: `[16, 512, 64] × [16, 64, 64]`, batch axis 0, contraction of lhs axis 2 with rhs axis 1. -/
abbrev dotQS := dot_S16x512x64_S16x64x64_S16x512x64_2_1_1_2_0_0

theorem dotQS_lhs_0 (o : S16x512x64.Idx) (q : dotQS.contr.Idx) : (dotQS.lhsIdx o q 0).val = (o 0).val := by
  unfold DotDims.lhsIdx
  rw [dif_pos (show (0 : Fin S16x512x64.rank) ∈ dotQS.lhsBatch by decide)]
  rfl
theorem dotQS_lhs_1 (o : S16x512x64.Idx) (q : dotQS.contr.Idx) : (dotQS.lhsIdx o q 1).val = (o 1).val := by
  unfold DotDims.lhsIdx
  rw [dif_neg (show ¬(1 : Fin S16x512x64.rank) ∈ dotQS.lhsBatch by decide),
    dif_pos (show (1 : Fin S16x512x64.rank) ∈ dotQS.lhsNonContracting by decide)]
  rfl
theorem dotQS_lhs_2 (o : S16x512x64.Idx) (q : dotQS.contr.Idx) : (dotQS.lhsIdx o q 2).val = (q ⟨0, by decide⟩).val :=
  dotQS.lhsIdx_val_of_single rfl o q
theorem dotQS_rhs_0 (o : S16x512x64.Idx) (q : dotQS.contr.Idx) : (dotQS.rhsIdx o q 0).val = (o 0).val := by
  unfold DotDims.rhsIdx
  rw [dif_pos (show (0 : Fin S16x64x64.rank) ∈ dotQS.rhsBatch by decide)]
  rfl
theorem dotQS_rhs_1 (o : S16x512x64.Idx) (q : dotQS.contr.Idx) : (dotQS.rhsIdx o q 1).val = (q ⟨0, by decide⟩).val :=
  dotQS.rhsIdx_val_of_single rfl o q
theorem dotQS_rhs_2 (o : S16x512x64.Idx) (q : dotQS.contr.Idx) : (dotQS.rhsIdx o q 2).val = (o 2).val := by
  unfold DotDims.rhsIdx
  rw [dif_neg (show ¬(2 : Fin S16x64x64.rank) ∈ dotQS.rhsBatch by decide),
    dif_pos (show (2 : Fin S16x64x64.rank) ∈ dotQS.rhsNonContracting by decide)]
  rfl

/-- `q · S` into the zero accumulator at head `h`, row `l`, lane `j`: the sum over the 64 contracted lanes. -/
theorem dotQS_apply (a : FVec Ideal S16x512x64 .bf16) (b : FVec Ideal S16x64x64 .bf16) (h : Fin 16) (l : Fin 512) (j : Fin 64) :
    matmul dotQS none a b (constant (F := Ideal) S16x512x64 .f32 0x00000000#32) (ix3 h l j)
      = ∑ i : Fin 64, a (ix3 h l i) * b (ix3 h i j) := by
  refine (Ideal.matmul_constant_zero_apply dotQS none a b (ix3 h l j)).trans ?_
  rw [← Equiv.sum_comp (contrEquiv1 dotQS 64 rfl rfl).symm]
  refine Finset.sum_congr rfl fun i _ => ?_
  have hk := contrEquiv1_symm_val dotQS 64 rfl rfl i
  have el : dotQS.lhsIdx (ix3 h l j) ((contrEquiv1 dotQS 64 rfl rfl).symm i) = ix3 h l i := funext fun a => Fin.ext (by
    match a with
    | ⟨0, _⟩ => exact dotQS_lhs_0 _ _
    | ⟨1, _⟩ => exact dotQS_lhs_1 _ _
    | ⟨2, _⟩ => exact (dotQS_lhs_2 _ _).trans hk)
  have er : dotQS.rhsIdx (ix3 h l j) ((contrEquiv1 dotQS 64 rfl rfl).symm i) = ix3 h i j := funext fun a => Fin.ext (by
    match a with
    | ⟨0, _⟩ => exact dotQS_rhs_0 _ _
    | ⟨1, _⟩ => exact (dotQS_rhs_1 _ _).trans hk
    | ⟨2, _⟩ => exact dotQS_rhs_2 _ _)
  rw [el, er]

/-- The plain dot by the output weight: `[512, 1024] × [1024, 1024]`, contraction over the shared 1024 axis. -/
abbrev dotOW := dot_S512x1024_S1024x1024_S512x1024_1_0_0_1_n_n

theorem dotOW_lhs_0 (o : S512x1024.Idx) (q : dotOW.contr.Idx) : (dotOW.lhsIdx o q 0).val = (o 0).val := by
  unfold DotDims.lhsIdx
  rw [dif_neg (show ¬(0 : Fin S512x1024.rank) ∈ dotOW.lhsBatch by decide),
    dif_pos (show (0 : Fin S512x1024.rank) ∈ dotOW.lhsNonContracting by decide)]
  rfl
theorem dotOW_lhs_1 (o : S512x1024.Idx) (q : dotOW.contr.Idx) : (dotOW.lhsIdx o q 1).val = (q ⟨0, by decide⟩).val :=
  dotOW.lhsIdx_val_of_single rfl o q
theorem dotOW_rhs_0 (o : S512x1024.Idx) (q : dotOW.contr.Idx) : (dotOW.rhsIdx o q 0).val = (q ⟨0, by decide⟩).val :=
  dotOW.rhsIdx_val_of_single rfl o q
theorem dotOW_rhs_1 (o : S512x1024.Idx) (q : dotOW.contr.Idx) : (dotOW.rhsIdx o q 1).val = (o 1).val := by
  unfold DotDims.rhsIdx
  rw [dif_neg (show ¬(1 : Fin S1024x1024.rank) ∈ dotOW.rhsBatch by decide),
    dif_pos (show (1 : Fin S1024x1024.rank) ∈ dotOW.rhsNonContracting by decide)]
  rfl

/-- The product by the output weight into the zero accumulator at `(l, n)`: the sum over the shared axis. -/
theorem dotOW_apply (a : FVec Ideal S512x1024 .bf16) (b : FVec Ideal S1024x1024 .bf16) (l : Fin 512) (n : Fin 1024) :
    matmul dotOW none a b (constant (F := Ideal) S512x1024 .f32 0x00000000#32) (ix2 l n)
      = ∑ d : Fin 1024, a (ix2 l d) * b (ix2 d n) := by
  refine (Ideal.matmul_constant_zero_apply dotOW none a b (ix2 l n)).trans ?_
  rw [← Equiv.sum_comp (contrEquiv1 dotOW 1024 rfl rfl).symm]
  refine Finset.sum_congr rfl fun d _ => ?_
  have hk := contrEquiv1_symm_val dotOW 1024 rfl rfl d
  have el : dotOW.lhsIdx (ix2 l n) ((contrEquiv1 dotOW 1024 rfl rfl).symm d) = ix2 l d := funext fun a => Fin.ext (by
    match a with
    | ⟨0, _⟩ => exact dotOW_lhs_0 _ _
    | ⟨1, _⟩ => exact (dotOW_lhs_1 _ _).trans hk)
  have er : dotOW.rhsIdx (ix2 l n) ((contrEquiv1 dotOW 1024 rfl rfl).symm d) = ix2 d n := funext fun a => Fin.ext (by
    match a with
    | ⟨0, _⟩ => exact (dotOW_rhs_0 _ _).trans hk
    | ⟨1, _⟩ => exact dotOW_rhs_1 _ _)
  rw [el, er]

/-! ## Layout operations at an index given by coordinates -/

/-- An `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of row `(i, j)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A stack of matrices with its first two axes swapped (permutation `[1, 0, 2]`) reads, at `(i, k, j)`, the operand at
    `(k, i, j)`. -/
theorem transpose_ix3_102_apply {α : Type} {m a b : ℕ} (x : (⟨3, ![m, a, b]⟩ : Shape).Idx → α)
    (h : (⟨3, ![m, a, b]⟩ : Shape).Transposes [1, 0, 2] ⟨3, ![a, m, b]⟩) (i : Fin a) (k : Fin m) (j : Fin b) :
    transpose ⟨3, ![a, m, b]⟩ [1, 0, 2] x h (ix3 i k j) = x (ix3 k i j) :=
  transpose_apply _ x h _ _ fun c => match c with | ⟨0, _⟩ => rfl | ⟨1, _⟩ => rfl | ⟨2, _⟩ => rfl

/-- The head of merged entry `d` of the 1024. -/
abbrev headOf (d : Fin 1024) : Fin 16 := ⟨d.val / 64, by omega⟩
/-- The lane, within its head, of merged entry `d` of the 1024. -/
abbrev laneOf (d : Fin 1024) : Fin 64 := ⟨d.val % 64, by omega⟩

/-- The heads merged: `[512, 16, 64]` viewed `[512, 1024]` reads, at `(l, d)`, the operand at `(l, d / 64, d % 64)`. -/
theorem mergeHeads_apply {α : Type} (v : S512x16x64.Idx → α) (l : Fin 512) (d : Fin 1024) :
    shapeCast S512x1024 v shapeCasts_S512x16x64_S512x1024 (ix2 l d) = v (ix3 l (headOf d) (laneOf d)) :=
  shapeCast_apply v shapeCasts_S512x16x64_S512x1024 (ix2 l d) (ix3 l (headOf d) (laneOf d)) (by
    rw [Shape.rowMajor_val_three, Shape.rowMajor_val_two]
    show (l.val * 16 + d.val / 64) * 64 + d.val % 64 = l.val * 1024 + d.val
    omega)

/-- The sum over the lanes of a `[16, 512, 64]` vector, at head `h`, row `l`. -/
theorem laneSum_apply (src : FVec Ideal S16x512x64 .f32) (h : Fin 16) (l : Fin 512) :
    multiReduction (F := Ideal) .add [2] S16x512 src 0x00000000#32 reduces_S16x512x64_S16x512 (.inl rfl) rfl (ix2 h l)
      = ∑ k : Fin 64, src (ix3 h l k) := by
  refine (Ideal.multiReduction_add_single src 0x00000000#32 reduces_S16x512x64_S16x512 (.inl rfl) rfl (ix2 h l)).trans ?_
  refine Finset.sum_congr rfl fun k _ => congrArg src (funext fun a => Fin.ext (by
    match a with
    | ⟨0, _⟩ => rfl
    | ⟨1, _⟩ => rfl
    | ⟨2, _⟩ => rfl))

/-! ## The payload, cut in three stages -/

/-- Stage 1, as the payload spells it: `q · S` per head, of the blocks with their unit axis dropped. -/
def k2_oVec (v0 : Vec Ideal S1x16x512x64 .f32) (v4 : Vec Ideal S1x16x64x64 .f32) : FVec Ideal S16x512x64 .f32 :=
  have v1 : FVec Ideal S16x512x64 .f32 := shapeCast S16x512x64 v0 shapeCasts_S1x16x512x64_S16x512x64
  have v5 : FVec Ideal S16x64x64 .f32 := shapeCast S16x64x64 v4 shapeCasts_S1x16x64x64_S16x64x64
  have v6 : FVec Ideal S16x512x64 .bf16 := truncf .bf16 v1 bitsLt_bf16_f32
  have v7 : FVec Ideal S16x64x64 .bf16 := truncf .bf16 v5 bitsLt_bf16_f32
  have cst : FVec Ideal S16x512x64 .f32 := constant S16x512x64 .f32 0x00000000#32
  have v8 : FVec Ideal S16x512x64 .f32 := matmul dotQS none v6 v7 cst
  v8

/-- Stage 2, as the payload spells it: each row of `v8` divided by the larger of its scaled norm and `eps`, times `v3`. -/
def k2_gVec (v8 v3 : FVec Ideal S16x512x64 .f32) : FVec Ideal S16x512x64 .f32 :=
  have cst_11 : Ideal .f32 := Scalar.ofBits .f32 0x3E000000#32
  have v9 : FVec Ideal S16x512x64 .f32 := broadcast S16x512x64 cst_11
  have v10 : FVec Ideal S16x512x64 .f32 := mulf v8 v9
  have v11 : FVec Ideal S16x512x64 .f32 := mulf v10 v10
  have v12 : FVec Ideal S16x512 .f32 := multiReduction .add [2] S16x512 v11 0x00000000#32 reduces_S16x512x64_S16x512 (.inl rfl) rfl
  have v13 : FVec Ideal S16x512x1 .f32 := shapeCast S16x512x1 v12 shapeCasts_S16x512_S16x512x1
  have v14 : FVec Ideal S16x512x1 .f32 := sqrt v13
  have cst_13 : Ideal .f32 := Scalar.ofBits .f32 0x2B8CBCCC#32
  have v15 : FVec Ideal S16x512x1 .f32 := broadcast S16x512x1 cst_13
  have v16 : FVec Ideal S16x512x1 .f32 := maximumf v14 v15
  have v17 : FVec Ideal S16x512x64 .f32 := broadcastTo S16x512x64 v16 broadcasts_S16x512x1_S16x512x64
  have v18 : FVec Ideal S16x512x64 .f32 := divf v8 v17
  have v19 : FVec Ideal S16x512x64 .f32 := mulf v18 v3
  v19

/-- The payload is: stage 1, stage 2 against the gate block, the heads merged, and the product by the output weight. -/
theorem k2_pay1_eq (v0 v2 : Vec Ideal S1x16x512x64 .f32) (v4 : Vec Ideal S1x16x64x64 .f32) (v23 : Vec Ideal S1024x1024 .bf16) :
    k2_pay1 v0 v2 v4 v23 =
      (have v3 : FVec Ideal S16x512x64 .f32 := shapeCast S16x512x64 v2 shapeCasts_S1x16x512x64_S16x512x64
       have v19 : FVec Ideal S16x512x64 .f32 := k2_gVec (k2_oVec v0 v4) v3
       have v20 : FVec Ideal S512x16x64 .f32 := transpose S512x16x64 [1, 0, 2] v19 transposes_S16x512x64_p1_0_2_S512x16x64
       have v21 : FVec Ideal S512x1024 .f32 := shapeCast S512x1024 v20 shapeCasts_S512x16x64_S512x1024
       have v22 : FVec Ideal S512x1024 .bf16 := truncf .bf16 v21 bitsLt_bf16_f32
       have v24 : FVec Ideal S1024x1024 .bf16 := shapeCast S1024x1024 v23 shapeCasts_S1024x1024_S1024x1024
       have cst_16 : FVec Ideal S512x1024 .f32 := constant S512x1024 .f32 0x00000000#32
       have v25 : FVec Ideal S512x1024 .f32 := matmul dotOW none v22 v24 cst_16
       have v28 : FVec Ideal S1x512x1024 .f32 := shapeCast S1x512x1024 v25 shapeCasts_S512x1024_S1x512x1024
       v28) := by
  unfold k2_pay1 k2_gVec k2_oVec
  rfl

/-! ## The three stages at an index -/

/-- `o = q · S` at head `h`, row `l`, lane `j`. -/
def o2 (qb : Vec Ideal S1x16x512x64 .f32) (kvb : Vec Ideal S1x16x64x64 .f32) (h : Fin 16) (l : Fin 512) (j : Fin 64) : EReal :=
  ∑ i : Fin 64, qb (ix4 (0 : Fin 1) h l i) * kvb (ix4 (0 : Fin 1) h i j)

/-- The norm of row `(h, l)` of `o` scaled by the constant word. -/
def nrm2 (qb : Vec Ideal S1x16x512x64 .f32) (kvb : Vec Ideal S1x16x64x64 .f32) (h : Fin 16) (l : Fin 512) : EReal :=
  Ideal.sqrt (∑ j : Fin 64, (o2 qb kvb h l j * Ideal.ofBits .f32 0x3E000000#32) * (o2 qb kvb h l j * Ideal.ofBits .f32 0x3E000000#32))

/-- The normalised, gated row entry: `o / max(norm, eps) · u`. -/
def g2 (qb ub : Vec Ideal S1x16x512x64 .f32) (kvb : Vec Ideal S1x16x64x64 .f32) (h : Fin 16) (l : Fin 512) (j : Fin 64) : EReal :=
  Ideal.div (o2 qb kvb h l j) (max (nrm2 qb kvb h l) (Ideal.ofBits .f32 0x2B8CBCCC#32)) * ub (ix4 (0 : Fin 1) h l j)

theorem o2_def (qb : Vec Ideal S1x16x512x64 .f32) (kvb : Vec Ideal S1x16x64x64 .f32) (h : Fin 16) (l : Fin 512) (j : Fin 64) :
    o2 qb kvb h l j = ∑ i : Fin 64, qb (ix4 (0 : Fin 1) h l i) * kvb (ix4 (0 : Fin 1) h i j) := rfl
theorem nrm2_def (qb : Vec Ideal S1x16x512x64 .f32) (kvb : Vec Ideal S1x16x64x64 .f32) (h : Fin 16) (l : Fin 512) :
    nrm2 qb kvb h l = Ideal.sqrt (∑ j : Fin 64, (o2 qb kvb h l j * Ideal.ofBits .f32 0x3E000000#32) * (o2 qb kvb h l j * Ideal.ofBits .f32 0x3E000000#32)) := rfl
theorem g2_def (qb ub : Vec Ideal S1x16x512x64 .f32) (kvb : Vec Ideal S1x16x64x64 .f32) (h : Fin 16) (l : Fin 512) (j : Fin 64) :
    g2 qb ub kvb h l j = Ideal.div (o2 qb kvb h l j) (max (nrm2 qb kvb h l) (Ideal.ofBits .f32 0x2B8CBCCC#32)) * ub (ix4 (0 : Fin 1) h l j) := rfl

/-- Stage 1 at an index. -/
theorem k2_oVec_apply (qb : Vec Ideal S1x16x512x64 .f32) (kvb : Vec Ideal S1x16x64x64 .f32) (h : Fin 16) (l : Fin 512) (j : Fin 64) :
    k2_oVec qb kvb (ix3 h l j) = o2 qb kvb h l j := by
  unfold k2_oVec o2
  refine (dotQS_apply _ _ h l j).trans ?_
  refine Finset.sum_congr rfl fun i _ => ?_
  rw [truncf_apply, truncf_apply, shapeCast_1abc_abc_apply, shapeCast_1abc_abc_apply]

/-- Stage 2 at an index, for any `o` and gate `u`. -/
theorem k2_gVec_apply (o u : FVec Ideal S16x512x64 .f32) (h : Fin 16) (l : Fin 512) (j : Fin 64) :
    k2_gVec o u (ix3 h l j)
      = Ideal.div (o (ix3 h l j))
          (max (Ideal.sqrt (∑ k : Fin 64, (o (ix3 h l k) * Ideal.ofBits .f32 0x3E000000#32) * (o (ix3 h l k) * Ideal.ofBits .f32 0x3E000000#32)))
            (Ideal.ofBits .f32 0x2B8CBCCC#32)) * u (ix3 h l j) := by
  unfold k2_gVec
  refine (mulf_apply _ _ _).trans ?_
  refine congrArg (· * u (ix3 h l j)) ?_
  refine (divf_apply _ _ _).trans ?_
  refine congrArg (Ideal.div (o (ix3 h l j))) ?_
  refine (broadcastTo_ab1_abc_apply _ broadcasts_S16x512x1_S16x512x64 h l j).trans ?_
  refine (maximumf_apply _ _ _).trans ?_
  refine congrArg (fun p : EReal => max p (Ideal.ofBits .f32 0x2B8CBCCC#32)) ?_
  refine congrArg Ideal.sqrt ?_
  refine (shapeCast_ab_ab1_apply _ shapeCasts_S16x512_S16x512x1 h l (0 : Fin 1)).trans ?_
  exact laneSum_apply _ h l

/-- The payload at row `l`, output column `n`: the sum over the 1024 merged entries of `g · wo`. -/
theorem k2_pay1_apply (qb ub : Vec Ideal S1x16x512x64 .f32) (kvb : Vec Ideal S1x16x64x64 .f32) (wo : Vec Ideal S1024x1024 .bf16)
    (l : Fin 512) (n : Fin 1024) :
    k2_pay1 qb ub kvb wo (ix3 (0 : Fin 1) l n) = ∑ d : Fin 1024, g2 qb ub kvb (headOf d) l (laneOf d) * wo (ix2 d n) := by
  rw [k2_pay1_eq]
  refine (shapeCast_ab_1ab_apply _ shapeCasts_S512x1024_S1x512x1024 (0 : Fin 1) l n).trans ?_
  refine (dotOW_apply _ _ l n).trans ?_
  refine Finset.sum_congr rfl fun d _ => ?_
  refine congrArg₂ (· * ·) ?_ (congrFun (shapeCast_self wo _) _)
  refine (truncf_apply (φ := .f32) (ψ := .bf16) _ bitsLt_bf16_f32 (ix2 l d)).trans ?_
  refine (mergeHeads_apply _ l d).trans ?_
  refine (transpose_ix3_102_apply _ transposes_S16x512x64_p1_0_2_S512x16x64 l (headOf d) (laneOf d)).trans ?_
  refine (k2_gVec_apply _ _ (headOf d) l (laneOf d)).trans ?_
  unfold g2 nrm2
  rw [shapeCast_1abc_abc_apply]
  simp only [k2_oVec_apply]

end Cert.KernelIdeal.Val

end
-- ==== Proof.Val.Arr2.lean ====
/-
  Region 2's output array after the region, as a function of the arrays it reads. Grid point `t = 8 b + r` reads row
  block `r` (512 rows) of batch `b` of the query and gate arrays, batch `b` of the state and the whole output weight,
  and writes back row block `r` of batch `b` of the output. What it writes is the block of ONE whole-array function
  (the normalised, gated `q · S` with its heads merged, times the output weight), and the blocks tile the array, so the
  array ends holding that function.
-/
import proofs.«160171_j67336497267250_2_alg».proof.Proof.KI.Reg2
import proofs.«160171_j67336497267250_2_alg».proof.Proof.Val.Pay2
import proofs.«160171_j67336497267250_2_alg».proof.Proof.Val.Spec
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

-- the TensorCore's buffer contents when the region is entered: a parameter
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The index maps, decided over the grid -/

/-- Point `t = 8 b + r` reads row block `r` of batch `b` of the query array, all heads, -/
theorem idx_facts2_0 : ∀ t : Fin cfg2.N,
    win2_0.index t (0 : Fin 4) = t.val / 8 ∧ win2_0.index t (1 : Fin 4) = 0 ∧ win2_0.index t (2 : Fin 4) = t.val % 8 ∧ win2_0.index t (3 : Fin 4) = 0 :=
  (by decide +kernel : ∀ t : Fin grid2.N, _)
/-- the same block of the gate array, -/
theorem idx_facts2_1 : ∀ t : Fin cfg2.N,
    win2_1.index t (0 : Fin 4) = t.val / 8 ∧ win2_1.index t (1 : Fin 4) = 0 ∧ win2_1.index t (2 : Fin 4) = t.val % 8 ∧ win2_1.index t (3 : Fin 4) = 0 :=
  (by decide +kernel : ∀ t : Fin grid2.N, _)
/-- batch `b` of the state, -/
theorem idx_facts2_2 : ∀ t : Fin cfg2.N,
    win2_2.index t (0 : Fin 4) = t.val / 8 ∧ win2_2.index t (1 : Fin 4) = 0 ∧ win2_2.index t (2 : Fin 4) = 0 ∧ win2_2.index t (3 : Fin 4) = 0 :=
  (by decide +kernel : ∀ t : Fin grid2.N, _)
/-- the whole output weight, -/
theorem idx_facts2_3 : ∀ t : Fin cfg2.N, win2_3.index t (0 : Fin 2) = 0 ∧ win2_3.index t (1 : Fin 2) = 0 :=
  (by decide +kernel : ∀ t : Fin grid2.N, _)
/-- and writes row block `r` of batch `b` of the output. -/
theorem idx_facts2_4 : ∀ t : Fin cfg2.N,
    win2_4.index t (0 : Fin 3) = t.val / 8 ∧ win2_4.index t (1 : Fin 3) = t.val % 8 ∧ win2_4.index t (2 : Fin 3) = 0 :=
  (by decide +kernel : ∀ t : Fin grid2.N, _)

/-! ## The input blocks, read off the arrays -/

/-- Row `l` of row block `r` (512 rows), as a row of the array. -/
abbrev rowOf2 (r : Fin 8) (l : Fin 512) : Fin 4096 := ⟨512 * r.val + l.val, by have h1 := r.isLt; have h2 := l.isLt; omega⟩

/-- Row block `r` of batch `b` of a `[4, 16, 4096, 64]` array, all heads. -/
def qblk (q : S4x16x4096x64.Idx → EReal) (b : Fin 4) (r : Fin 8) : Vec Ideal S1x16x512x64 .f32 :=
  fun y => q (ix4 b (⟨(y 1).val, (y 1).isLt⟩ : Fin 16) (rowOf2 r ⟨(y 2).val, (y 2).isLt⟩) (⟨(y 3).val, (y 3).isLt⟩ : Fin 64))

/-- Batch `b` of the `[4, 16, 64, 64]` state. -/
def sblk (kv : S4x16x64x64.Idx → EReal) (b : Fin 4) : Vec Ideal S1x16x64x64 .f32 :=
  fun y => kv (ix4 b (⟨(y 1).val, (y 1).isLt⟩ : Fin 16) (⟨(y 2).val, (y 2).isLt⟩ : Fin 64) (⟨(y 3).val, (y 3).isLt⟩ : Fin 64))

/-- Window 0's block at point `8 b + r` is that row block of the query array the region finds. -/
theorem iblk2_0_eq (c : Dev nD) (t : Fin cfg2.N) (b : Fin 4) (r : Fin 8) (hb : b.val = t.val / 8) (hr : r.val = t.val % 8) :
    iblk2 V c 0 t = qblk (V c main_v10_0) b r := by
  obtain ⟨e0, e1, e2, e3⟩ := idx_facts2_0 t
  funext y
  unfold iblk2 qblk
  rw [View.read_apply]
  show V c main_v10_0 _ = V c main_v10_0 _
  congr 1
  funext a
  apply Fin.ext
  match a with
  | ⟨0, _⟩ => show win2_0.index t (0 : Fin 4) * 1 + 1 * (y 0).val = b.val; have h : (y 0).val < 1 := (y 0).isLt; rw [e0, hb]; omega
  | ⟨1, _⟩ => show win2_0.index t (1 : Fin 4) * 16 + 1 * (y 1).val = (y 1).val; rw [e1]; omega
  | ⟨2, _⟩ => show win2_0.index t (2 : Fin 4) * 512 + 1 * (y 2).val = 512 * r.val + (y 2).val; rw [e2, hr]; omega
  | ⟨3, _⟩ => show win2_0.index t (3 : Fin 4) * 64 + 1 * (y 3).val = (y 3).val; rw [e3]; omega

/-- Window 1's block at point `8 b + r` is that row block of the gate array the region finds. -/
theorem iblk2_1_eq (c : Dev nD) (t : Fin cfg2.N) (b : Fin 4) (r : Fin 8) (hb : b.val = t.val / 8) (hr : r.val = t.val % 8) :
    iblk2 V c 1 t = qblk (V c main_v10_3) b r := by
  obtain ⟨e0, e1, e2, e3⟩ := idx_facts2_1 t
  funext y
  unfold iblk2 qblk
  rw [View.read_apply]
  show V c main_v10_3 _ = V c main_v10_3 _
  congr 1
  funext a
  apply Fin.ext
  match a with
  | ⟨0, _⟩ => show win2_1.index t (0 : Fin 4) * 1 + 1 * (y 0).val = b.val; have h : (y 0).val < 1 := (y 0).isLt; rw [e0, hb]; omega
  | ⟨1, _⟩ => show win2_1.index t (1 : Fin 4) * 16 + 1 * (y 1).val = (y 1).val; rw [e1]; omega
  | ⟨2, _⟩ => show win2_1.index t (2 : Fin 4) * 512 + 1 * (y 2).val = 512 * r.val + (y 2).val; rw [e2, hr]; omega
  | ⟨3, _⟩ => show win2_1.index t (3 : Fin 4) * 64 + 1 * (y 3).val = (y 3).val; rw [e3]; omega

/-- Window 2's block at point `8 b + r` is batch `b` of the state the region finds. -/
theorem iblk2_2_eq (c : Dev nD) (t : Fin cfg2.N) (b : Fin 4) (hb : b.val = t.val / 8) :
    iblk2 V c 2 t = sblk (V c main_v11) b := by
  obtain ⟨e0, e1, e2, e3⟩ := idx_facts2_2 t
  funext y
  unfold iblk2 sblk
  rw [View.read_apply]
  show V c main_v11 _ = V c main_v11 _
  congr 1
  funext a
  apply Fin.ext
  match a with
  | ⟨0, _⟩ => show win2_2.index t (0 : Fin 4) * 1 + 1 * (y 0).val = b.val; have h : (y 0).val < 1 := (y 0).isLt; rw [e0, hb]; omega
  | ⟨1, _⟩ => show win2_2.index t (1 : Fin 4) * 16 + 1 * (y 1).val = (y 1).val; rw [e1]; omega
  | ⟨2, _⟩ => show win2_2.index t (2 : Fin 4) * 64 + 1 * (y 2).val = (y 2).val; rw [e2]; omega
  | ⟨3, _⟩ => show win2_2.index t (3 : Fin 4) * 64 + 1 * (y 3).val = (y 3).val; rw [e3]; omega

/-- Window 3's block at any point is the whole output weight the region finds. -/
theorem iblk2_3_eq (c : Dev nD) (t : Fin cfg2.N) : iblk2 V c 3 t = (V c main_v9 : S1024x1024.Idx → EReal) := by
  obtain ⟨e0, e1⟩ := idx_facts2_3 t
  funext y
  unfold iblk2
  rw [View.read_apply]
  show V c main_v9 _ = V c main_v9 _
  congr 1
  funext a
  apply Fin.ext
  match a with
  | ⟨0, _⟩ => show win2_3.index t (0 : Fin 2) * 1024 + 1 * (y 0).val = (y 0).val; rw [e0]; omega
  | ⟨1, _⟩ => show win2_3.index t (1 : Fin 2) * 1024 + 1 * (y 1).val = (y 1).val; rw [e1]; omega

/-! ## The payload of a row block, as the whole-array function at the block's place -/

/-- `q · S` of the blocks is `q · S` of the arrays at the block's place. -/
theorem o2_blk (Q : S4x16x4096x64.Idx → EReal) (KV : S4x16x64x64.Idx → EReal) (b : Fin 4) (r : Fin 8) (h : Fin 16) (l : Fin 512) (j : Fin 64) :
    o2 (qblk Q b r) (sblk KV b) h l j = O2 Q KV b h (rowOf2 r l) j := rfl

/-- The payload over a row block, at an index of the block, is the whole-array function at the index's place in the array
    (the reference keeps the zero its lane sum starts from). -/
theorem pay2_blk (Q U : S4x16x4096x64.Idx → EReal) (KV : S4x16x64x64.Idx → EReal) (W : S1024x1024.Idx → EReal)
    (b : Fin 4) (r : Fin 8) (l : Fin 512) (n : Fin 1024) :
    k2_pay1 (qblk Q b r) (qblk U b r) (sblk KV b) W (ix3 (0 : Fin 1) l n) = G2 Q U KV W (ix3 b (rowOf2 r l) n) := by
  rw [k2_pay1_apply, G2_apply]
  refine Finset.sum_congr rfl fun d _ => ?_
  refine congrArg (· * W (ix2 d n)) ?_
  unfold g2 nrm2 Gt2
  rw [zero_add]
  simp only [o2_blk]
  rfl

/-! ## What each point writes back -/

/-- An index of an output block, by its coordinates. -/
theorem blkIdx2_eq (j : S1x512x1024.Idx) :
    j = ix3 (0 : Fin 1) (⟨(j 1).val, (j 1).isLt⟩ : Fin 512) (⟨(j 2).val, (j 2).isLt⟩ : Fin 1024) := by
  funext a
  match a with
  | ⟨0, _⟩ => exact Fin.ext (by have h : (j 0).val < 1 := (j 0).isLt; show (j 0).val = 0; omega)
  | ⟨1, _⟩ => rfl
  | ⟨2, _⟩ => rfl

/-- Where an index of point `t`'s block of the output window sits in the array. -/
theorem emb2_4 (t : Fin cfg2.N) (b : Fin 4) (r : Fin 8) (hb : b.val = t.val / 8) (hr : r.val = t.val % 8) (j : S1x512x1024.Idx) :
    (((cfg2.win 4).blk t).view.emb j : S4x4096x1024.Idx)
      = ix3 b (rowOf2 r ⟨(j 1).val, (j 1).isLt⟩) (⟨(j 2).val, (j 2).isLt⟩ : Fin 1024) := by
  obtain ⟨e0, e1, e2⟩ := idx_facts2_4 t
  funext a
  apply Fin.ext
  match a with
  | ⟨0, _⟩ => show win2_4.index t (0 : Fin 3) * 1 + 1 * (j 0).val = b.val; have h : (j 0).val < 1 := (j 0).isLt; omega
  | ⟨1, _⟩ => show win2_4.index t (1 : Fin 3) * 512 + 1 * (j 1).val = 512 * r.val + (j 1).val; omega
  | ⟨2, _⟩ => show win2_4.index t (2 : Fin 3) * 1024 + 1 * (j 2).val = (j 2).val; omega

/-- What point `t` writes back to the output array is block `t` of the whole-array function of the arrays the region finds. -/
theorem flushed2_4_eq (c : Dev nD) (t : Fin cfg2.N) :
    (dat2 V c).flushed 4 t
      = ((cfg2.win 4).blk t).view.read (Elt Ideal) (G2 (V c main_v10_0) (V c main_v10_3) (V c main_v11) (V c main_v9)) := by
  have ht : t.val < 32 := lt_of_lt_of_eq t.isLt N_2
  show (cfg2.win 4).cut (grid2.coords t) ((dat2 V c).after 4 t) = _
  rw [after2_4]
  unfold out2_4
  rw [View.canon_unit_zero zeros3]
  simp only [View.ld_unit_zero (S := S1x16x512x64) zeros4, View.ld_unit_zero (S := S1x16x64x64) zeros4,
    View.ld_unit_zero (S := S1024x1024) zeros2]
  rw [iblk2_0_eq V c t ⟨t.val / 8, by omega⟩ ⟨t.val % 8, by omega⟩ rfl rfl,
    iblk2_1_eq V c t ⟨t.val / 8, by omega⟩ ⟨t.val % 8, by omega⟩ rfl rfl,
    iblk2_2_eq V c t ⟨t.val / 8, by omega⟩ rfl, iblk2_3_eq]
  funext j
  show k2_pay1 (qblk (V c main_v10_0) ⟨t.val / 8, _⟩ ⟨t.val % 8, _⟩) (qblk (V c main_v10_3) ⟨t.val / 8, _⟩ ⟨t.val % 8, _⟩)
      (sblk (V c main_v11) ⟨t.val / 8, _⟩) (V c main_v9) j
    = G2 (V c main_v10_0) (V c main_v10_3) (V c main_v11) (V c main_v9) (((cfg2.win 4).blk t).view.emb j)
  rw [emb2_4 t ⟨t.val / 8, by omega⟩ ⟨t.val % 8, by omega⟩ rfl rfl j]
  exact (congrArg _ (blkIdx2_eq j)).trans (pay2_blk _ _ _ _ _ _ _ _)

/-! ## The blocks tile the array -/

/-- An index of the array is in point `t`'s block iff each coordinate is in the block's range on its axis. -/
theorem mem_blk2_4 (t : Fin cfg2.N) (i : S4x4096x1024.Idx) :
    i ∈ ((cfg2.win 4).blk t).view.set ↔ ∀ a : Fin 3, win2_4.index t a * S1x512x1024.size a ≤ (i a).val
      ∧ (i a).val < win2_4.index t a * S1x512x1024.size a + S1x512x1024.size a := by
  show i ∈ ((View.whole main_v12).slice (win2_4.rect t)).set ↔ _
  rw [View.set_slice_whole, Rect.mem_set_unit]
  exact Iff.rfl

/-- Every index of the output array is in the block of the point `8 b + l / 512` of its batch `b` and row `l`. -/
theorem covered2_4 (i : S4x4096x1024.Idx) :
    ∃ t : Fin cfg2.N, (cfg2.win 4).flush t = true ∧ i ∈ ((cfg2.win 4).blk t).view.set := by
  have h0 : (i 0).val < 4 := (i 0).isLt
  have h1 : (i 1).val < 4096 := (i 1).isLt
  have h2 : (i 2).val < 1024 := (i 2).isLt
  have hN : cfg2.N = 32 := N_2
  have hlt : 8 * (i 0).val + (i 1).val / 512 < cfg2.N := by rw [hN]; omega
  obtain ⟨e0, e1, e2⟩ := idx_facts2_4 ⟨8 * (i 0).val + (i 1).val / 512, hlt⟩
  have e0' : win2_4.index ⟨8 * (i 0).val + (i 1).val / 512, hlt⟩ (0 : Fin 3) = (8 * (i 0).val + (i 1).val / 512) / 8 := e0
  have e1' : win2_4.index ⟨8 * (i 0).val + (i 1).val / 512, hlt⟩ (1 : Fin 3) = (8 * (i 0).val + (i 1).val / 512) % 8 := e1
  refine ⟨⟨8 * (i 0).val + (i 1).val / 512, hlt⟩, flush2_4 _, ?_⟩
  rw [mem_blk2_4]
  intro a
  match a with
  | ⟨0, _⟩ =>
    show win2_4.index ⟨8 * (i 0).val + (i 1).val / 512, hlt⟩ (0 : Fin 3) * 1 ≤ (i 0).val
      ∧ (i 0).val < win2_4.index ⟨8 * (i 0).val + (i 1).val / 512, hlt⟩ (0 : Fin 3) * 1 + 1
    rw [e0']; omega
  | ⟨1, _⟩ =>
    show win2_4.index ⟨8 * (i 0).val + (i 1).val / 512, hlt⟩ (1 : Fin 3) * 512 ≤ (i 1).val
      ∧ (i 1).val < win2_4.index ⟨8 * (i 0).val + (i 1).val / 512, hlt⟩ (1 : Fin 3) * 512 + 512
    rw [e1']; omega
  | ⟨2, _⟩ =>
    show win2_4.index ⟨8 * (i 0).val + (i 1).val / 512, hlt⟩ (2 : Fin 3) * 1024 ≤ (i 2).val
      ∧ (i 2).val < win2_4.index ⟨8 * (i 0).val + (i 1).val / 512, hlt⟩ (2 : Fin 3) * 1024 + 1024
    rw [e2]; omega

/-! ## The array after the region -/

/-- The output array after the region's run is the whole-array function of the arrays the region finds. -/
theorem final2 (c : Dev nD) :
    (dat2 V c).arrAt 4 cfg2.N = G2 (V c main_v10_0) (V c main_v10_3) (V c main_v11) (V c main_v9) :=
  (dat2 V c).arrAt_eq_of_cover 4 (G2 (V c main_v10_0) (V c main_v10_3) (V c main_v11) (V c main_v9))
    (fun t _ => flushed2_4_eq V c t) covered2_4

end Cert.KernelIdeal.Val

end
-- ==== Proof.Val.SpecSum.lean ====
import proofs.«160171_j67336497267250_2_alg».proof.Proof.Val.Spec

/-! The state kv accumulated in four tiles of 1024 positions is the sum over all 4096 positions. -/

noncomputable section

namespace Cert.KernelIdeal.Val

open Cert.KernelIdeal Idealize.ShloMosaic Idealize.ShloMosaic.ValueIdx

/-- The 4096 positions are the pairs (tile, position inside the tile): l = 1024*r + l'. -/
def tileEquiv : Fin 4 × Fin 1024 ≃ Fin 4096 where
  toFun p := tile p.1 p.2
  invFun l := (⟨l.val / 1024, by have h1 := l.isLt; omega⟩, ⟨l.val % 1024, by omega⟩)
  left_inv p := by
    have h1 := p.1.isLt; have h2 := p.2.isLt
    exact Prod.ext (Fin.ext (by show (1024 * p.1.val + p.2.val) / 1024 = p.1.val; omega))
      (Fin.ext (by show (1024 * p.1.val + p.2.val) % 1024 = p.2.val; omega))
  right_inv l := Fin.ext (by show 1024 * (l.val / 1024) + l.val % 1024 = l.val; omega)

/-- A sum over the 4096 positions is the sum over the four tiles of the sums over each tile's 1024 positions. -/
theorem sum_tiles (f : Fin 4096 → EReal) :
    ∑ l : Fin 4096, f l = ∑ r : Fin 4, ∑ l : Fin 1024, f (tile r l) := by
  rw [← Equiv.sum_comp tileEquiv f, Fintype.sum_prod_type]
  rfl

/-- kv[b,h,i,j] = sum over l of k[b,h,l,i] * v[b,h,l,j]: the zero accumulator drops and the four tiles make up the whole range. -/
theorem G1_sum (k v : S4x16x4096x64.Idx → EReal) (b : Fin 4) (h : Fin 16) (i j : Fin 64) :
    G1 k v (ix4 b h i j) = ∑ l : Fin 4096, k (ix4 b h l i) * v (ix4 b h l j) := by
  rw [G1_apply, zero_add, sum_tiles (fun l => k (ix4 b h l i) * v (ix4 b h l j)), Fin.sum_univ_four]
  rfl

end Cert.KernelIdeal.Val

end
-- ==== Proof.Val.Ref.lean ====
import proofs.«160171_j67336497267250_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

/-! The reference's key stages read at an index, each in terms of the previous key stages.

  With x of shape 4 x 4096 x 1024 and five weight matrices of shape 1024 x 1024, the reference computes
  q = relu(proj Wq) / 8, k = relu(proj Wk) / 8, v = proj Wv, u = silu(proj Wu), where
  proj W [b,h,l,j] = sum over d of x[b,l,d] * W[64*h + j, d] (a projection whose 1024 columns are split into
  16 heads of width 64 and transposed to head-major order); then kv[b,h,i,j] = sum over l of k[b,h,l,i] * v[b,h,l,j],
  o[b,h,l,j] = sum over i of q[b,h,l,i] * kv[b,h,i,j], the row norm n = sqrt(sum over j of (o * 1/8)^2),
  g = o / max(n, eps) * u, and the output projection of g with the heads merged back into 1024 columns. -/

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx

/-- The column of the merged 1024-wide axis that lane j of head h occupies: 64*h + j. -/
abbrev hcol (h : Fin 16) (j : Fin 64) : Fin 1024 :=
  ⟨64 * h.val + j.val, by have h1 := h.isLt; have h2 := j.isLt; omega⟩

/-! ## Index equations: the composed layout maps at an index built from its coordinates -/

/-- The left operand of a projection under the head split and the transpose: row (b, l), contracted column d.
    (The four projections of the reference are the same three operations, so this one pair of equations serves all of them.) -/
theorem proj_lidx (b : Fin 4) (h : Fin 16) (l : Fin 4096) (j : Fin 64) (d : Fin 1024) :
    Read.lidx_main_v12 (Read.idx_main_v13 (Read.idx_main_v14 (ix4 b h l j))) d = ix3 b l d := by
  have hb := b.isLt; have hl := l.isLt; have hh := h.isLt; have hj := j.isLt
  funext a
  match a with
  | ⟨0, _⟩ => exact Fin.ext (by show ((((b.val * 4096 + l.val) * 16 + h.val) * 64 + j.val) / 4194304) = b.val; omega)
  | ⟨1, _⟩ => exact Fin.ext (by show ((((b.val * 4096 + l.val) * 16 + h.val) * 64 + j.val) / 1024 % 4096) = l.val; omega)
  | ⟨2, _⟩ => rfl

/-- The right operand of a projection: weight row 64*h + j, contracted column d. -/
theorem proj_ridx (b : Fin 4) (h : Fin 16) (l : Fin 4096) (j : Fin 64) (d : Fin 1024) :
    Read.ridx_main_v12 (Read.idx_main_v13 (Read.idx_main_v14 (ix4 b h l j))) d = ix2 (hcol h j) d := by
  have hb := b.isLt; have hl := l.isLt; have hh := h.isLt; have hj := j.isLt
  funext a
  match a with
  | ⟨0, _⟩ => exact Fin.ext (by show ((((b.val * 4096 + l.val) * 16 + h.val) * 64 + j.val) % 1024) = 64 * h.val + j.val; omega)
  | ⟨1, _⟩ => rfl

/-! ## Float literals of the reference as extended reals -/

/-- The word of 1.0 denotes 1. -/
theorem ofBits_one : Ideal.ofBits .f32 0x3F800000#32 = 1 := by
  simp [Ideal.ofBits, Ideal.ieee, -EReal.coe_mul]; norm_num

/-- The word of 8.0 denotes the real 8. -/
theorem ofBits_eight : Ideal.ofBits .f32 0x41000000#32 = ((8 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- Multiplying by 1/8 is dividing by 8, at the infinities too. -/
theorem mul_eighth (y : EReal) :
    y * Ideal.ofBits .f32 0x3E000000#32 = Ideal.div y (Ideal.ofBits .f32 0x41000000#32) := by
  rw [ofBits_eight, ofBits_eighth, Ideal.div_coe (by norm_num : (8 : ℝ) ≠ 0)]

/-- The head that column d of the merged 1024-wide axis belongs to: d / 64. -/
abbrev hd (d : Fin 1024) : Fin 16 := ⟨d.val / 64, by have h1 := d.isLt; omega⟩

/-- The lane of column d of the merged 1024-wide axis inside its head: d % 64. -/
abbrev ln (d : Fin 1024) : Fin 64 := ⟨d.val % 64, by omega⟩

/-- Merging the heads back (transpose, then reshape) reads head d / 64, lane d % 64 of row (b, l). -/
theorem out_lidx (b : Fin 4) (l : Fin 4096) (e d : Fin 1024) :
    Read.idx_main_v29 (Read.idx_main_v30 (Read.lidx_main_v31 (ix3 b l e) d)) = ix4 b (hd d) l (ln d) := by
  have hb := b.isLt; have hl := l.isLt; have hd' := d.isLt
  funext a
  match a with
  | ⟨0, _⟩ => exact Fin.ext (by show ((b.val * 4096 + l.val) * 1024 + d.val) / 4194304 = b.val; omega)
  | ⟨1, _⟩ => exact Fin.ext (by show ((b.val * 4096 + l.val) * 1024 + d.val) / 64 % 16 = d.val / 64; omega)
  | ⟨2, _⟩ => exact Fin.ext (by show ((b.val * 4096 + l.val) * 1024 + d.val) / 1024 % 4096 = l.val; omega)
  | ⟨3, _⟩ => exact Fin.ext (by show ((b.val * 4096 + l.val) * 1024 + d.val) % 64 = d.val % 64; omega)

variable (x : (⟨S4x4096x1024, .f32⟩ : BufTy).Contents (Elt Ideal))
variable (wq wk wv wu wo : (⟨S1024x1024, .f32⟩ : BufTy).Contents (Elt Ideal))

/-! ## The four projections at an index -/

/-- proj Wq at an index (before the relu and the division). -/
theorem ref_pq (b : Fin 4) (h : Fin 16) (l : Fin 4096) (j : Fin 64) :
    Read.val_main_v2 (F := Ideal) x wq (ix4 b h l j) = ∑ d : Fin 1024, x (ix3 b l d) * wq (ix2 (hcol h j) d) := by
  rw [Read.val_main_v2_apply, Read.val_main_v1_apply, Read.val_main_v0_apply]
  refine Finset.sum_congr rfl fun d _ => ?_
  exact congrArg₂ (· * ·) (congrArg x (proj_lidx b h l j d)) (congrArg wq (proj_ridx b h l j d))

/-- proj Wk at an index (before the relu and the division). -/
theorem ref_pk (b : Fin 4) (h : Fin 16) (l : Fin 4096) (j : Fin 64) :
    Read.val_main_v8 (F := Ideal) x wk (ix4 b h l j) = ∑ d : Fin 1024, x (ix3 b l d) * wk (ix2 (hcol h j) d) := by
  rw [Read.val_main_v8_apply, Read.val_main_v7_apply, Read.val_main_v6_apply]
  refine Finset.sum_congr rfl fun d _ => ?_
  exact congrArg₂ (· * ·) (congrArg x (proj_lidx b h l j d)) (congrArg wk (proj_ridx b h l j d))

/-- v = proj Wv at an index. -/
theorem ref_v (b : Fin 4) (h : Fin 16) (l : Fin 4096) (j : Fin 64) :
    Read.val_main_v14 (F := Ideal) x wv (ix4 b h l j) = ∑ d : Fin 1024, x (ix3 b l d) * wv (ix2 (hcol h j) d) := by
  rw [Read.val_main_v14_apply, Read.val_main_v13_apply, Read.val_main_v12_apply]
  refine Finset.sum_congr rfl fun d _ => ?_
  exact congrArg₂ (· * ·) (congrArg x (proj_lidx b h l j d)) (congrArg wv (proj_ridx b h l j d))

/-- proj Wu at an index (before the silu). -/
theorem ref_pu (b : Fin 4) (h : Fin 16) (l : Fin 4096) (j : Fin 64) :
    Read.val_main_v17 (F := Ideal) x wu (ix4 b h l j) = ∑ d : Fin 1024, x (ix3 b l d) * wu (ix2 (hcol h j) d) := by
  rw [Read.val_main_v17_apply, Read.val_main_v16_apply, Read.val_main_v15_apply]
  refine Finset.sum_congr rfl fun d _ => ?_
  exact congrArg₂ (· * ·) (congrArg x (proj_lidx b h l j d)) (congrArg wu (proj_ridx b h l j d))

/-! ## q, k, u -/

/-- q = relu(proj Wq) / 8 at an index. -/
theorem ref_q (b : Fin 4) (h : Fin 16) (l : Fin 4096) (j : Fin 64) :
    Read.val_main_v5 (F := Ideal) x wq (ix4 b h l j)
      = Ideal.div (max (∑ d : Fin 1024, x (ix3 b l d) * wq (ix2 (hcol h j) d)) 0) (Ideal.ofBits .f32 0x41000000#32) := by
  rw [Read.val_main_v5_apply, Read.val_main_v3_apply, Read.val_main_call0_v0_apply, Read.val_main_call0_cst_apply,
    Read.val_main_v4_apply, Read.val_main_cst_apply, ref_pq x wq b h l j]
  simp only [Ideal.hostDivf_def, Ideal.maximumf_def, Ideal.ofBits_def, Ideal.ofBits_zero_f32]

/-- k = relu(proj Wk) / 8 at an index. -/
theorem ref_k (b : Fin 4) (h : Fin 16) (l : Fin 4096) (j : Fin 64) :
    Read.val_main_v11 (F := Ideal) x wk (ix4 b h l j)
      = Ideal.div (max (∑ d : Fin 1024, x (ix3 b l d) * wk (ix2 (hcol h j) d)) 0) (Ideal.ofBits .f32 0x41000000#32) := by
  rw [Read.val_main_v11_apply, Read.val_main_v9_apply, Read.val_main_call1_v0_apply, Read.val_main_call1_cst_apply,
    Read.val_main_v10_apply, Read.val_main_cst_0_apply, ref_pk x wk b h l j]
  simp only [Ideal.hostDivf_def, Ideal.maximumf_def, Ideal.ofBits_def, Ideal.ofBits_zero_f32]

/-- u = silu(proj Wu) at an index: p * (1 / (1 + exp(-p))) with p the projection. -/
theorem ref_u (b : Fin 4) (h : Fin 16) (l : Fin 4096) (j : Fin 64) :
    Read.val_main_v18 (F := Ideal) x wu (ix4 b h l j)
      = (∑ d : Fin 1024, x (ix3 b l d) * wu (ix2 (hcol h j) d))
        * Ideal.div 1 (1 + Ideal.exp (-(∑ d : Fin 1024, x (ix3 b l d) * wu (ix2 (hcol h j) d)))) := by
  rw [Read.val_main_v18_apply, Read.val_main_call2_v5_apply, Read.val_main_call2_v4_apply, Read.val_main_call2_cst_0_apply,
    Read.val_main_call2_v3_apply, Read.val_main_call2_v2_apply, Read.val_main_call2_cst_apply,
    Read.val_main_call2_v1_apply, Read.val_main_call2_v0_apply, ref_pu x wu b h l j]
  simp only [Ideal.mulf_def, Ideal.hostDivf_def, Ideal.addf_def, Ideal.hostUnary_exp_def, Ideal.hostNegf_def, Ideal.negf_def,
    Ideal.ofBits_def, ofBits_one]

/-- The same with the logistic function, which is that expression by definition. -/
theorem ref_u_logistic (b : Fin 4) (h : Fin 16) (l : Fin 4096) (j : Fin 64) :
    Read.val_main_v18 (F := Ideal) x wu (ix4 b h l j)
      = (∑ d : Fin 1024, x (ix3 b l d) * wu (ix2 (hcol h j) d))
        * Ideal.logistic (∑ d : Fin 1024, x (ix3 b l d) * wu (ix2 (hcol h j) d)) := by
  rw [ref_u x wu b h l j, Ideal.logistic]

/-! ## kv and o -/

/-- kv[b,h,i,j] = sum over l of k[b,h,l,i] * v[b,h,l,j]. -/
theorem ref_kv (b : Fin 4) (h : Fin 16) (i j : Fin 64) :
    Read.val_main_v19 (F := Ideal) x wk wv (ix4 b h i j)
      = ∑ l : Fin 4096, Read.val_main_v11 (F := Ideal) x wk (ix4 b h l i) * Read.val_main_v14 (F := Ideal) x wv (ix4 b h l j) := by
  rw [Read.val_main_v19_apply]
  generalize Read.val_main_v11 (F := Ideal) x wk = K
  generalize Read.val_main_v14 (F := Ideal) x wv = V
  refine Finset.sum_congr rfl fun l _ => ?_
  exact congrArg₂ (· * ·)
    (congrArg K (funext fun a => Fin.ext (by match a with | ⟨0, _⟩ => rfl | ⟨1, _⟩ => rfl | ⟨2, _⟩ => rfl | ⟨3, _⟩ => rfl)))
    (congrArg V (funext fun a => Fin.ext (by match a with | ⟨0, _⟩ => rfl | ⟨1, _⟩ => rfl | ⟨2, _⟩ => rfl | ⟨3, _⟩ => rfl)))

/-- o[b,h,l,j] = sum over i of q[b,h,l,i] * kv[b,h,i,j]. -/
theorem ref_o (b : Fin 4) (h : Fin 16) (l : Fin 4096) (j : Fin 64) :
    Read.val_main_v20 (F := Ideal) x wq wk wv (ix4 b h l j)
      = ∑ i : Fin 64, Read.val_main_v5 (F := Ideal) x wq (ix4 b h l i) * Read.val_main_v19 (F := Ideal) x wk wv (ix4 b h i j) := by
  rw [Read.val_main_v20_apply]
  generalize Read.val_main_v5 (F := Ideal) x wq = Q
  generalize Read.val_main_v19 (F := Ideal) x wk wv = KV
  refine Finset.sum_congr rfl fun i _ => ?_
  exact congrArg₂ (· * ·)
    (congrArg Q (funext fun a => Fin.ext (by match a with | ⟨0, _⟩ => rfl | ⟨1, _⟩ => rfl | ⟨2, _⟩ => rfl | ⟨3, _⟩ => rfl)))
    (congrArg KV (funext fun a => Fin.ext (by match a with | ⟨0, _⟩ => rfl | ⟨1, _⟩ => rfl | ⟨2, _⟩ => rfl | ⟨3, _⟩ => rfl)))

/-! ## The normalised, gated output and the final projection -/

/-- g = o / max(sqrt(0 + sum over j' of (o * 1/8)^2), eps) * u at an index, in terms of o and u. -/
theorem ref_g (b : Fin 4) (h : Fin 16) (l : Fin 4096) (j : Fin 64) :
    Read.val_main_v28 (F := Ideal) x wq wk wv wu (ix4 b h l j)
      = Ideal.div (Read.val_main_v20 (F := Ideal) x wq wk wv (ix4 b h l j))
          (max (Ideal.sqrt (0 + ∑ j' : Fin 64,
              (Read.val_main_v20 (F := Ideal) x wq wk wv (ix4 b h l j') * Ideal.ofBits .f32 0x3E000000#32)
              * (Read.val_main_v20 (F := Ideal) x wq wk wv (ix4 b h l j') * Ideal.ofBits .f32 0x3E000000#32)))
            (Ideal.ofBits .f32 0x2B8CBCCC#32))
        * Read.val_main_v18 (F := Ideal) x wu (ix4 b h l j) := by
  rw [Read.val_main_v28_apply, Read.val_main_v27_apply, Read.val_main_v26_apply, Read.val_main_v25_apply,
    Read.val_main_v24_apply, Read.val_main_cst_2_apply, Read.val_main_v23_apply, Read.val_main_call3_v2_apply,
    Read.val_main_call3_v1_apply, Read.val_main_call3_cst_apply]
  simp only [Read.val_main_call3_v0_apply, Read.val_main_v22_apply, Read.val_main_v21_apply, Read.val_main_cst_1_apply]
  generalize Read.val_main_v20 (F := Ideal) x wq wk wv = O
  generalize Read.val_main_v18 (F := Ideal) x wu = Uu
  have he : ∀ k : Fin 64,
      Read.idx_main_call3_v1 (Read.idx_main_call3_v2 (Read.idx_main_v26 (ix4 b h l j))) k = ix4 b h l k :=
    fun k => funext fun a => Fin.ext (by match a with | ⟨0, _⟩ => rfl | ⟨1, _⟩ => rfl | ⟨2, _⟩ => rfl | ⟨3, _⟩ => rfl)
  simp only [he, Ideal.mulf_def, Ideal.hostDivf_def, Ideal.maximumf_def, Ideal.hostUnary_sqrt_def, Ideal.ofBits_def,
    Ideal.ofBits_zero_f32]

/-- The output projection at an index, over g with the heads merged back: column d is head d / 64, lane d % 64. -/
theorem ref_out_g (b : Fin 4) (l : Fin 4096) (e : Fin 1024) :
    Read.val_main_v31 (F := Ideal) x wq wk wv wu wo (ix3 b l e)
      = ∑ d : Fin 1024, Read.val_main_v28 (F := Ideal) x wq wk wv wu (ix4 b (hd d) l (ln d)) * wo (ix2 e d) := by
  rw [Read.val_main_v31_apply]
  refine Finset.sum_congr rfl fun d _ => ?_
  rw [Read.val_main_v30_apply, Read.val_main_v29_apply]
  generalize Read.val_main_v28 (F := Ideal) x wq wk wv wu = G
  exact congrArg₂ (· * ·) (congrArg G (out_lidx b l e d))
    (congrArg wo (funext fun a => Fin.ext (by match a with | ⟨0, _⟩ => rfl | ⟨1, _⟩ => rfl)))

/-- The reference's result at an index in terms of o and u. -/
theorem ref_out (b : Fin 4) (l : Fin 4096) (e : Fin 1024) :
    Read.val_main_v31 (F := Ideal) x wq wk wv wu wo (ix3 b l e)
      = ∑ d : Fin 1024,
          (Ideal.div (Read.val_main_v20 (F := Ideal) x wq wk wv (ix4 b (hd d) l (ln d)))
              (max (Ideal.sqrt (0 + ∑ j' : Fin 64,
                  (Read.val_main_v20 (F := Ideal) x wq wk wv (ix4 b (hd d) l j') * Ideal.ofBits .f32 0x3E000000#32)
                  * (Read.val_main_v20 (F := Ideal) x wq wk wv (ix4 b (hd d) l j') * Ideal.ofBits .f32 0x3E000000#32)))
                (Ideal.ofBits .f32 0x2B8CBCCC#32))
            * Read.val_main_v18 (F := Ideal) x wu (ix4 b (hd d) l (ln d)))
          * wo (ix2 e d) := by
  rw [ref_out_g x wq wk wv wu wo b l e]
  refine Finset.sum_congr rfl fun d _ => ?_
  rw [ref_g x wq wk wv wu b (hd d) l (ln d)]

end Cert.ReferenceIdeal.RefVal

end
-- ==== Proof.Val.Bridge.lean ====
import proofs.«160171_j67336497267250_2_alg».proof.Proof.Gen.KernelIdeal
import proofs.«160171_j67336497267250_2_alg».proof.Proof.Val.Spec
import proofs.«160171_j67336497267250_2_alg».proof.Proof.Val.SpecSum
import proofs.«160171_j67336497267250_2_alg».proof.Proof.Val.Ref
import Idealize.ShloMosaic.Lib.Pipeline.Value

/-! The kernels' whole-array functions, applied to the transposed weights, are the reference's stages.

  The host transposes each weight (and rounds it, which over the extended reals changes nothing), so the kernels
  contract over the rows of the transposed weight where the reference contracts over the columns of the weight:
  the same sum. Multiplying by 1/8 is dividing by 8. The state accumulated in four tiles is the whole sum. The
  output stage has the reference's own form once its operands are the reference's stages. -/

noncomputable section

namespace Cert.KernelIdeal.Val

open Cert.KernelIdeal Idealize.ShloMosaic Idealize.ShloMosaic.ValueIdx
open Cert.ReferenceIdeal.Read (val_main_v5 val_main_v11 val_main_v14 val_main_v18 val_main_v19 val_main_v20 val_main_v28 val_main_v31)

/-- The host's rounded transpose of a weight, over the extended reals. -/
def TW (w : S1024x1024.Idx → EReal) : S1024x1024.Idx → EReal :=
  (truncf (F := Ideal) .bf16
    (transpose S1024x1024 [1, 0] w Gen.transposes_S1024x1024_S1024x1024_1_0 : FVec Ideal S1024x1024 .f32)
    Gen.bitsLt_bf16_f32 : FVec Ideal S1024x1024 .bf16)

/-- The transposed weight at (e, n) is the weight at (n, e). -/
theorem TW_apply (w : S1024x1024.Idx → EReal) (e n : Fin 1024) : TW w (ix2 e n) = w (ix2 n e) := by
  unfold TW
  rw [truncf_apply]
  exact transpose_apply [1, 0] w Gen.transposes_S1024x1024_S1024x1024_1_0 (ix2 e n) (ix2 n e)
    (fun b => match b with | ⟨0, _⟩ => rfl | ⟨1, _⟩ => rfl)

variable (x : (⟨Cert.ReferenceIdeal.S4x4096x1024, .f32⟩ : BufTy).Contents (Elt Ideal))
variable (wq wk wv wu wo : (⟨Cert.ReferenceIdeal.S1024x1024, .f32⟩ : BufTy).Contents (Elt Ideal))

/-- A projection against the transposed weight is the reference's projection against the weight. -/
theorem P0_TW (w : (⟨Cert.ReferenceIdeal.S1024x1024, .f32⟩ : BufTy).Contents (Elt Ideal))
    (b : Fin 4) (h : Fin 16) (l : Fin 4096) (j : Fin 64) :
    P0 x (TW w) b h l j = ∑ d : Fin 1024, x (ix3 b l d) * w (ix2 (Cert.ReferenceIdeal.RefVal.hcol h j) d) := by
  unfold P0
  refine Finset.sum_congr rfl fun e _ => ?_
  rw [TW_apply]

/-- q. -/
theorem stage_q : G0r x (TW wq) = val_main_v5 (F := Ideal) x wq := by
  funext i
  obtain ⟨b, h, l, j, rfl⟩ : ∃ (b : Fin 4) (h : Fin 16) (l : Fin 4096) (j : Fin 64), i = ix4 b h l j :=
    ⟨i 0, i 1, i 2, i 3, eq_ix4 i⟩
  rw [G0r_apply, P0_TW, Cert.ReferenceIdeal.RefVal.mul_eighth, Cert.ReferenceIdeal.RefVal.ref_q x wq b h l j]

/-- k. -/
theorem stage_k : G0r x (TW wk) = val_main_v11 (F := Ideal) x wk := by
  funext i
  obtain ⟨b, h, l, j, rfl⟩ : ∃ (b : Fin 4) (h : Fin 16) (l : Fin 4096) (j : Fin 64), i = ix4 b h l j :=
    ⟨i 0, i 1, i 2, i 3, eq_ix4 i⟩
  rw [G0r_apply, P0_TW, Cert.ReferenceIdeal.RefVal.mul_eighth, Cert.ReferenceIdeal.RefVal.ref_k x wk b h l j]

/-- v. -/
theorem stage_v : G0v x (TW wv) = val_main_v14 (F := Ideal) x wv := by
  funext i
  obtain ⟨b, h, l, j, rfl⟩ : ∃ (b : Fin 4) (h : Fin 16) (l : Fin 4096) (j : Fin 64), i = ix4 b h l j :=
    ⟨i 0, i 1, i 2, i 3, eq_ix4 i⟩
  rw [G0v_apply, P0_TW, Cert.ReferenceIdeal.RefVal.ref_v x wv b h l j]

/-- u. -/
theorem stage_u : G0u x (TW wu) = val_main_v18 (F := Ideal) x wu := by
  funext i
  obtain ⟨b, h, l, j, rfl⟩ : ∃ (b : Fin 4) (h : Fin 16) (l : Fin 4096) (j : Fin 64), i = ix4 b h l j :=
    ⟨i 0, i 1, i 2, i 3, eq_ix4 i⟩
  rw [G0u_apply, P0_TW, Cert.ReferenceIdeal.RefVal.ref_u_logistic x wu b h l j]

/-- kv: the four tiles make up the reference's sum over all positions. -/
theorem stage_kv :
    G1 (val_main_v11 (F := Ideal) x wk) (val_main_v14 (F := Ideal) x wv) = val_main_v19 (F := Ideal) x wk wv := by
  funext y
  obtain ⟨b, h, i, j, rfl⟩ : ∃ (b : Fin 4) (h : Fin 16) (i : Fin 64) (j : Fin 64), y = ix4 b h i j :=
    ⟨y 0, y 1, y 2, y 3, eq_ix4 y⟩
  rw [G1_sum, Cert.ReferenceIdeal.RefVal.ref_kv x wk wv b h i j]

/-- o, over the reference's q and kv. -/
theorem O2_ref (b : Fin 4) (h : Fin 16) (l : Fin 4096) (j : Fin 64) :
    O2 (val_main_v5 (F := Ideal) x wq) (val_main_v19 (F := Ideal) x wk wv) b h l j
      = val_main_v20 (F := Ideal) x wq wk wv (ix4 b h l j) := by
  unfold O2
  exact (Cert.ReferenceIdeal.RefVal.ref_o x wq wk wv b h l j).symm

/-- g, over the reference's q, u and kv. -/
theorem Gt2_ref (b : Fin 4) (h : Fin 16) (l : Fin 4096) (j : Fin 64) :
    Gt2 (val_main_v5 (F := Ideal) x wq) (val_main_v18 (F := Ideal) x wu) (val_main_v19 (F := Ideal) x wk wv) b h l j
      = val_main_v28 (F := Ideal) x wq wk wv wu (ix4 b h l j) := by
  unfold Gt2
  simp only [O2_ref x wq wk wv]
  exact (Cert.ReferenceIdeal.RefVal.ref_g x wq wk wv wu b h l j).symm

/-- The result, over the reference's q, u and kv. -/
theorem stage_out :
    G2 (val_main_v5 (F := Ideal) x wq) (val_main_v18 (F := Ideal) x wu) (val_main_v19 (F := Ideal) x wk wv) (TW wo)
      = val_main_v31 (F := Ideal) x wq wk wv wu wo := by
  funext i
  obtain ⟨b, l, n, rfl⟩ : ∃ (b : Fin 4) (l : Fin 4096) (n : Fin 1024), i = ix3 b l n := ⟨i 0, i 1, i 2, eq_ix3 i⟩
  rw [G2_apply, Cert.ReferenceIdeal.RefVal.ref_out_g x wq wk wv wu wo b l n]
  refine Finset.sum_congr rfl fun d _ => ?_
  rw [TW_apply, Gt2_ref x wq wk wv wu b (hd d) l (ln d)]

/-- The three kernels' composite, on the transposed weights, is the reference's result. -/
theorem bridge :
    G2 (G0r x (TW wq)) (G0u x (TW wu)) (G1 (G0r x (TW wk)) (G0v x (TW wv))) (TW wo)
      = val_main_v31 (F := Ideal) x wq wk wv wu wo := by
  rw [stage_q x wq, stage_u x wu, stage_k x wk, stage_v x wv, stage_kv x wk wv, stage_out x wq wk wv wu wo]

end Cert.KernelIdeal.Val

end
-- ==== Proof.Val.Kernel.lean ====
/-
  The kernel program's result array as one function of the argument arrays: region 2's output array after its
  write-backs is the read-out G2 of the arrays region 2 is entered with; of these, q and u are what region 0 left
  (the scaled rectified projection and the gated projection of x), the state is what region 1 left (the tile-by-tile
  sum over the sequence of k ⊗ v, k and v region 0's), and the last is the host's rounded transpose of Wo; region 0
  itself reads x and the host's rounded transposes of Wq, Wk, Wv, Wu.
-/
import proofs.«160171_j67336497267250_2_alg».proof.Proof.KI.Run
import proofs.«160171_j67336497267250_2_alg».proof.Proof.Val.Arr0
import proofs.«160171_j67336497267250_2_alg».proof.Proof.Val.Arr1
import proofs.«160171_j67336497267250_2_alg».proof.Proof.Val.Arr2
import proofs.«160171_j67336497267250_2_alg».proof.Proof.Val.Bridge

noncomputable section

namespace Cert.KernelIdeal.Val

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The result array after the run, as a function of the six argument arrays as launched. -/
theorem kernel_value (c : Dev nD) :
    W4 m ρ c (Proc.devRef .tc main_v12)
      = G2 (G0r (m ((c : Thread nD τ).loc main_arg0)) (TW (m ((c : Thread nD τ).loc main_arg1))))
           (G0u (m ((c : Thread nD τ).loc main_arg0)) (TW (m ((c : Thread nD τ).loc main_arg4))))
           (G1 (G0r (m ((c : Thread nD τ).loc main_arg0)) (TW (m ((c : Thread nD τ).loc main_arg2))))
               (G0v (m ((c : Thread nD τ).loc main_arg0)) (TW (m ((c : Thread nD τ).loc main_arg3)))))
           (TW (m ((c : Thread nD τ).loc main_arg5))) := by
  rw [result_eq, final2 (V3 m ρ) c, V3_main_v10_0, V3_main_v10_3, V3_main_v11, V3_main_v9,
    final0_5 (V1 m ρ) c, final0_8 (V1 m ρ) c, final1 (V2 m ρ) c, V2_main_v10_1, V2_main_v10_2,
    final0_6 (V1 m ρ) c, final0_7 (V1 m ρ) c, V1_main_arg0, V1_main_v1, V1_main_v3, V1_main_v5, V1_main_v7, V1_main_v9]
  rfl

end Cert.KernelIdeal.Val

end
-- ==== Proof.lean ====
/-
  The certificate of the three-kernel retention layer against its reference, at the ideal instance.

  Both programs compute, for x of shape [4, 4096, 1024] and five square weight matrices,
      q = relu(x Wqᵀ) / 8,  k = relu(x Wkᵀ) / 8,  v = x Wvᵀ,  u = silu(x Wuᵀ)        (split into 16 heads of width 64),
      state[b,h] = Σ_l k[b,h,l,·] ⊗ v[b,h,l,·],   o = q · state,
      g = o / max(‖o / 8‖₂, ε) · u,   out = g Woᵀ                                         (heads merged again).
  The kernel program multiplies by the dyadic 1/8 where the reference divides by 8 (one function on the extended reals),
  uses the logistic function where the reference spells 1 / (1 + exp(−z)) (the same by definition), sums the state over
  four tiles of the sequence in an accumulator that starts at zero (a regrouping of one finite sum: addition of extended
  reals is commutative and associative), and reads the weights through transposes the host computes first. Roundings to
  bf16 are the identity at the ideal instance. No law used needs finiteness, so the precondition is never opened.

  Frames: each kernel program runs as ten host operations and three kernel regions (Proof/K/Run.lean at the word level,
  Proof/KI/Run.lean idealized); the reference's frame is its generated run with the result dropped. The idealization
  rewrote nothing, so `preserves` is trivial.
-/
import proofs.«160171_j67336497267250_2_alg».proof.Defs
import proofs.«160171_j67336497267250_2_alg».proof.Proof.Gen.Kernel
import proofs.«160171_j67336497267250_2_alg».proof.Proof.Gen.KernelIdeal
import proofs.«160171_j67336497267250_2_alg».proof.Proof.Gen.ReferenceIdeal
import proofs.«160171_j67336497267250_2_alg».proof.Proof.Gen.Pre_finite_inputs
import proofs.«160171_j67336497267250_2_alg».proof.Proof.Gen.ReferenceIdeal.Run
import proofs.«160171_j67336497267250_2_alg».proof.Proof.Gen.ReferenceIdeal.Read
import proofs.«160171_j67336497267250_2_alg».proof.Proof.K.Run
import proofs.«160171_j67336497267250_2_alg».proof.Proof.KI.Run
import proofs.«160171_j67336497267250_2_alg».proof.Proof.Val.Kernel
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories agreeing on the six arguments, the idealized kernel program ends with its result array at the
    read-out of the projections and the state (`kernel_value`), the reference with its result at its last stage
    (the generated run); the two are one function of the arguments (`bridge`). -/
theorem algebraic : Cert.algebraic_KernelIdeal_ReferenceIdeal := by
  intro m ρ m' ρ' _ hagree
  refine ⟨fun c => Cert.KernelIdeal.Hand.W4 m ρ c (Proc.devRef .tc Cert.KernelIdeal.main_v12), ?_, ?_⟩
  · exact (θ_run Cert.KernelIdeal.defs _ _).mono (fun _ h c =>
      ⟨h c _ (Cert.KernelIdeal.Hand.mem_uc Cert.KernelIdeal.main_v12 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2.1,
      (hagree c).2.2.2.2.1, (hagree c).2.2.2.2.2]
    exact ((Cert.KernelIdeal.Val.kernel_value m ρ c).trans (Cert.KernelIdeal.Val.bridge _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
